-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v76_0)) (v1 : (c : Dev Cert.KernelIdeal.nD) → Buf (Elt Ideal) ((c.tc : Thread Cert.KernelIdeal.nD Cert.KernelIdeal.τ).loc Cert.KernelIdeal.main_v76_1)) (v2 : (c : Dev Cert.KernelIdeal.nD) → Buf (Elt Ideal) ((c.tc : Thread Cert.KernelIdeal.nD Cert.KernelIdeal.τ).loc Cert.KernelIdeal.main_v76_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76_0) = v0 c
          ∧ r.2.mem ((c.tc : Thread Cert.KernelIdeal.nD Cert.KernelIdeal.τ).loc Cert.KernelIdeal.main_v76_1) = v1 c
          ∧ r.2.mem ((c.tc : Thread Cert.KernelIdeal.nD Cert.KernelIdeal.τ).loc Cert.KernelIdeal.main_v76_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S_ : Shape := ⟨0, ![]⟩

class Facts : Prop where
  bcast_S_S16384x896 : S_.BroadcastsInDim S16384x896 (![] : Fin 0 → Fin S16384x896.rank)
  reducesTo_S16384x896_S_d0_1 : S16384x896.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_
  bcast_S_S2688x896 : S_.BroadcastsInDim S2688x896 (![] : Fin 0 → Fin S2688x896.rank)
  reducesTo_S2688x896_S_d0_1 : S2688x896.ReducesTo [0, 1] S_
  bcast_S_S1344x2 : S_.BroadcastsInDim S1344x2 (![] : Fin 0 → Fin S1344x2.rank)
  reducesTo_S1344x2_S_d0_1 : S1344x2.ReducesTo [0, 1] S_
  bcast_S_S1344x3 : S_.BroadcastsInDim S1344x3 (![] : Fin 0 → Fin S1344x3.rank)
  reducesTo_S1344x3_S_d0_1 : S1344x3.ReducesTo [0, 1] S_
  bcast_S_S448x448 : S_.BroadcastsInDim S448x448 (![] : Fin 0 → Fin S448x448.rank)
  reducesTo_S448x448_S_d0_1 : S448x448.ReducesTo [0, 1] S_
  bcast_S_S448 : S_.BroadcastsInDim S448 (![] : Fin 0 → Fin S448.rank)
  reducesTo_S448_S_d0 : S448.ReducesTo [0] S_
  bcast_S_S256x448 : S_.BroadcastsInDim S256x448 (![] : Fin 0 → Fin S256x448.rank)
  reducesTo_S256x448_S_d0_1 : S256x448.ReducesTo [0, 1] S_
  bcast_S_S256 : S_.BroadcastsInDim S256 (![] : Fin 0 → Fin S256.rank)
  reducesTo_S256_S_d0 : S256.ReducesTo [0] S_
  bcast_S_S896 : S_.BroadcastsInDim S896 (![] : Fin 0 → Fin S896.rank)
  reducesTo_S896_S_d0 : S896.ReducesTo [0] S_

variable [Facts]

def fn_part5 {F : FTy → Type} [FloatOps F] (main_v83 : IVec S_ 1) (main_v84 : FVec F S896 .f32) (main_cst_32 : FVec F S_ .f32) : IVec S_ 1 :=
  let main_v85 : FVec F S896 .f32 := broadcastInDim S896 ![] bcast_S_S896 main_cst_32
  let main_v86 : IVec S896 1 := cmpf .olt main_v84 main_v85
  let main_c_33 : IVec S_ 1 := constantI S_ 1 1#1
  let main_v87 : IVec S_ 1 := (fun x v => Host.reduce IntOp.andi x v reducesTo_S896_S_d0 h_S_) main_v86 main_c_33
  let main_v88 : IVec S_ 1 := andi main_v83 main_v87
  main_v88

def fn_part4 {F : FTy → Type} [FloatOps F] (main_arg14 : FVec F S256 .f32) (main_arg15 : FVec F S896 .f32) (main_arg16 : FVec F S896 .f32) (main_arg17 : FVec F S896 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S896 .f32 := Host.absf main_arg15
  let main_cst_28 : FVec F S_ .f32 := constant S_ .f32 0x7F800000#32
  let main_v75 : FVec F S896 .f32 := broadcastInDim S896 ![] bcast_S_S896 main_cst_28
  let main_v76 : IVec S896 1 := cmpf .olt main_v74 main_v75
  let main_c_29 : IVec S_ 1 := constantI S_ 1 1#1
  let main_v77 : IVec S_ 1 := (fun x v => Host.reduce IntOp.andi x v reducesTo_S896_S_d0 h_S_) main_v76 main_c_29
  let main_v78 : IVec S_ 1 := andi main_v73 main_v77
  let main_v79 : FVec F S896 .f32 := Host.absf main_arg16
  let main_cst_30 : FVec F S_ .f32 := constant S_ .f32 0x7F800000#32
  let main_v80 : FVec F S896 .f32 := broadcastInDim S896 ![] bcast_S_S896 main_cst_30
  let main_v81 : IVec S896 1 := cmpf .olt main_v79 main_v80
  let main_c_31 : IVec S_ 1 := constantI S_ 1 1#1
  let main_v82 : IVec S_ 1 := (fun x v => Host.reduce IntOp.andi x v reducesTo_S896_S_d0 h_S_) main_v81 main_c_31
  let main_v83 : IVec S_ 1 := andi main_v78 main_v82
  let main_v84 : FVec F S896 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v48 : IVec S_ 1) (main_v49 : FVec F S448 .f32) (main_v50 : FVec F S448 .f32) : IVec S_ 1 :=
  let main_v51 : IVec S448 1 := cmpf .olt main_v49 main_v50
  let main_c_19 : IVec S_ 1 := constantI S_ 1 1#1
  let main_v52 : IVec S_ 1 := (fun x v => Host.reduce IntOp.andi x v reducesTo_S448_S_d0 h_S_) main_v51 main_c_19
  let main_v53 : IVec S_ 1 := andi main_v48 main_v52
  let main_v54 : FVec F S256x448 .f32 := Host.absf main_arg11
  let main_cst_20 : FVec F S_ .f32 := constant S_ .f32 0x7F800000#32
  let main_v55 : FVec F S256x448 .f32 := broadcastInDim S256x448 ![] bcast_S_S256x448 main_cst_20
  let main_v56 : IVec S256x448 1 := cmpf .olt main_v54 main_v55
  let main_c_21 : IVec S_ 1 := constantI S_ 1 1#1
  let main_v57 : IVec S_ 1 := (fun x v => Host.reduce IntOp.andi x v reducesTo_S256x448_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x448 .f32 := Host.absf main_arg13
  let main_cst_24 : FVec F S_ .f32 := constant S_ .f32 0x7F800000#32
  let main_v65 : FVec F S256x448 .f32 := broadcastInDim S256x448 ![] bcast_S_S256x448 main_cst_24
  let main_v66 : IVec S256x448 1 := cmpf .olt main_v64 main_v65
  let main_c_25 : IVec S_ 1 := constantI S_ 1 1#1
  let main_v67 : IVec S_ 1 := (fun x v => Host.reduce IntOp.andi x v reducesTo_S256x448_S_d0_1 h_S_) main_v66 main_c_25
  fn_part4 (F := F) main_arg14 main_arg15 main_arg16 main_arg17 main_v63 main_v67

def fn_part2 {F : FTy → Type} [FloatOps F] (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v33 : IVec S_ 1) : IVec S_ 1 :=
  let main_v34 : FVec F S448x448 .f32 := Host.absf main_arg7
  let main_cst_12 : FVec F S_ .f32 := constant S_ .f32 0x7F800000#32
  let main_v35 : FVec F S448x448 .f32 := broadcastInDim S448x448 ![] bcast_S_S448x448 main_cst_12
  let main_v36 : IVec S448x448 1 := cmpf .olt main_v34 main_v35
  let main_c_13 : IVec S_ 1 := constantI S_ 1 1#1
  let main_v37 : IVec S_ 1 := (fun x v => Host.reduce IntOp.andi x v reducesTo_S448x448_S_d0_1 h_S_) main_v36 main_c_13
  let main_v38 : IVec S_ 1 := andi main_v33 main_v37
  let main_v39 : FVec F S448 .f32 := Host.absf main_arg8
  let main_cst_14 : FVec F S_ .f32 := constant S_ .f32 0x7F800000#32
  let main_v40 : FVec F S448 .f32 := broadcastInDim S448 ![] bcast_S_S448 main_cst_14
  let main_v41 : IVec S448 1 := cmpf .olt main_v39 main_v40
  let main_c_15 : IVec S_ 1 := constantI S_ 1 1#1
  let main_v42 : IVec S_ 1 := (fun x v => Host.reduce IntOp.andi x v reducesTo_S448_S_d0 h_S_) main_v41 main_c_15
  let main_v43 : IVec S_ 1 := andi main_v38 main_v42
  let main_v44 : FVec F S448x448 .f32 := Host.absf main_arg9
  let main_cst_16 : FVec F S_ .f32 := constant S_ .f32 0x7F800000#32
  let main_v45 : FVec F S448x448 .f32 := broadcastInDim S448x448 ![] bcast_S_S448x448 main_cst_16
  let main_v46 : IVec S448x448 1 := cmpf .olt main_v44 main_v45
  let main_c_17 : IVec S_ 1 := constantI S_ 1 1#1
  let main_v47 : IVec S_ 1 := (fun x v => Host.reduce IntOp.andi x v reducesTo_S448x448_S_d0_1 h_S_) main_v46 main_c_17
  let main_v48 : IVec S_ 1 := andi main_v43 main_v47
  let main_v49 : FVec F S448 .f32 := Host.absf main_arg10
  let main_cst_18 : FVec F S_ .f32 := constant S_ .f32 0x7F800000#32
  let main_v50 : FVec F S448 .f32 := broadcastInDim S448 ![] bcast_S_S448 main_cst_18
  fn_part3 (F := F) main_arg11 main_arg12 main_arg13 main_arg14 main_arg15 main_arg16 main_arg17 main_v48 main_v49 main_v50

def fn_part1 {F : FTy → Type} [FloatOps F] (main_arg4 : FVec F S2688x896 .f32) (main_arg5 : FVec F S1344x2 .f32) (main_arg6 : FVec F S1344x3 .f32) (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) (main_v13 : IVec S_ 1) (main_v16 : IVec S16384x1 1) : IVec S_ 1 :=
  let main_c_5 : IVec S_ 1 := constantI S_ 1 1#1
  let main_v17 : IVec S_ 1 := (fun x v => Host.reduce IntOp.andi x v reducesTo_S16384x1_S_d0_1 h_S_) main_v16 main_c_5
  let main_v18 : IVec S_ 1 := andi main_v13 main_v17
  let main_v19 : FVec F S2688x896 .f32 := Host.absf main_arg4
  let main_cst_6 : FVec F S_ .f32 := constant S_ .f32 0x7F800000#32
  let main_v20 : FVec F S2688x896 .f32 := broadcastInDim S2688x896 ![] bcast_S_S2688x896 main_cst_6
  let main_v21 : IVec S2688x896 1 := cmpf .olt main_v19 main_v20
  let main_c_7 : IVec S_ 1 := constantI S_ 1 1#1
  let main_v22 : IVec S_ 1 := (fun x v => Host.reduce IntOp.andi x v reducesTo_S2688x896_S_d0_1 h_S_) main_v21 main_c_7
  let main_v23 : IVec S_ 1 := andi main_v18 main_v22
  let main_v24 : FVec F S1344x2 .f32 := Host.absf main_arg5
  let main_cst_8 : FVec F S_ .f32 := constant S_ .f32 0x7F800000#32
  let main_v25 : FVec F S1344x2 .f32 := broadcastInDim S1344x2 ![] bcast_S_S1344x2 main_cst_8
  let main_v26 : IVec S1344x2 1 := cmpf .olt main_v24 main_v25
  let main_c_9 : IVec S_ 1 := constantI S_ 1 1#1
  let main_v27 : IVec S_ 1 := (fun x v => Host.reduce IntOp.andi x v reducesTo_S1344x2_S_d0_1 h_S_) main_v26 main_c_9
  let main_v28 : IVec S_ 1 := andi main_v23 main_v27
  let main_v29 : FVec F S1344x3 .f32 := Host.absf main_arg6
  let main_cst_10 : FVec F S_ .f32 := constant S_ .f32 0x7F800000#32
  let main_v30 : FVec F S1344x3 .f32 := broadcastInDim S1344x3 ![] bcast_S_S1344x3 main_cst_10
  let main_v31 : IVec S1344x3 1 := cmpf .olt main_v29 main_v30
  let main_c_11 : IVec S_ 1 := constantI S_ 1 1#1
  let main_v32 : IVec S_ 1 := (fun x v => Host.reduce IntOp.andi x v reducesTo_S1344x3_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x896 .f32) (main_arg1 : FVec F S16384x1 .f32) (main_arg2 : FVec F S16384x1 .f32) (main_arg3 : FVec F S16384x1 .f32) (main_arg4 : FVec F S2688x896 .f32) (main_arg5 : FVec F S1344x2 .f32) (main_arg6 : FVec F S1344x3 .f32) (main_arg7 : FVec F S448x448 .f32) (main_arg8 : FVec F S448 .f32) (main_arg9 : FVec F S448x448 .f32) (main_arg10 : FVec F S448 .f32) (main_arg11 : FVec F S256x448 .f32) (main_arg12 : FVec F S256 .f32) (main_arg13 : FVec F S256x448 .f32) (main_arg14 : FVec F S256 .f32) (main_arg15 : FVec F S896 .f32) (main_arg16 : FVec F S896 .f32) (main_arg17 : FVec F S896 .f32) : IVec S_ 1 :=
  let main_v0 : FVec F S16384x896 .f32 := Host.absf main_arg0
  let main_cst : FVec F S_ .f32 := constant S_ .f32 0x7F800000#32
  let main_v1 : FVec F S16384x896 .f32 := broadcastInDim S16384x896 ![] bcast_S_S16384x896 main_cst
  let main_v2 : IVec S16384x896 1 := cmpf .olt main_v0 main_v1
  let main_c : IVec S_ 1 := constantI S_ 1 1#1
  let main_v3 : IVec S_ 1 := (fun x v => Host.reduce IntOp.andi x v reducesTo_S16384x896_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384x1 .f32 := Host.absf main_arg3
  let main_cst_4 : FVec F S_ .f32 := constant S_ .f32 0x7F800000#32
  let main_v15 : FVec F S16384x1 .f32 := broadcastInDim S16384x1 ![] bcast_S_S16384x1 main_cst_4
  let main_v16 : IVec S16384x1 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S896x2688 : Shape := ⟨2, ![896, 2688]⟩
abbrev S2x1344 : Shape := ⟨2, ![2, 1344]⟩
abbrev S3x1344 : Shape := ⟨2, ![3, 1344]⟩
abbrev S1x1344 : Shape := ⟨2, ![1, 1344]⟩
abbrev S1344 : Shape := ⟨1, ![1344]⟩
abbrev S_ : Shape := ⟨0, ![]⟩
abbrev S2688 : Shape := ⟨1, ![2688]⟩
abbrev S1x2688 : Shape := ⟨2, ![1, 2688]⟩
abbrev S896x896 : Shape := ⟨2, ![896, 896]⟩
abbrev S1 : Shape := ⟨1, ![1]⟩
abbrev S2 : Shape := ⟨1, ![2]⟩
abbrev S1x896 : Shape := ⟨2, ![1, 896]⟩
abbrev S896x512 : Shape := ⟨2, ![896, 512]⟩
abbrev S448x256 : Shape := ⟨2, ![448, 256]⟩
abbrev S512 : Shape := ⟨1, ![512]⟩
abbrev S1x512 : Shape := ⟨2, ![1, 512]⟩
abbrev S16384x3 : Shape := ⟨2, ![16384, 3]⟩
abbrev S16384x256 : Shape := ⟨2, ![16384, 256]⟩
abbrev S512x896 : Shape := ⟨2, ![512, 896]⟩
abbrev S512x3 : Shape := ⟨2, ![512, 3]⟩
abbrev S512x256 : Shape := ⟨2, ![512, 256]⟩
abbrev S512x1 : Shape := ⟨2, ![512, 1]⟩
abbrev S512x2688 : Shape := ⟨2, ![512, 2688]⟩
abbrev S512x512 : Shape := ⟨2, ![512, 512]⟩

abbrev nBuf : Space → Nat
  | .hbm => 108
  | .vmem => 19
  | .smem => 0
  | _ => 0

abbrev bufTy : (tb : Table) → Fin (tcTables nBuf tb) → BufTy
  | .hbm, ⟨0, _⟩ => ⟨S16384x896, .f32⟩
  | .hbm, ⟨1, _⟩ => ⟨S16384x1, .f32⟩
  | .hbm, ⟨2, _⟩ => ⟨S16384x1, .f32⟩
  | .hbm, ⟨3, _⟩ => ⟨S16384x1, .f32⟩
  | .hbm, ⟨4, _⟩ => ⟨S2688x896, .f32⟩
  | .hbm, ⟨5, _⟩ => ⟨S1344x2, .f32⟩
  | .hbm, ⟨6, _⟩ => ⟨S1344x3, .f32⟩
  | .hbm, ⟨7, _⟩ => ⟨S448x448, .f32⟩
  | .hbm, ⟨8, _⟩ => ⟨S448, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S256x448, .f32⟩
  | .hbm, ⟨14, _⟩ => ⟨S256, .f32⟩
  | .hbm, ⟨15, _⟩ => ⟨S896, .f32⟩
  | .hbm, ⟨16, _⟩ => ⟨S896, .f32⟩
  | .hbm, ⟨17, _⟩ => ⟨S896, .f32⟩
  | .hbm, ⟨18, _⟩ => ⟨S896x2688, .f32⟩
  | .hbm, ⟨19, _⟩ => ⟨S896x2688, .bf16⟩
  | .hbm, ⟨20, _⟩ => ⟨S2x1344, .f32⟩
  | .hbm, ⟨21, _⟩ => ⟨S3x1344, .f32⟩
  | .hbm, ⟨22, _⟩ => ⟨S1x1344, .f32⟩
  | .hbm, ⟨23, _⟩ => ⟨S1344, .f32⟩
  | .hbm, ⟨24, _⟩ => ⟨S1x1344, .f32⟩
  | .hbm, ⟨25, _⟩ => ⟨S1344, .f32⟩
  | .hbm, ⟨26, _⟩ => ⟨S1x1344, .f32⟩
  | .hbm, ⟨27, _⟩ => ⟨S1344, .f32⟩
  | .hbm, ⟨28, _⟩ => ⟨S1x1344, .f32⟩
  | .hbm, ⟨29, _⟩ => ⟨S1344, .f32⟩
  | .hbm, ⟨30, _⟩ => ⟨S1x1344, .f32⟩
  | .hbm, ⟨31, _⟩ => ⟨S1344, .f32⟩
  | .hbm, ⟨32, _⟩ => ⟨S_, .f32⟩
  | .hbm, ⟨33, _⟩ => ⟨S448, .f32⟩
  | .hbm, ⟨34, _⟩ => ⟨S448, .f32⟩
  | .hbm, ⟨35, _⟩ => ⟨S448, .f32⟩
  | .hbm, ⟨36, _⟩ => ⟨S896, .f32⟩
  | .hbm, ⟨37, _⟩ => ⟨S448, .f32⟩
  | .hbm, ⟨38, _⟩ => ⟨S448, .f32⟩
  | .hbm, ⟨39, _⟩ => ⟨S896, .f32⟩
  | .hbm, ⟨40, _⟩ => ⟨S448, .f32⟩
  | .hbm, ⟨41, _⟩ => ⟨S448, .f32⟩
  | .hbm, ⟨42, _⟩ => ⟨S896, .f32⟩
  | .hbm, ⟨43, _⟩ => ⟨S2688, .f32⟩
  | .hbm, ⟨44, _⟩ => ⟨S1x2688, .f32⟩
  | .hbm, ⟨45, _⟩ => ⟨S448, .f32⟩
  | .hbm, ⟨46, _⟩ => ⟨S448, .f32⟩
  | .hbm, ⟨47, _⟩ => ⟨S896, .f32⟩
  | .hbm, ⟨48, _⟩ => ⟨S448, .f32⟩
  | .hbm, ⟨49, _⟩ => ⟨S448, .f32⟩
  | .hbm, ⟨50, _⟩ => ⟨S896, .f32⟩
  | .hbm, ⟨51, _⟩ => ⟨S448, .f32⟩
  | .hbm, ⟨52, _⟩ => ⟨S448, .f32⟩
  | .hbm, ⟨53, _⟩ => ⟨S896, .f32⟩
  | .hbm, ⟨54, _⟩ => ⟨S2688, .f32⟩
  | .hbm, ⟨55, _⟩ => ⟨S1x2688, .f32⟩
  | .hbm, ⟨56, _⟩ => ⟨S448, .f32⟩
  | .hbm, ⟨57, _⟩ => ⟨S896, .f32⟩
  | .hbm, ⟨58, _⟩ => ⟨S448, .f32⟩
  | .hbm, ⟨59, _⟩ => ⟨S896, .f32⟩
  | .hbm, ⟨60, _⟩ => ⟨S448, .f32⟩
  | .hbm, ⟨61, _⟩ => ⟨S896, .f32⟩
  | .hbm, ⟨62, _⟩ => ⟨S2688, .f32⟩
  | .hbm, ⟨63, _⟩ => ⟨S1x2688, .f32⟩
  | .hbm, ⟨64, _⟩ => ⟨S2688, .f32⟩
  | .hbm, ⟨65, _⟩ => ⟨S1x2688, .f32⟩
  | .hbm, ⟨66, _⟩ => ⟨S_, .f32⟩
  | .hbm, ⟨67, _⟩ => ⟨S896x896, .f32⟩
  | .hbm, ⟨68, _⟩ => ⟨S448x448, .f32⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S896x896, .f32⟩
  | .hbm, ⟨75, _⟩ => ⟨S448x448, .f32⟩
  | .hbm, ⟨76, _⟩ => ⟨S_, .i32⟩
  | .hbm, ⟨77, _⟩ => ⟨S1, .i32⟩
  | .hbm, ⟨78, _⟩ => ⟨S_, .i32⟩
  | .hbm, ⟨79, _⟩ => ⟨S1, .i32⟩
  | .hbm, ⟨80, _⟩ => ⟨S2, .i32⟩
  | .hbm, ⟨81, _⟩ => ⟨S896x896, .f32⟩
  | .hbm, ⟨82, _⟩ => ⟨S896x896, .bf16⟩
  | .hbm, ⟨83, _⟩ => ⟨S896, .f32⟩
  | .hbm, ⟨84, _⟩ => ⟨S1x896, .f32⟩
  | .hbm, ⟨85, _⟩ => ⟨S_, .f32⟩
  | .hbm, ⟨86, _⟩ => ⟨S896x512, .f32⟩
  | .hbm, ⟨87, _⟩ => ⟨S448x256, .f32⟩
  | .hbm, ⟨88, _⟩ => ⟨S_, .i32⟩
  | .hbm, ⟨89, _⟩ => ⟨S1, .i32⟩
  | .hbm, ⟨90, _⟩ => ⟨S_, .i32⟩
  | .hbm, ⟨91, _⟩ => ⟨S1, .i32⟩
  | .hbm, ⟨92, _⟩ => ⟨S2, .i32⟩
  | .hbm, ⟨93, _⟩ => ⟨S896x512, .f32⟩
  | .hbm, ⟨94, _⟩ => ⟨S448x256, .f32⟩
  | .hbm, ⟨95, _⟩ => ⟨S_, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S2, .i32⟩
  | .hbm, ⟨100, _⟩ => ⟨S896x512, .f32⟩
  | .hbm, ⟨101, _⟩ => ⟨S896x512, .bf16⟩
  | .hbm, ⟨102, _⟩ => ⟨S512, .f32⟩
  | .hbm, ⟨103, _⟩ => ⟨S1x512, .f32⟩
  | .hbm, ⟨104, _⟩ => ⟨S16384x3, .f32⟩
  | .hbm, ⟨105, _⟩ => ⟨S16384x896, .f32⟩
  | .hbm, ⟨106, _⟩ => ⟨S16384x256, .f32⟩
  | .hbm, ⟨107, _⟩ => ⟨S16384x256, .f32⟩
  | .local _ .vmem, ⟨0, _⟩ => ⟨S512x896, .f32⟩
  | .local _ .vmem, ⟨1, _⟩ => ⟨S512x896, .f32⟩
  | .local _ .vmem, ⟨2, _⟩ => ⟨S512x3, .f32⟩
  | .local _ .vmem, ⟨3, _⟩ => ⟨S512x3, .f32⟩
  | .local _ .vmem, ⟨4, _⟩ => ⟨S896x2688, .bf16⟩
  | .local _ .vmem, ⟨5, _⟩ => ⟨S1x2688, .f32⟩
  | .local _ .vmem, ⟨6, _⟩ => ⟨S1x2688, .f32⟩
  | .local _ .vmem, ⟨7, _⟩ => ⟨S1x2688, .f32⟩
  | .local _ .vmem, ⟨8, _⟩ => ⟨S1x2688, .f32⟩
  | .local _ .vmem, ⟨9, _⟩ => ⟨S896x896, .bf16⟩
  | .local _ .vmem, ⟨10, _⟩ => ⟨S1x896, .f32⟩
  | .local _ .vmem, ⟨11, _⟩ => ⟨S896x512, .bf16⟩
  | .local _ .vmem, ⟨12, _⟩ => ⟨S1x512, .f32⟩
  | .local _ .vmem, ⟨13, _⟩ => ⟨S512x896, .f32⟩
  | .local _ .vmem, ⟨14, _⟩ => ⟨S512x896, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | _, _ => ⟨S16384x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_0 : Ref sig .tc := ⟨.hbm, 66, rfl⟩
abbrev main_v47 : Ref sig .tc := ⟨.hbm, 67, rfl⟩
abbrev main_v48 : Ref sig .tc := ⟨.hbm, 68, rfl⟩
abbrev main_c : Ref sig .tc := ⟨.hbm, 69, rfl⟩
abbrev main_v49 : Ref sig .tc := ⟨.hbm, 70, rfl⟩
abbrev main_c_1 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_2 : Ref sig .tc := ⟨.hbm, 76, rfl⟩
abbrev main_v54 : Ref sig .tc := ⟨.hbm, 77, rfl⟩
abbrev main_c_3 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_4 : Ref sig .tc := ⟨.hbm, 85, rfl⟩
abbrev main_v61 : Ref sig .tc := ⟨.hbm, 86, rfl⟩
abbrev main_v62 : Ref sig .tc := ⟨.hbm, 87, rfl⟩
abbrev main_c_5 : Ref sig .tc := ⟨.hbm, 88, rfl⟩
abbrev main_v63 : Ref sig .tc := ⟨.hbm, 89, rfl⟩
abbrev main_c_6 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_7 : Ref sig .tc := ⟨.hbm, 95, rfl⟩
abbrev main_v68 : Ref sig .tc := ⟨.hbm, 96, rfl⟩
abbrev main_c_8 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76_0 : Ref sig .tc := ⟨.hbm, 105, rfl⟩
abbrev main_v76_1 : Ref sig .tc := ⟨.hbm, 106, rfl⟩
abbrev main_v76_2 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S896x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2688 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2688 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2688 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S896x896 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x896 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S896x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x896 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  transposes_S2688x896_S896x2688_1_0 : S2688x896.Transposes [1, 0] S896x2688
  bitsLt_bf16_f32 : FTy.bits .bf16 < FTy.bits .f32
  transposes_S1344x2_S2x1344_1_0 : S1344x2.Transposes [1, 0] S2x1344
  transposes_S1344x3_S3x1344_1_0 : S1344x3.Transposes [1, 0] S3x1344
  slices_S2x1344_S1x1344_0_0 : S2x1344.Slices ![0, 0] S1x1344
  shapeCasts_S1x1344_S1344 : S1x1344.ShapeCasts S1344
  slices_S2x1344_S1x1344_1_0 : S2x1344.Slices ![1, 0] S1x1344
  slices_S3x1344_S1x1344_0_0 : S3x1344.Slices ![0, 0] S1x1344
  slices_S3x1344_S1x1344_1_0 : S3x1344.Slices ![1, 0] S1x1344
  slices_S3x1344_S1x1344_2_0 : S3x1344.Slices ![2, 0] S1x1344
  bcast_S_S448 : S_.BroadcastsInDim S448 (![] : Fin 0 → Fin S448.rank)
  slices_S1344_S448_0 : S1344.Slices ![0] S448
  concatenates_S448_S448_S896_d0 : Shape.Concatenates [S448, S448] S896 0
  slices_S1344_S448_448 : S1344.Slices ![448] S448
  slices_S1344_S448_896 : S1344.Slices ![896] S448
  concatenates_S896_S896_S896_S2688_d0 : Shape.Concatenates [S896, S896, S896] S2688 0
  shapeCasts_S2688_S1x2688 : S2688.ShapeCasts S1x2688
  bcast_S_S896x896 : S_.BroadcastsInDim S896x896 (![] : Fin 0 → Fin S896x896.rank)
  transposes_S448x448_S448x448_1_0 : S448x448.Transposes [1, 0] S448x448
  bcast_S_S1 : S_.BroadcastsInDim S1 (![] : Fin 0 → Fin S1.rank)
  concatenates_S1_S1_S2_d0 : Shape.Concatenates [S1, S1] S2 0
  shapeCasts_S896_S1x896 : S896.ShapeCasts S1x896
  bcast_S_S896x512 : S_.BroadcastsInDim S896x512 (![] : Fin 0 → Fin S896x512.rank)
  transposes_S256x448_S448x256_1_0 : S256x448.Transposes [1, 0] S448x256
  concatenates_S256_S256_S512_d0 : Shape.Concatenates [S256, S256] S512 0
  shapeCasts_S512_S1x512 : S512.ShapeCasts S1x512
  concatenates_S16384x1_S16384x1_S16384x1_S16384x3_d1 : Shape.Concatenates [S16384x1, S16384x1, S16384x1] S16384x3 1
  inb_S512x896_S512x896_0_0 : ∀ a, (![0, 0] : Fin 2 → Nat) a + S512x896.size a ≤ S512x896.size a
  h_S512x896 : 0 < S512x896.numel
  inb_S512x3_S512x3_0_0 : ∀ a, (![0, 0] : Fin 2 → Nat) a + S512x3.size a ≤ S512x3.size a
  h_S512x3 : 0 < S512x3.numel
  shapeCasts_S512x3_S512x3 : S512x3.ShapeCasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  inb_S896x2688_S896x2688_0_0 : ∀ a, (![0, 0] : Fin 2 → Nat) a + S896x2688.size a ≤ S896x2688.size a
  h_S896x2688 : 0 < S896x2688.numel
  shapeCasts_S896x2688_S896x2688 : S896x2688.ShapeCasts S896x2688
  inb_S1x2688_S1x2688_0_0 : ∀ a, (![0, 0] : Fin 2 → Nat) a + S1x2688.size a ≤ S1x2688.size a
  h_S1x2688 : 0 < S1x2688.numel
  shapeCasts_S1x2688_S1x2688 : S1x2688.ShapeCasts S1x2688
  broadcasts_S512x1_S512x2688 : S512x1.Broadcasts S512x2688
  broadcasts_S1x2688_S512x2688 : S1x2688.Broadcasts S512x2688
  slices_S512x2688_o0_0_S512x896 : S512x2688.Slices ![0, 0] S512x896
  slices_S512x2688_o0_896_S512x896 : S512x2688.Slices ![0, 896] S512x896
  slices_S512x2688_o0_1792_S512x896 : S512x2688.Slices ![0, 1792] S512x896
  inb_S896x896_S896x896_0_0 : ∀ a, (![0, 0] : Fin 2 → Nat) a + S896x896.size a ≤ S896x896.size a
  h_S896x896 : 0 < S896x896.numel
  shapeCasts_S896x896_S896x896 : S896x896.ShapeCasts S896x896
  inb_S1x896_S1x896_0_0 : ∀ a, (![0, 0] : Fin 2 → Nat) a + S1x896.size a ≤ S1x896.size a
  h_S1x896 : 0 < S1x896.numel
  shapeCasts_S1x896_S1x896 : S1x896.ShapeCasts S1x896
  broadcasts_S1x896_S512x896 : S1x896.Broadcasts S512x896
  inb_S896x512_S896x512_0_0 : ∀ a, (![0, 0] : Fin 2 → Nat) a + S896x512.size a ≤ S896x512.size a
  h_S896x512 : 0 < S896x512.numel
  shapeCasts_S896x512_S896x512 : S896x512.ShapeCasts S896x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  slices_S512x512_o0_0_S512x256 : S512x512.Slices ![0, 0] S512x256
  inb_S512x256_S512x256_0_0 : ∀ a, (![0, 0] : Fin 2 → Nat) a + S512x256.size a ≤ S512x256.size a
  h_S512x256 : 0 < S512x256.numel
  slices_S512x512_o0_256_S512x256 : S512x512.Slices ![0, 256] S512x256
  scatter_S896x896_S2_S448x448_01_n_01_0_wf : ScatterDims.WF S896x896 S2 S448x448 [0, 1] [] [0, 1] 0
  scatter_S896x512_S2_S448x256_01_n_01_0_wf : ScatterDims.WF S896x512 S2 S448x256 [0, 1] [] [0, 1] 0
  dot_S512x896_S896x2688_S512x2688_1_0_0_1_n_n_wf : DotDims.WF S512x896 S896x2688 S512x2688 [1] [0] [0] [1] [] []
  dot_S512x896_S896x896_S512x896_1_0_0_1_n_n_wf : DotDims.WF S512x896 S896x896 S512x896 [1] [0] [0] [1] [] []
  dot_S512x896_S896x512_S512x512_1_0_0_1_n_n_wf : DotDims.WF S512x896 S896x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x896.size a ≤ S16384x896.size a
  hwx0_0 : ∀ i : grid0.Coords, EltTy.bits .f32 = 32 ∨ (Rect.block (s := S16384x896) S512x896.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x3.size a ≤ S16384x3.size a
  hwx0_1 : ∀ i : grid0.Coords, EltTy.bits .f32 = 32 ∨ (Rect.block (s := S16384x3) S512x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S896x2688.size a ≤ S896x2688.size a
  hwx0_2 : ∀ i : grid0.Coords, EltTy.bits .bf16 = 32 ∨ (Rect.block (s := S896x2688) S896x2688.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2688.size a ≤ S1x2688.size a
  hwx0_3 : ∀ i : grid0.Coords, EltTy.bits .f32 = 32 ∨ (Rect.block (s := S1x2688) S1x2688.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2688.size a ≤ S1x2688.size a
  hwx0_4 : ∀ i : grid0.Coords, EltTy.bits .f32 = 32 ∨ (Rect.block (s := S1x2688) S1x2688.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2688.size a ≤ S1x2688.size a
  hwx0_5 : ∀ i : grid0.Coords, EltTy.bits .f32 = 32 ∨ (Rect.block (s := S1x2688) S1x2688.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2688.size a ≤ S1x2688.size a
  hwx0_6 : ∀ i : grid0.Coords, EltTy.bits .f32 = 32 ∨ (Rect.block (s := S1x2688) S1x2688.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S896x896.size a ≤ S896x896.size a
  hwx0_7 : ∀ i : grid0.Coords, EltTy.bits .bf16 = 32 ∨ (Rect.block (s := S896x896) S896x896.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x896.size a ≤ S1x896.size a
  hwx0_8 : ∀ i : grid0.Coords, EltTy.bits .f32 = 32 ∨ (Rect.block (s := S1x896) S1x896.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S896x512.size a ≤ S896x512.size a
  hwx0_9 : ∀ i : grid0.Coords, EltTy.bits .bf16 = 32 ∨ (Rect.block (s := S896x512) S896x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x896.size a ≤ S16384x896.size a
  hwx0_11 : ∀ i : grid0.Coords, EltTy.bits .f32 = 32 ∨ (Rect.block (s := S16384x896) S512x896.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x256.size a ≤ S16384x256.size a
  hwx0_12 : ∀ i : grid0.Coords, EltTy.bits .f32 = 32 ∨ (Rect.block (s := S16384x256) S512x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x256.size a ≤ S16384x256.size a
  hwx0_13 : ∀ i : grid0.Coords, EltTy.bits .f32 = 32 ∨ (Rect.block (s := S16384x256) S512x256.size (cc0_transform_13 i) (hinb0_13 i)).WholeWords (EltTy.packing .f32)

variable [Facts₀]

def scatter_S896x896_S2_S448x448_01_n_01_0 : ScatterDims S896x896 S2 S448x448 where
  updateWindowDims := [0, 1]
  insertedWindowDims := []
  scatterDimsToOperandDims := [0, 1]
  indexVectorDim := 0
  wf := scatter_S896x896_S2_S448x448_01_n_01_0_wf
def scatter_S896x512_S2_S448x256_01_n_01_0 : ScatterDims S896x512 S2 S448x256 where
  updateWindowDims := [0, 1]
  insertedWindowDims := []
  scatterDimsToOperandDims := [0, 1]
  indexVectorDim := 0
  wf := scatter_S896x512_S2_S448x256_01_n_01_0_wf
def dot_S512x896_S896x2688_S512x2688_1_0_0_1_n_n : DotDims S512x896 S896x2688 S512x2688 where
  lhsContracting := [1]
  rhsContracting := [0]
  lhsNonContracting := [0]
  rhsNonContracting := [1]
  lhsBatch := []
  rhsBatch := []
  wf := dot_S512x896_S896x2688_S512x2688_1_0_0_1_n_n_wf
def dot_S512x896_S896x896_S512x896_1_0_0_1_n_n : DotDims S512x896 S896x896 S512x896 where
  lhsContracting := [1]
  rhsContracting := [0]
  lhsNonContracting := [0]
  rhsNonContracting := [1]
  lhsBatch := []
  rhsBatch := []
  wf := dot_S512x896_S896x896_S512x896_1_0_0_1_n_n_wf
def dot_S512x896_S896x512_S512x512_1_0_0_1_n_n : DotDims S512x896 S896x512 S512x512 where
  lhsContracting := [1]
  rhsContracting := [0]
  lhsNonContracting := [0]
  rhsNonContracting := [1]
  lhsBatch := []
  rhsBatch := []
  wf := dot_S512x896_S896x512_S512x512_1_0_0_1_n_n_wf

abbrev win0_0 : Pipeline.Window sig grid0 :=
  Pipeline.Window.ofSpec (Memref.whole main_arg0) S512x896.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v75) S512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S896x2688.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x2688.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x2688.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x2688.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x2688.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v58) S896x896.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S1x896.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v72) S896x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v74) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v76_0) S512x896.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v76_1) S512x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v76_2) S512x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x896 : Shape := ⟨2, ![16384, 896]⟩
abbrev S16384x1 : Shape := ⟨2, ![16384, 1]⟩
abbrev S2688x896 : Shape := ⟨2, ![2688, 896]⟩
abbrev S1344x2 : Shape := ⟨2, ![1344, 2]⟩
abbrev S1344x3 : Shape := ⟨2, ![1344, 3]⟩
abbrev S448x448 : Shape := ⟨2, ![448, 448]⟩
abbrev S448 : Shape := ⟨1, ![448]⟩
abbrev S256x448 : Shape := ⟨2, ![256, 448]⟩
abbrev S256 : Shape := ⟨1, ![256]⟩
abbrev S896 : Shape := ⟨1, ![896]⟩
abbrev S896x2688 : Shape := ⟨2, ![896, 2688]⟩
abbrev S16384x2688 : Shape := ⟨2, ![16384, 2688]⟩
abbrev S16384x2 : Shape := ⟨2, ![16384, 2]⟩
abbrev S2x1344 : Shape := ⟨2, ![2, 1344]⟩
abbrev S16384x1344 : Shape := ⟨2, ![16384, 1344]⟩
abbrev S16384x3 : Shape := ⟨2, ![16384, 3]⟩
abbrev S3x1344 : Shape := ⟨2, ![3, 1344]⟩
abbrev S16384x448 : Shape := ⟨2, ![16384, 448]⟩
abbrev S1x896 : Shape := ⟨2, ![1, 896]⟩
abbrev S_ : Shape := ⟨0, ![]⟩
abbrev S1x448 : Shape := ⟨2, ![1, 448]⟩
abbrev S448x256 : Shape := ⟨2, ![448, 256]⟩
abbrev S16384x256 : Shape := ⟨2, ![16384, 256]⟩
abbrev S1x256 : Shape := ⟨2, ![1, 256]⟩

abbrev nBuf : Space → Nat
  | .hbm => 102
  | .vmem => 0
  | .smem => 0
  | _ => 0

abbrev bufTy : (tb : Table) → Fin (tcTables nBuf tb) → BufTy
  | .hbm, ⟨0, _⟩ => ⟨S16384x896, .f32⟩
  | .hbm, ⟨1, _⟩ => ⟨S16384x1, .f32⟩
  | .hbm, ⟨2, _⟩ => ⟨S16384x1, .f32⟩
  | .hbm, ⟨3, _⟩ => ⟨S16384x1, .f32⟩
  | .hbm, ⟨4, _⟩ => ⟨S2688x896, .f32⟩
  | .hbm, ⟨5, _⟩ => ⟨S1344x2, .f32⟩
  | .hbm, ⟨6, _⟩ => ⟨S1344x3, .f32⟩
  | .hbm, ⟨7, _⟩ => ⟨S448x448, .f32⟩
  | .hbm, ⟨8, _⟩ => ⟨S448, .f32⟩
  | .hbm, ⟨9, _⟩ => ⟨S448x448, .f32⟩
  | .hbm, ⟨10, _⟩ => ⟨S448, .f32⟩
  | .hbm, ⟨11, _⟩ => ⟨S256x448, .f32⟩
  | .hbm, ⟨12, _⟩ => ⟨S256, .f32⟩
  | .hbm, ⟨13, _⟩ => ⟨S256x448, .f32⟩
  | .hbm, ⟨14, _⟩ => ⟨S256, .f32⟩
  | .hbm, ⟨15, _⟩ => ⟨S896, .f32⟩
  | .hbm, ⟨16, _⟩ => ⟨S896, .f32⟩
  | .hbm, ⟨17, _⟩ => ⟨S896, .f32⟩
  | .hbm, ⟨18, _⟩ => ⟨S896x2688, .f32⟩
  | .hbm, ⟨19, _⟩ => ⟨S16384x2688, .f32⟩
  | .hbm, ⟨20, _⟩ => ⟨S16384x2, .f32⟩
  | .hbm, ⟨21, _⟩ => ⟨S2x1344, .f32⟩
  | .hbm, ⟨22, _⟩ => ⟨S16384x1344, .f32⟩
  | .hbm, ⟨23, _⟩ => ⟨S16384x3, .f32⟩
  | .hbm, ⟨24, _⟩ => ⟨S3x1344, .f32⟩
  | .hbm, ⟨25, _⟩ => ⟨S16384x1344, .f32⟩
  | .hbm, ⟨26, _⟩ => ⟨S16384x448, .f32⟩
  | .hbm, ⟨27, _⟩ => ⟨S16384x448, .f32⟩
  | .hbm, ⟨28, _⟩ => ⟨S16384x896, .f32⟩
  | .hbm, ⟨29, _⟩ => ⟨S16384x448, .f32⟩
  | .hbm, ⟨30, _⟩ => ⟨S16384x448, .f32⟩
  | .hbm, ⟨31, _⟩ => ⟨S16384x896, .f32⟩
  | .hbm, ⟨32, _⟩ => ⟨S16384x448, .f32⟩
  | .hbm, ⟨33, _⟩ => ⟨S16384x448, .f32⟩
  | .hbm, ⟨34, _⟩ => ⟨S16384x896, .f32⟩
  | .hbm, ⟨35, _⟩ => ⟨S16384x896, .f32⟩
  | .hbm, ⟨36, _⟩ => ⟨S16384x896, .f32⟩
  | .hbm, ⟨37, _⟩ => ⟨S1x896, .f32⟩
  | .hbm, ⟨38, _⟩ => ⟨S16384x896, .f32⟩
  | .hbm, ⟨39, _⟩ => ⟨S16384x896, .f32⟩
  | .hbm, ⟨40, _⟩ => ⟨S16384x896, .f32⟩
  | .hbm, ⟨41, _⟩ => ⟨S16384x896, .f32⟩
  | .hbm, ⟨42, _⟩ => ⟨S_, .f32⟩
  | .hbm, ⟨43, _⟩ => ⟨S16384x896, .f32⟩
  | .hbm, ⟨44, _⟩ => ⟨S16384x896, .f32⟩
  | .hbm, ⟨45, _⟩ => ⟨S_, .f32⟩
  | .hbm, ⟨46, _⟩ => ⟨S16384x896, .f32⟩
  | .hbm, ⟨47, _⟩ => ⟨S16384x896, .f32⟩
  | .hbm, ⟨48, _⟩ => ⟨S16384x896, .f32⟩
  | .hbm, ⟨49, _⟩ => ⟨S16384x896, .f32⟩
  | .hbm, ⟨50, _⟩ => ⟨S1x896, .f32⟩
  | .hbm, ⟨51, _⟩ => ⟨S16384x896, .f32⟩
  | .hbm, ⟨52, _⟩ => ⟨S16384x896, .f32⟩
  | .hbm, ⟨53, _⟩ => ⟨S16384x896, .f32⟩
  | .hbm, ⟨54, _⟩ => ⟨S16384x896, .f32⟩
  | .hbm, ⟨55, _⟩ => ⟨S_, .f32⟩
  | .hbm, ⟨56, _⟩ => ⟨S16384x896, .f32⟩
  | .hbm, ⟨57, _⟩ => ⟨S16384x896, .f32⟩
  | .hbm, ⟨58, _⟩ => ⟨S_, .f32⟩
  | .hbm, ⟨59, _⟩ => ⟨S16384x896, .f32⟩
  | .hbm, ⟨60, _⟩ => ⟨S16384x896, .f32⟩
  | .hbm, ⟨61, _⟩ => ⟨S16384x896, .f32⟩
  | .hbm, ⟨62, _⟩ => ⟨S16384x896, .f32⟩
  | .hbm, ⟨63, _⟩ => ⟨S16384x896, .f32⟩
  | .hbm, ⟨64, _⟩ => ⟨S1x896, .f32⟩
  | .hbm, ⟨65, _⟩ => ⟨S16384x896, .f32⟩
  | .hbm, ⟨66, _⟩ => ⟨S16384x896, .f32⟩
  | .hbm, ⟨67, _⟩ => ⟨S16384x896, .f32⟩
  | .hbm, ⟨68, _⟩ => ⟨S16384x896, .f32⟩
  | .hbm, ⟨69, _⟩ => ⟨S_, .f32⟩
  | .hbm, ⟨70, _⟩ => ⟨S16384x896, .f32⟩
  | .hbm, ⟨71, _⟩ => ⟨S16384x896, .f32⟩
  | .hbm, ⟨72, _⟩ => ⟨S16384x896, .f32⟩
  | .hbm, ⟨73, _⟩ => ⟨S16384x896, .f32⟩
  | .hbm, ⟨74, _⟩ => ⟨S16384x448, .f32⟩
  | .hbm, ⟨75, _⟩ => ⟨S16384x448, .f32⟩
  | .hbm, ⟨76, _⟩ => ⟨S448x448, .f32⟩
  | .hbm, ⟨77, _⟩ => ⟨S16384x448, .f32⟩
  | .hbm, ⟨78, _⟩ => ⟨S1x448, .f32⟩
  | .hbm, ⟨79, _⟩ => ⟨S16384x448, .f32⟩
  | .hbm, ⟨80, _⟩ => ⟨S16384x448, .f32⟩
  | .hbm, ⟨81, _⟩ => ⟨S_, .f32⟩
  | .hbm, ⟨82, _⟩ => ⟨S16384x448, .f32⟩
  | .hbm, ⟨83, _⟩ => ⟨S16384x448, .f32⟩
  | .hbm, ⟨84, _⟩ => ⟨S448x256, .f32⟩
  | .hbm, ⟨85, _⟩ => ⟨S16384x256, .f32⟩
  | .hbm, ⟨86, _⟩ => ⟨S1x256, .f32⟩
  | .hbm, ⟨87, _⟩ => ⟨S16384x256, .f32⟩
  | .hbm, ⟨88, _⟩ => ⟨S16384x256, .f32⟩
  | .hbm, ⟨89, _⟩ => ⟨S448x448, .f32⟩
  | .hbm, ⟨90, _⟩ => ⟨S16384x448, .f32⟩
  | .hbm, ⟨91, _⟩ => ⟨S1x448, .f32⟩
  | .hbm, ⟨92, _⟩ => ⟨S16384x448, .f32⟩
  | .hbm, ⟨93, _⟩ => ⟨S16384x448, .f32⟩
  | .hbm, ⟨94, _⟩ => ⟨S_, .f32⟩
  | .hbm, ⟨95, _⟩ => ⟨S16384x448, .f32⟩
  | .hbm, ⟨96, _⟩ => ⟨S16384x448, .f32⟩
  | .hbm, ⟨97, _⟩ => ⟨S448x256, .f32⟩
  | .hbm, ⟨98, _⟩ => ⟨S16384x256, .f32⟩
  | .hbm, ⟨99, _⟩ => ⟨S1x256, .f32⟩
  | .hbm, ⟨100, _⟩ => ⟨S16384x256, .f32⟩
  | .hbm, ⟨101, _⟩ => ⟨S16384x256, .f32⟩
  | _, _ => ⟨S16384x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_cst_0 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_1 : Ref sig .tc := ⟨.hbm, 55, rfl⟩
abbrev main_v35 : Ref sig .tc := ⟨.hbm, 56, rfl⟩
abbrev main_v36 : Ref sig .tc := ⟨.hbm, 57, rfl⟩
abbrev main_cst_2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_3 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_call0_cst : Ref sig .tc := ⟨.hbm, 81, rfl⟩
abbrev main_call0_v0 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  transposes_S2688x896_S896x2688_1_0 : S2688x896.Transposes [1, 0] S896x2688
  concatenates_S16384x1_S16384x1_S16384x2_d1 : Shape.Concatenates [S16384x1, S16384x1] S16384x2 1
  transposes_S1344x2_S2x1344_1_0 : S1344x2.Transposes [1, 0] S2x1344
  concatenates_S16384x1_S16384x1_S16384x1_S16384x3_d1 : Shape.Concatenates [S16384x1, S16384x1, S16384x1] S16384x3 1
  transposes_S1344x3_S3x1344_1_0 : S1344x3.Transposes [1, 0] S3x1344
  slices_S16384x1344_S16384x448_0_0 : S16384x1344.Slices ![0, 0] S16384x448
  concatenates_S16384x448_S16384x448_S16384x896_d1 : Shape.Concatenates [S16384x448, S16384x448] S16384x896 1
  slices_S16384x1344_S16384x448_0_448 : S16384x1344.Slices ![0, 448] S16384x448
  slices_S16384x1344_S16384x448_0_896 : S16384x1344.Slices ![0, 896] S16384x448
  slices_S16384x2688_S16384x896_0_0 : S16384x2688.Slices ![0, 0] S16384x896
  bcast_S896_S1x896_1 : S896.BroadcastsInDim S1x896 (![1] : Fin 1 → Fin S1x896.rank)
  bcast_S1x896_S16384x896_0_1 : S1x896.BroadcastsInDim S16384x896 (![0, 1] : Fin 2 → Fin S16384x896.rank)
  bcast_S_S16384x896 : S_.BroadcastsInDim S16384x896 (![] : Fin 0 → Fin S16384x896.rank)
  slices_S16384x2688_S16384x896_0_896 : S16384x2688.Slices ![0, 896] S16384x896
  slices_S16384x2688_S16384x896_0_1792 : S16384x2688.Slices ![0, 1792] S16384x896
  slices_S16384x896_S16384x448_0_0 : S16384x896.Slices ![0, 0] S16384x448
  slices_S16384x896_S16384x448_0_448 : S16384x896.Slices ![0, 448] S16384x448
  transposes_S448x448_S448x448_1_0 : S448x448.Transposes [1, 0] S448x448
  bcast_S448_S1x448_1 : S448.BroadcastsInDim S1x448 (![1] : Fin 1 → Fin S1x448.rank)
  bcast_S1x448_S16384x448_0_1 : S1x448.BroadcastsInDim S16384x448 (![0, 1] : Fin 2 → Fin S16384x448.rank)
  bcast_S_S16384x448 : S_.BroadcastsInDim S16384x448 (![] : Fin 0 → Fin S16384x448.rank)
  transposes_S256x448_S448x256_1_0 : S256x448.Transposes [1, 0] S448x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x896_S896x2688_S16384x2688_1_0_0_1_n_n_wf : DotDims.WF S16384x896 S896x2688 S16384x2688 [1] [0] [0] [1] [] []
  dot_S16384x2_S2x1344_S16384x1344_1_0_0_1_n_n_wf : DotDims.WF S16384x2 S2x1344 S16384x1344 [1] [0] [0] [1] [] []
  dot_S16384x3_S3x1344_S16384x1344_1_0_0_1_n_n_wf : DotDims.WF S16384x3 S3x1344 S16384x1344 [1] [0] [0] [1] [] []
  dot_S16384x448_S448x448_S16384x448_1_0_0_1_n_n_wf : DotDims.WF S16384x448 S448x448 S16384x448 [1] [0] [0] [1] [] []
  dot_S16384x448_S448x256_S16384x256_1_0_0_1_n_n_wf : DotDims.WF S16384x448 S448x256 S16384x256 [1] [0] [0] [1] [] []

variable [Facts₀]

def dot_S16384x896_S896x2688_S16384x2688_1_0_0_1_n_n : DotDims S16384x896 S896x2688 S16384x2688 where
  lhsContracting := [1]
  rhsContracting := [0]
  lhsNonContracting := [0]
  rhsNonContracting := [1]
  lhsBatch := []
  rhsBatch := []
  wf := dot_S16384x896_S896x2688_S16384x2688_1_0_0_1_n_n_wf
def dot_S16384x2_S2x1344_S16384x1344_1_0_0_1_n_n : DotDims S16384x2 S2x1344 S16384x1344 where
  lhsContracting := [1]
  rhsContracting := [0]
  lhsNonContracting := [0]
  rhsNonContracting := [1]
  lhsBatch := []
  rhsBatch := []
  wf := dot_S16384x2_S2x1344_S16384x1344_1_0_0_1_n_n_wf
def dot_S16384x3_S3x1344_S16384x1344_1_0_0_1_n_n : DotDims S16384x3 S3x1344 S16384x1344 where
  lhsContracting := [1]
  rhsContracting := [0]
  lhsNonContracting := [0]
  rhsNonContracting := [1]
  lhsBatch := []
  rhsBatch := []
  wf := dot_S16384x3_S3x1344_S16384x1344_1_0_0_1_n_n_wf
def dot_S16384x448_S448x448_S16384x448_1_0_0_1_n_n : DotDims S16384x448 S448x448 S16384x448 where
  lhsContracting := [1]
  rhsContracting := [0]
  lhsNonContracting := [0]
  rhsNonContracting := [1]
  lhsBatch := []
  rhsBatch := []
  wf := dot_S16384x448_S448x448_S16384x448_1_0_0_1_n_n_wf
def dot_S16384x448_S448x256_S16384x256_1_0_0_1_n_n : DotDims S16384x448 S448x256 S16384x256 where
  lhsContracting := [1]
  rhsContracting := [0]
  lhsNonContracting := [0]
  rhsNonContracting := [1]
  lhsBatch := []
  rhsBatch := []
  wf := dot_S16384x448_S448x256_S16384x256_1_0_0_1_n_n_wf

class Facts : Prop extends Facts₀ where

variable [Facts]
-- ==== Proof.StepBits.lean ====
/-
  The gated recurrent step as a launched grid, read at the word level: the same account as for the idealized program
  (the weight preparation before the launch, the block each window presents at a grid step, the three tiles one step
  stores, the run of the thirty-two steps), stated for the program as printed. Only the frame is taken from it: the
  argument arrays end as they began.
-/
import proofs.«107390_j85950885527647_2_alg».proof.Proof.Gen.Kernel.Launch
import proofs.«107390_j85950885527647_2_alg».proof.Proof.Gen.Kernel.Skeleton
import proofs.«107390_j85950885527647_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- The TensorCore's buffers at the moment the grid is launched: the launch memory after the weight preparation
    (transposes, the gate coefficient rows, the two block-diagonal weights, the packed side inputs). -/
abbrev V (c : Dev nD) (b : Ref sig .tc) : Buf (Elt F) ((c : Thread nD τ).loc b) :=
  StableHlo.after hostOps0 (fun b => m (c, b)) b

set_option maxHeartbeats 4000000 in
/-- The weight preparation allocates nothing. -/
theorem hostOps0_fresh : (hostOps0 : List (HloOp τ sig (Elt F))).Forall fun op => op.fresh = ∅ := by
  simp only [List.Forall]; repeat' constructor

/-- The program is the weight preparation followed by the one launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000
/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 200000

/-! ## Blocks -/

/-- The block of window `w` that grid step `t` works on, cut from the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the step's block whether or not the step fetched it: a window whose
    block index does not move between two steps is not fetched again, and the body never stores into it. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## Unchanged arguments from the launch's post -/

/-- The hidden-state argument is staged by the first window and never written back; every other argument is read by
    the weight preparation only. Either way it ends as it started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## One grid step -/

/-- The new hidden-state tile a step stores: the update gate blends the old tile with the candidate. -/
def hiddenTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x896 .f32 :=
  View.canon [⟨(Rect.unit (s := S512x896) ![0, 0] S512x896.size inb_S512x896_S512x896_0_0), k0_pay1 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0)))⟩]

/-- The coarse-class tile a step stores: the left half of the second fused product. -/
def coarseTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x256 .f32 :=
  View.canon [⟨(Rect.unit (s := S512x256) ![0, 0] S512x256.size inb_S512x256_S512x256_0_0), k0_pay3 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (View.ld ow (Rect.unit (s := S896x896) ![0, 0] S896x896.size inb_S896x896_S896x896_0_0)) (View.ld ob (Rect.unit (s := S1x896) ![0, 0] S1x896.size inb_S1x896_S1x896_0_0)) (View.ld pw (Rect.unit (s := S896x512) ![0, 0] S896x512.size inb_S896x512_S896x512_0_0)) (View.ld pb (Rect.unit (s := S1x512) ![0, 0] S1x512.size inb_S1x512_S1x512_0_0))⟩]

/-- The fine-class tile a step stores: the right half of the second fused product. -/
def fineTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x256 .f32 :=
  View.canon [⟨(Rect.unit (s := S512x256) ![0, 0] S512x256.size inb_S512x256_S512x256_0_0), k0_pay4 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (View.ld ow (Rect.unit (s := S896x896) ![0, 0] S896x896.size inb_S896x896_S896x896_0_0)) (View.ld ob (Rect.unit (s := S1x896) ![0, 0] S1x896.size inb_S1x896_S1x896_0_0)) (View.ld pw (Rect.unit (s := S896x512) ![0, 0] S896x512.size inb_S896x512_S896x512_0_0)) (View.ld pb (Rect.unit (s := S1x512) ![0, 0] S1x512.size inb_S1x512_S1x512_0_0))⟩]

/-- A single whole-tile store covers the tile. -/
theorem cover_hidden (p0 : Vec F S512x896 .f32) (y : S512x896.Idx) :
    ∃ pc ∈ ([⟨(Rect.unit (s := S512x896) ![0, 0] S512x896.size inb_S512x896_S512x896_0_0), p0⟩] : List (View.Piece (Elt F) S512x896 .f32)), y ∈ pc.1.set :=
  View.cover_of_tiled [⟨(Rect.unit (s := S512x896) ![0, 0] S512x896.size inb_S512x896_S512x896_0_0), p0⟩] S512x896.size (by rfl) y
theorem cover_class (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

set_option maxHeartbeats 8000000 in
/-- A step, run on whole staging buffers: the eleven input tiles are read and left alone, and whatever the three
    output buffers held is replaced by the three tiles above. -/
theorem sound_kernel (c : Dev nD) (E : Set ℕ) (i : grid0.Coords) (a0 : Memref sig .tc .vmem S512x896 .f32) (ha0 : a0.IsWhole) (a1 : Memref sig .tc .vmem S512x3 .f32) (ha1 : a1.IsWhole) (a2 : Memref sig .tc .vmem S896x2688 .bf16) (ha2 : a2.IsWhole) (a3 : Memref sig .tc .vmem S1x2688 .f32) (ha3 : a3.IsWhole) (a4 : Memref sig .tc .vmem S1x2688 .f32) (ha4 : a4.IsWhole) (a5 : Memref sig .tc .vmem S1x2688 .f32) (ha5 : a5.IsWhole) (a6 : Memref sig .tc .vmem S1x2688 .f32) (ha6 : a6.IsWhole) (a7 : Memref sig .tc .vmem S896x896 .bf16) (ha7 : a7.IsWhole) (a8 : Memref sig .tc .vmem S1x896 .f32) (ha8 : a8.IsWhole) (a9 : Memref sig .tc .vmem S896x512 .bf16) (ha9 : a9.IsWhole) (a10 : Memref sig .tc .vmem S1x512 .f32) (ha10 : a10.IsWhole) (a11 : Memref sig .tc .vmem S512x896 .f32) (ha11 : a11.IsWhole) (a12 : Memref sig .tc .vmem S512x256 .f32) (ha12 : a12.IsWhole) (a13 : Memref sig .tc .vmem S512x256 .f32) (ha13 : a13.IsWhole)
    (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) (K : PUnit → sProp 𝕄) :
    iprop(owns (c : Thread nD τ) a0 fullShare h ∗ owns (c : Thread nD τ) a1 fullShare cf ∗ owns (c : Thread nD τ) a2 fullShare rw ∗ owns (c : Thread nD τ) a3 fullShare wc ∗ owns (c : Thread nD τ) a4 fullShare wf ∗ owns (c : Thread nD τ) a5 fullShare wv ∗ owns (c : Thread nD τ) a6 fullShare bs ∗ owns (c : Thread nD τ) a7 fullShare ow ∗ owns (c : Thread nD τ) a8 fullShare ob ∗ owns (c : Thread nD τ) a9 fullShare pw ∗ owns (c : Thread nD τ) a10 fullShare pb ∗ (∃ d, owns (c : Thread nD τ) a11 fullShare d) ∗ (∃ d, owns (c : Thread nD τ) a12 fullShare d) ∗ (∃ d, owns (c : Thread nD τ) a13 fullShare d)
        ∗ (iprop(owns (c : Thread nD τ) a0 fullShare h ∗ owns (c : Thread nD τ) a1 fullShare cf ∗ owns (c : Thread nD τ) a2 fullShare rw ∗ owns (c : Thread nD τ) a3 fullShare wc ∗ owns (c : Thread nD τ) a4 fullShare wf ∗ owns (c : Thread nD τ) a5 fullShare wv ∗ owns (c : Thread nD τ) a6 fullShare bs ∗ owns (c : Thread nD τ) a7 fullShare ow ∗ owns (c : Thread nD τ) a8 fullShare ob ∗ owns (c : Thread nD τ) a9 fullShare pw ∗ owns (c : Thread nD τ) a10 fullShare pb ∗ owns (c : Thread nD τ) a11 fullShare (hiddenTile h cf rw wc wf wv bs ow ob pw pb) ∗ owns (c : Thread nD τ) a12 fullShare (coarseTile h cf rw wc wf wv bs ow ob pw pb) ∗ owns (c : Thread nD τ) a13 fullShare (fineTile h cf rw wc wf wv bs ow ob pw pb)) -∗ K ⟨⟩))
      ⊢ wp frame (wpE (defs₀ (F := F)) Variants.none c none) E (cc0__gru_kernel i a0 ha0 a1 ha1 a2 ha2 a3 ha3 a4 ha4 a5 ha5 a6 ha6 a7 ha7 a8 ha8 a9 ha9 a10 ha10 a11 ha11 a12 ha12 a13 ha13) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_hidden _)
  isplitl [H12]
  · iexists _; isplitr
    swap; · iexact H12
    ipureintro
    exact View.read_writes_eq_canon _ _ _ (cover_class _)
  iexists _; isplitr
  swap; · iexact H13
  ipureintro
  exact View.read_writes_eq_canon _ _ _ (cover_class _)

/-! ## The launch's bookkeeping -/

/-- What each staging buffer holds after a step: an input its block, an output the step's tile of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hiddenTile (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => coarseTile (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => fineTile (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = hiddenTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_12 (c : Dev nD) (t : Fin cfg0.N) : (dats m 0 c).after 12 t = coarseTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_13 (c : Dev nD) (t : Fin cfg0.N) : (dats m 0 c).after 13 t = fineTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-- What a step is handed, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; each window's array ends at what the bookkeeping computes, and every
    other buffer outside the staging area as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Launched

end
-- ==== Proof.StepIdeal.lean ====
/-
  The gated recurrent step as a launched grid, at any float instance: the weight preparation that precedes the
  launch, the block each of the fourteen windows presents at a grid step, what one step leaves in the three
  output tiles as a function of the eleven input tiles, and the run of all thirty-two steps. Every step reads
  its row tile of the hidden state and of the packed side inputs, the whole of each prepared weight, and
  overwrites its row tile of the three results; nothing else is touched, so the argument arrays end as they began.
-/
import proofs.«107390_j85950885527647_2_alg».proof.Proof.Gen.KernelIdeal.Launch
import proofs.«107390_j85950885527647_2_alg».proof.Proof.Gen.KernelIdeal.Skeleton
import proofs.«107390_j85950885527647_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- The TensorCore's buffers at the moment the grid is launched: the launch memory after the weight preparation
    (transposes, the gate coefficient rows, the two block-diagonal weights, the packed side inputs). -/
abbrev V (c : Dev nD) (b : Ref sig .tc) : Buf (Elt F) ((c : Thread nD τ).loc b) :=
  StableHlo.after hostOps0 (fun b => m (c, b)) b

set_option maxHeartbeats 4000000 in
/-- The weight preparation allocates nothing. -/
theorem hostOps0_fresh : (hostOps0 : List (HloOp τ sig (Elt F))).Forall fun op => op.fresh = ∅ := by
  simp only [List.Forall]; repeat' constructor

/-- The program is the weight preparation followed by the one launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000
/-- No host operation before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 13. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 14. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 15. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 16. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation before the launch writes argument 17. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
set_option maxHeartbeats 200000

/-! ## Blocks -/

/-- The block of window `w` that grid step `t` works on, cut from the array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds the step's block whether or not the step fetched it: a window whose
    block index does not move between two steps is not fetched again, and the body never stores into it. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## Unchanged arguments from the launch's post -/

/-- The hidden-state argument is staged by the first window and never written back; every other argument is read by
    the weight preparation only. Either way it ends as it started. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## One grid step -/

/-- The new hidden-state tile a step stores: the update gate blends the old tile with the candidate. -/
def hiddenTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x896 .f32 :=
  View.canon [⟨(Rect.unit (s := S512x896) ![0, 0] S512x896.size inb_S512x896_S512x896_0_0), k0_pay1 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0)))⟩]

/-- The coarse-class tile a step stores: the left half of the second fused product. -/
def coarseTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x256 .f32 :=
  View.canon [⟨(Rect.unit (s := S512x256) ![0, 0] S512x256.size inb_S512x256_S512x256_0_0), k0_pay3 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (View.ld ow (Rect.unit (s := S896x896) ![0, 0] S896x896.size inb_S896x896_S896x896_0_0)) (View.ld ob (Rect.unit (s := S1x896) ![0, 0] S1x896.size inb_S1x896_S1x896_0_0)) (View.ld pw (Rect.unit (s := S896x512) ![0, 0] S896x512.size inb_S896x512_S896x512_0_0)) (View.ld pb (Rect.unit (s := S1x512) ![0, 0] S1x512.size inb_S1x512_S1x512_0_0))⟩]

/-- The fine-class tile a step stores: the right half of the second fused product. -/
def fineTile (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) : Vec F S512x256 .f32 :=
  View.canon [⟨(Rect.unit (s := S512x256) ![0, 0] S512x256.size inb_S512x256_S512x256_0_0), k0_pay4 (View.ld h (Rect.unit (s := S512x896) ![0, 0] S512x896.size inb_S512x896_S512x896_0_0)) (k0_pay7 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (k0_pay8 (View.ld h (Rect.unit (s := S512x896) ![0, 0] S512x896.size inb_S512x896_S512x896_0_0)) (View.ld cf (Rect.unit (s := S512x3) ![0, 0] S512x3.size inb_S512x3_S512x3_0_0)) (View.ld rw (Rect.unit (s := S896x2688) ![0, 0] S896x2688.size inb_S896x2688_S896x2688_0_0)) (View.ld wc (Rect.unit (s := S1x2688) ![0, 0] S1x2688.size inb_S1x2688_S1x2688_0_0)) (View.ld wf (Rect.unit (s := S1x2688) ![0, 0] S1x2688.size inb_S1x2688_S1x2688_0_0)) (View.ld wv (Rect.unit (s := S1x2688) ![0, 0] S1x2688.size inb_S1x2688_S1x2688_0_0)) (View.ld bs (Rect.unit (s := S1x2688) ![0, 0] S1x2688.size inb_S1x2688_S1x2688_0_0))) (View.ld ow (Rect.unit (s := S896x896) ![0, 0] S896x896.size inb_S896x896_S896x896_0_0)) (View.ld ob (Rect.unit (s := S1x896) ![0, 0] S1x896.size inb_S1x896_S1x896_0_0)) (View.ld pw (Rect.unit (s := S896x512) ![0, 0] S896x512.size inb_S896x512_S896x512_0_0)) (View.ld pb (Rect.unit (s := S1x512) ![0, 0] S1x512.size inb_S1x512_S1x512_0_0))⟩]

/-- A single whole-tile store covers the tile. -/
theorem cover_hidden (p0 : Vec F S512x896 .f32) (y : S512x896.Idx) :
    ∃ pc ∈ ([⟨(Rect.unit (s := S512x896) ![0, 0] S512x896.size inb_S512x896_S512x896_0_0), p0⟩] : List (View.Piece (Elt F) S512x896 .f32)), y ∈ pc.1.set :=
  View.cover_of_tiled [⟨(Rect.unit (s := S512x896) ![0, 0] S512x896.size inb_S512x896_S512x896_0_0), p0⟩] S512x896.size (by rfl) y
theorem cover_class (p0 : Vec F S512x256 .f32) (y : S512x256.Idx) :
    ∃ pc ∈ ([⟨(Rect.unit (s := S512x256) ![0, 0] S512x256.size inb_S512x256_S512x256_0_0), p0⟩] : List (View.Piece (Elt F) S512x256 .f32)), y ∈ pc.1.set :=
  View.cover_of_tiled [⟨(Rect.unit (s := S512x256) ![0, 0] S512x256.size inb_S512x256_S512x256_0_0), p0⟩] S512x256.size (by rfl) y

set_option maxHeartbeats 8000000 in
/-- A step, run on whole staging buffers: the eleven input tiles are read and left alone, and whatever the three
    output buffers held is replaced by the three tiles above. -/
theorem sound_kernel (c : Dev nD) (E : Set ℕ) (i : grid0.Coords) (a0 : Memref sig .tc .vmem S512x896 .f32) (ha0 : a0.IsWhole) (a1 : Memref sig .tc .vmem S512x3 .f32) (ha1 : a1.IsWhole) (a2 : Memref sig .tc .vmem S896x2688 .bf16) (ha2 : a2.IsWhole) (a3 : Memref sig .tc .vmem S1x2688 .f32) (ha3 : a3.IsWhole) (a4 : Memref sig .tc .vmem S1x2688 .f32) (ha4 : a4.IsWhole) (a5 : Memref sig .tc .vmem S1x2688 .f32) (ha5 : a5.IsWhole) (a6 : Memref sig .tc .vmem S1x2688 .f32) (ha6 : a6.IsWhole) (a7 : Memref sig .tc .vmem S896x896 .bf16) (ha7 : a7.IsWhole) (a8 : Memref sig .tc .vmem S1x896 .f32) (ha8 : a8.IsWhole) (a9 : Memref sig .tc .vmem S896x512 .bf16) (ha9 : a9.IsWhole) (a10 : Memref sig .tc .vmem S1x512 .f32) (ha10 : a10.IsWhole) (a11 : Memref sig .tc .vmem S512x896 .f32) (ha11 : a11.IsWhole) (a12 : Memref sig .tc .vmem S512x256 .f32) (ha12 : a12.IsWhole) (a13 : Memref sig .tc .vmem S512x256 .f32) (ha13 : a13.IsWhole)
    (h : Vec F S512x896 .f32) (cf : Vec F S512x3 .f32) (rw : Vec F S896x2688 .bf16) (wc : Vec F S1x2688 .f32) (wf : Vec F S1x2688 .f32) (wv : Vec F S1x2688 .f32) (bs : Vec F S1x2688 .f32) (ow : Vec F S896x896 .bf16) (ob : Vec F S1x896 .f32) (pw : Vec F S896x512 .bf16) (pb : Vec F S1x512 .f32) (K : PUnit → sProp 𝕄) :
    iprop(owns (c : Thread nD τ) a0 fullShare h ∗ owns (c : Thread nD τ) a1 fullShare cf ∗ owns (c : Thread nD τ) a2 fullShare rw ∗ owns (c : Thread nD τ) a3 fullShare wc ∗ owns (c : Thread nD τ) a4 fullShare wf ∗ owns (c : Thread nD τ) a5 fullShare wv ∗ owns (c : Thread nD τ) a6 fullShare bs ∗ owns (c : Thread nD τ) a7 fullShare ow ∗ owns (c : Thread nD τ) a8 fullShare ob ∗ owns (c : Thread nD τ) a9 fullShare pw ∗ owns (c : Thread nD τ) a10 fullShare pb ∗ (∃ d, owns (c : Thread nD τ) a11 fullShare d) ∗ (∃ d, owns (c : Thread nD τ) a12 fullShare d) ∗ (∃ d, owns (c : Thread nD τ) a13 fullShare d)
        ∗ (iprop(owns (c : Thread nD τ) a0 fullShare h ∗ owns (c : Thread nD τ) a1 fullShare cf ∗ owns (c : Thread nD τ) a2 fullShare rw ∗ owns (c : Thread nD τ) a3 fullShare wc ∗ owns (c : Thread nD τ) a4 fullShare wf ∗ owns (c : Thread nD τ) a5 fullShare wv ∗ owns (c : Thread nD τ) a6 fullShare bs ∗ owns (c : Thread nD τ) a7 fullShare ow ∗ owns (c : Thread nD τ) a8 fullShare ob ∗ owns (c : Thread nD τ) a9 fullShare pw ∗ owns (c : Thread nD τ) a10 fullShare pb ∗ owns (c : Thread nD τ) a11 fullShare (hiddenTile h cf rw wc wf wv bs ow ob pw pb) ∗ owns (c : Thread nD τ) a12 fullShare (coarseTile h cf rw wc wf wv bs ow ob pw pb) ∗ owns (c : Thread nD τ) a13 fullShare (fineTile h cf rw wc wf wv bs ow ob pw pb)) -∗ K ⟨⟩))
      ⊢ wp frame (wpE (defs₀ (F := F)) Variants.none c none) E (cc0__gru_kernel i a0 ha0 a1 ha1 a2 ha2 a3 ha3 a4 ha4 a5 ha5 a6 ha6 a7 ha7 a8 ha8 a9 ha9 a10 ha10 a11 ha11 a12 ha12 a13 ha13) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover_hidden _)
  isplitl [H12]
  · iexists _; isplitr
    swap; · iexact H12
    ipureintro
    exact View.read_writes_eq_canon _ _ _ (cover_class _)
  iexists _; isplitr
  swap; · iexact H13
  ipureintro
  exact View.read_writes_eq_canon _ _ _ (cover_class _)

/-! ## The launch's bookkeeping -/

/-- What each staging buffer holds after a step: an input its block, an output the step's tile of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => hiddenTile (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => coarseTile (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => fineTile (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = hiddenTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_12 (c : Dev nD) (t : Fin cfg0.N) : (dats m 0 c).after 12 t = coarseTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after_13 (c : Dev nD) (t : Fin cfg0.N) : (dats m 0 c).after 13 t = fineTile (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d

/-- What a step is handed, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates; each window's array ends at what the bookkeeping computes, and every
    other buffer outside the staging area as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Launched

end
-- ==== Proof.Spec.lean ====
/-
  The gated recurrent step, one row at a time, on the extended reals.

  A row of the new hidden state is a blend of the old row and a candidate: with `P` the row's three projections
  through the recurrent weight and `C` the three gate inputs (two or three side inputs scaled by coefficient rows,
  plus a bias), the update gate is `σ(P₀ + C₀)`, the reset gate `σ(P₁ + C₁)`, the candidate `tanh(r · P₂ + C₂)`, and
  the new entry `u · h + (1 - u) · e`. A row of the two class outputs is a rectified affine image of the new row
  followed by a second affine map. The functions below take each row and each weight as a plain function of its
  coordinates, so that a tile of the launched grid, the whole arrays, and the host program can all be read against them.
-/
import Idealize.ShloMosaic.PureOps.Ideal
import Idealize.ShloMosaic.Lib.ValueIdx

noncomputable section

namespace Cert.GruRows

open Idealize.ShloMosaic

/-- The two float literals the step spells, as the extended reals their words denote. -/
abbrev one32 : EReal := Ideal.ofBits .f32 0x3F800000#32
abbrev zero32 : EReal := Ideal.ofBits .f32 0x00000000#32

/-- The logistic function and the hyperbolic tangent at single precision's ideal reading. -/
abbrev sigm (x : EReal) : EReal := FloatOps.logistic (F := Ideal) (φ := .f32) x
abbrev tanhI (x : EReal) : EReal := FloatOps.tanh (F := Ideal) (φ := .f32) x

/-- The three column ranges of the fused recurrent product: update, reset, candidate. -/
abbrev colU (q : Fin 896) : Fin 2688 := ⟨q.val, by omega⟩
abbrev colR (q : Fin 896) : Fin 2688 := ⟨896 + q.val, by omega⟩
abbrev colE (q : Fin 896) : Fin 2688 := ⟨1792 + q.val, by omega⟩

/-- The blend of an old entry `h` with the candidate, from the two gate pre-activations `zu`, `zr`, the candidate's
    projection `pe` and its gate input `ce`. -/
def blend (h zu zr pe ce : EReal) : EReal :=
  sigm zu * h + (one32 - sigm zu) * tanhI (sigm zr * pe + ce)

/-- One projection of a row through the recurrent weight. -/
def proj (hr : Fin 896 → EReal) (RW : Fin 896 → Fin 2688 → EReal) (n : Fin 2688) : EReal :=
  ∑ k : Fin 896, hr k * RW k n

/-- One gate input: the three side inputs scaled by their coefficient rows, plus the bias row. -/
def gateIn (c0 c1 c2 : EReal) (WC WF WV BS : Fin 2688 → EReal) (n : Fin 2688) : EReal :=
  c0 * WC n + c1 * WF n + c2 * WV n + BS n

/-- A row of the new hidden state. -/
def gruRow (hr : Fin 896 → EReal) (c0 c1 c2 : EReal) (RW : Fin 896 → Fin 2688 → EReal)
    (WC WF WV BS : Fin 2688 → EReal) (q : Fin 896) : EReal :=
  blend (hr q)
    (proj hr RW (colU q) + gateIn c0 c1 c2 WC WF WV BS (colU q))
    (proj hr RW (colR q) + gateIn c0 c1 c2 WC WF WV BS (colR q))
    (proj hr RW (colE q)) (gateIn c0 c1 c2 WC WF WV BS (colE q))

/-- The rectified hidden layer of the class heads, both halves at once. -/
def hidRow (hn : Fin 896 → EReal) (OW : Fin 896 → Fin 896 → EReal) (OB : Fin 896 → EReal) (k : Fin 896) : EReal :=
  max (∑ l : Fin 896, hn l * OW l k + OB k) zero32

/-- A row of the fused class outputs: coarse classes on the left, fine classes on the right. -/
def clsRow (hn : Fin 896 → EReal) (OW : Fin 896 → Fin 896 → EReal) (OB : Fin 896 → EReal)
    (PW : Fin 896 → Fin 512 → EReal) (PB : Fin 512 → EReal) (n : Fin 512) : EReal :=
  ∑ k : Fin 896, hidRow hn OW OB k * PW k n + PB n

end Cert.GruRows

end
-- ==== Proof.TileRows.lean ====
/-
  One grid step's arithmetic read at a single entry of each stored tile. A row of the step's result depends on the
  same row of the hidden-state tile and of the packed side inputs, and on the whole of each prepared weight: the three
  matrix products are sums over the shared axis, every slice, cast and broadcast is a re-indexing, and the gates act
  entry by entry.
-/
import proofs.«107390_j85950885527647_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«107390_j85950885527647_2_alg».proof.Proof.Spec

noncomputable section

namespace Cert.KernelIdeal.Rows

open Idealize.ShloMosaic Idealize.ShloMosaic.ValueIdx Cert.KernelIdeal Cert.KernelIdeal.Gen Cert.GruRows

/-! ## Re-indexings of a matrix -/

section Layout
variable {α : Type}

/-- A unit-stride window of a matrix, read at `(p, q)`, is the matrix at the shifted entry. -/
theorem slice_at {a b a' b' o0 o1 : ℕ} (x : (⟨2, ![a, b]⟩ : Shape).Idx → α)
    (h : (⟨2, ![a, b]⟩ : Shape).Slices ![o0, o1] ⟨2, ![a', b']⟩) (p : Fin a') (q : Fin b') (P : Fin a) (Q : Fin b)
    (hP : P.val = o0 + p.val) (hQ : Q.val = o1 + q.val) :
    extractStridedSlice ⟨2, ![a', b']⟩ ![o0, o1] x h (ix2 p q) = x (ix2 P Q) :=
  extractStridedSlice_apply _ x h _ _ fun d => match d with | ⟨0, _⟩ => hP | ⟨1, _⟩ => hQ

/-- A column repeated along the rows reads the column's entry of that row. -/
theorem col_bcast_at {a b : ℕ} (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

end Layout

/-! ## The three products -/

theorem proj_l0 (i : S512x2688.Idx) (q : dot_S512x896_S896x2688_S512x2688_1_0_0_1_n_n.contr.Idx) : (dot_S512x896_S896x2688_S512x2688_1_0_0_1_n_n.lhsIdx i q 0).val = (i 0).val := by
  unfold DotDims.lhsIdx
  rw [dif_neg (show ¬(0 : Fin S512x896.rank) ∈ dot_S512x896_S896x2688_S512x2688_1_0_0_1_n_n.lhsBatch by decide), dif_pos (show (0 : Fin S512x896.rank) ∈ dot_S512x896_S896x2688_S512x2688_1_0_0_1_n_n.lhsNonContracting by decide)]
  rfl
theorem proj_l1 (i : S512x2688.Idx) (q : dot_S512x896_S896x2688_S512x2688_1_0_0_1_n_n.contr.Idx) : (dot_S512x896_S896x2688_S512x2688_1_0_0_1_n_n.lhsIdx i q 1).val = (q ⟨0, by decide⟩).val :=
  dot_S512x896_S896x2688_S512x2688_1_0_0_1_n_n.lhsIdx_val_of_single rfl i q
theorem proj_r0 (i : S512x2688.Idx) (q : dot_S512x896_S896x2688_S512x2688_1_0_0_1_n_n.contr.Idx) : (dot_S512x896_S896x2688_S512x2688_1_0_0_1_n_n.rhsIdx i q 0).val = (q ⟨0, by decide⟩).val :=
  dot_S512x896_S896x2688_S512x2688_1_0_0_1_n_n.rhsIdx_val_of_single rfl i q
theorem proj_r1 (i : S512x2688.Idx) (q : dot_S512x896_S896x2688_S512x2688_1_0_0_1_n_n.contr.Idx) : (dot_S512x896_S896x2688_S512x2688_1_0_0_1_n_n.rhsIdx i q 1).val = (i 1).val := by
  unfold DotDims.rhsIdx
  rw [dif_neg (show ¬(1 : Fin S896x2688.rank) ∈ dot_S512x896_S896x2688_S512x2688_1_0_0_1_n_n.rhsBatch by decide), dif_pos (show (1 : Fin S896x2688.rank) ∈ dot_S512x896_S896x2688_S512x2688_1_0_0_1_n_n.rhsNonContracting by decide)]
  rfl
/-- The matrix unit's product into a zero accumulator, at row `p` and column `n`: the sum over the shared axis. -/
theorem proj_at {φ₁ φ₂ : FTy} (l : FVec Ideal S512x896 φ₁) (r : FVec Ideal S896x2688 φ₂) (p : Fin 512) (n : Fin 2688) :
    matmul dot_S512x896_S896x2688_S512x2688_1_0_0_1_n_n none l r (constant (F := Ideal) S512x2688 .f32 0x00000000#32) (ix2 p n) = ∑ k : Fin 896, l (ix2 p k) * r (ix2 k n) := by
  show FloatOps.matmul dot_S512x896_S896x2688_S512x2688_1_0_0_1_n_n none l r (constant (F := Ideal) S512x2688 .f32 0x00000000#32) (ix2 p n) = _
  rw [Ideal.matmul_constant_zero_apply, ← Equiv.sum_comp (ValueIdx.contrEquiv1 dot_S512x896_S896x2688_S512x2688_1_0_0_1_n_n 896 rfl rfl).symm]
  refine Finset.sum_congr rfl fun k _ => ?_
  have hk := ValueIdx.contrEquiv1_symm_val dot_S512x896_S896x2688_S512x2688_1_0_0_1_n_n 896 rfl rfl k
  have el : dot_S512x896_S896x2688_S512x2688_1_0_0_1_n_n.lhsIdx (ix2 p n) ((ValueIdx.contrEquiv1 dot_S512x896_S896x2688_S512x2688_1_0_0_1_n_n 896 rfl rfl).symm k) = ix2 p k := funext fun a => Fin.ext (by
    match a with
    | ⟨0, _⟩ => exact proj_l0 _ _
    | ⟨1, _⟩ => exact (proj_l1 _ _).trans hk)
  have er : dot_S512x896_S896x2688_S512x2688_1_0_0_1_n_n.rhsIdx (ix2 p n) ((ValueIdx.contrEquiv1 dot_S512x896_S896x2688_S512x2688_1_0_0_1_n_n 896 rfl rfl).symm k) = ix2 k n := funext fun a => Fin.ext (by
    match a with
    | ⟨0, _⟩ => exact (proj_r0 _ _).trans hk
    | ⟨1, _⟩ => exact proj_r1 _ _)
  rw [el, er]

theorem mid_l0 (i : S512x896.Idx) (q : dot_S512x896_S896x896_S512x896_1_0_0_1_n_n.contr.Idx) : (dot_S512x896_S896x896_S512x896_1_0_0_1_n_n.lhsIdx i q 0).val = (i 0).val := by
  unfold DotDims.lhsIdx
  rw [dif_neg (show ¬(0 : Fin S512x896.rank) ∈ dot_S512x896_S896x896_S512x896_1_0_0_1_n_n.lhsBatch by decide), dif_pos (show (0 : Fin S512x896.rank) ∈ dot_S512x896_S896x896_S512x896_1_0_0_1_n_n.lhsNonContracting by decide)]
  rfl
theorem mid_l1 (i : S512x896.Idx) (q : dot_S512x896_S896x896_S512x896_1_0_0_1_n_n.contr.Idx) : (dot_S512x896_S896x896_S512x896_1_0_0_1_n_n.lhsIdx i q 1).val = (q ⟨0, by decide⟩).val :=
  dot_S512x896_S896x896_S512x896_1_0_0_1_n_n.lhsIdx_val_of_single rfl i q
theorem mid_r0 (i : S512x896.Idx) (q : dot_S512x896_S896x896_S512x896_1_0_0_1_n_n.contr.Idx) : (dot_S512x896_S896x896_S512x896_1_0_0_1_n_n.rhsIdx i q 0).val = (q ⟨0, by decide⟩).val :=
  dot_S512x896_S896x896_S512x896_1_0_0_1_n_n.rhsIdx_val_of_single rfl i q
theorem mid_r1 (i : S512x896.Idx) (q : dot_S512x896_S896x896_S512x896_1_0_0_1_n_n.contr.Idx) : (dot_S512x896_S896x896_S512x896_1_0_0_1_n_n.rhsIdx i q 1).val = (i 1).val := by
  unfold DotDims.rhsIdx
  rw [dif_neg (show ¬(1 : Fin S896x896.rank) ∈ dot_S512x896_S896x896_S512x896_1_0_0_1_n_n.rhsBatch by decide), dif_pos (show (1 : Fin S896x896.rank) ∈ dot_S512x896_S896x896_S512x896_1_0_0_1_n_n.rhsNonContracting by decide)]
  rfl
/-- The matrix unit's product into a zero accumulator, at row `p` and column `n`: the sum over the shared axis. -/
theorem mid_at {φ₁ φ₂ : FTy} (l : FVec Ideal S512x896 φ₁) (r : FVec Ideal S896x896 φ₂) (p : Fin 512) (n : Fin 896) :
    matmul dot_S512x896_S896x896_S512x896_1_0_0_1_n_n none l r (constant (F := Ideal) S512x896 .f32 0x00000000#32) (ix2 p n) = ∑ k : Fin 896, l (ix2 p k) * r (ix2 k n) := by
  show FloatOps.matmul dot_S512x896_S896x896_S512x896_1_0_0_1_n_n none l r (constant (F := Ideal) S512x896 .f32 0x00000000#32) (ix2 p n) = _
  rw [Ideal.matmul_constant_zero_apply, ← Equiv.sum_comp (ValueIdx.contrEquiv1 dot_S512x896_S896x896_S512x896_1_0_0_1_n_n 896 rfl rfl).symm]
  refine Finset.sum_congr rfl fun k _ => ?_
  have hk := ValueIdx.contrEquiv1_symm_val dot_S512x896_S896x896_S512x896_1_0_0_1_n_n 896 rfl rfl k
  have el : dot_S512x896_S896x896_S512x896_1_0_0_1_n_n.lhsIdx (ix2 p n) ((ValueIdx.contrEquiv1 dot_S512x896_S896x896_S512x896_1_0_0_1_n_n 896 rfl rfl).symm k) = ix2 p k := funext fun a => Fin.ext (by
    match a with
    | ⟨0, _⟩ => exact mid_l0 _ _
    | ⟨1, _⟩ => exact (mid_l1 _ _).trans hk)
  have er : dot_S512x896_S896x896_S512x896_1_0_0_1_n_n.rhsIdx (ix2 p n) ((ValueIdx.contrEquiv1 dot_S512x896_S896x896_S512x896_1_0_0_1_n_n 896 rfl rfl).symm k) = ix2 k n := funext fun a => Fin.ext (by
    match a with
    | ⟨0, _⟩ => exact (mid_r0 _ _).trans hk
    | ⟨1, _⟩ => exact mid_r1 _ _)
  rw [el, er]

theorem cls_l0 (i : S512x512.Idx) (q : dot_S512x896_S896x512_S512x512_1_0_0_1_n_n.contr.Idx) : (dot_S512x896_S896x512_S512x512_1_0_0_1_n_n.lhsIdx i q 0).val = (i 0).val := by
  unfold DotDims.lhsIdx
  rw [dif_neg (show ¬(0 : Fin S512x896.rank) ∈ dot_S512x896_S896x512_S512x512_1_0_0_1_n_n.lhsBatch by decide), dif_pos (show (0 : Fin S512x896.rank) ∈ dot_S512x896_S896x512_S512x512_1_0_0_1_n_n.lhsNonContracting by decide)]
  rfl
theorem cls_l1 (i : S512x512.Idx) (q : dot_S512x896_S896x512_S512x512_1_0_0_1_n_n.contr.Idx) : (dot_S512x896_S896x512_S512x512_1_0_0_1_n_n.lhsIdx i q 1).val = (q ⟨0, by decide⟩).val :=
  dot_S512x896_S896x512_S512x512_1_0_0_1_n_n.lhsIdx_val_of_single rfl i q
theorem cls_r0 (i : S512x512.Idx) (q : dot_S512x896_S896x512_S512x512_1_0_0_1_n_n.contr.Idx) : (dot_S512x896_S896x512_S512x512_1_0_0_1_n_n.rhsIdx i q 0).val = (q ⟨0, by decide⟩).val :=
  dot_S512x896_S896x512_S512x512_1_0_0_1_n_n.rhsIdx_val_of_single rfl i q
theorem cls_r1 (i : S512x512.Idx) (q : dot_S512x896_S896x512_S512x512_1_0_0_1_n_n.contr.Idx) : (dot_S512x896_S896x512_S512x512_1_0_0_1_n_n.rhsIdx i q 1).val = (i 1).val := by
  unfold DotDims.rhsIdx
  rw [dif_neg (show ¬(1 : Fin S896x512.rank) ∈ dot_S512x896_S896x512_S512x512_1_0_0_1_n_n.rhsBatch by decide), dif_pos (show (1 : Fin S896x512.rank) ∈ dot_S512x896_S896x512_S512x512_1_0_0_1_n_n.rhsNonContracting by decide)]
  rfl
/-- The matrix unit's product into a zero accumulator, at row `p` and column `n`: the sum over the shared axis. -/
theorem cls_at {φ₁ φ₂ : FTy} (l : FVec Ideal S512x896 φ₁) (r : FVec Ideal S896x512 φ₂) (p : Fin 512) (n : Fin 512) :
    matmul dot_S512x896_S896x512_S512x512_1_0_0_1_n_n none l r (constant (F := Ideal) S512x512 .f32 0x00000000#32) (ix2 p n) = ∑ k : Fin 896, l (ix2 p k) * r (ix2 k n) := by
  show FloatOps.matmul dot_S512x896_S896x512_S512x512_1_0_0_1_n_n none l r (constant (F := Ideal) S512x512 .f32 0x00000000#32) (ix2 p n) = _
  rw [Ideal.matmul_constant_zero_apply, ← Equiv.sum_comp (ValueIdx.contrEquiv1 dot_S512x896_S896x512_S512x512_1_0_0_1_n_n 896 rfl rfl).symm]
  refine Finset.sum_congr rfl fun k _ => ?_
  have hk := ValueIdx.contrEquiv1_symm_val dot_S512x896_S896x512_S512x512_1_0_0_1_n_n 896 rfl rfl k
  have el : dot_S512x896_S896x512_S512x512_1_0_0_1_n_n.lhsIdx (ix2 p n) ((ValueIdx.contrEquiv1 dot_S512x896_S896x512_S512x512_1_0_0_1_n_n 896 rfl rfl).symm k) = ix2 p k := funext fun a => Fin.ext (by
    match a with
    | ⟨0, _⟩ => exact cls_l0 _ _
    | ⟨1, _⟩ => exact (cls_l1 _ _).trans hk)
  have er : dot_S512x896_S896x512_S512x512_1_0_0_1_n_n.rhsIdx (ix2 p n) ((ValueIdx.contrEquiv1 dot_S512x896_S896x512_S512x512_1_0_0_1_n_n 896 rfl rfl).symm k) = ix2 k n := funext fun a => Fin.ext (by
    match a with
    | ⟨0, _⟩ => exact (cls_r0 _ _).trans hk
    | ⟨1, _⟩ => exact cls_r1 _ _)
  rw [el, er]

/-! ## The step's values at an entry -/

section Tile

variable (h : Vec Ideal S512x896 .f32) (cf : Vec Ideal S512x3 .f32) (rw : Vec Ideal S896x2688 .bf16)
  (wc wf wv bs : Vec Ideal S1x2688 .f32)

/-- The fused recurrent product at `(p, n)`: row `p` of the tile against column `n` of the weight. -/
theorem proj_tile (p : Fin 512) (n : Fin 2688) :
    k0_pay5 h rw (ix2 p n) = proj (fun k => h (ix2 p k)) (fun k n => rw (ix2 k n)) n := by
  unfold k0_pay5 proj
  rw [shapeCast_self]
  exact proj_at _ _ p n

/-- A side-input column repeated across the gate columns. -/
theorem side_col (c : ℕ) (hc : c < 3) (hs : S512x3.Slices ![0, c] S512x1) (p : Fin 512) (n : Fin 2688) :
    broadcastTo S512x2688 (extractStridedSlice S512x1 ![0, c] cf hs) broadcasts_S512x1_S512x2688 (ix2 p n) = cf (ix2 p ⟨c, hc⟩) := by
  rw [col_bcast_at, slice_at cf hs p (0 : Fin 1) p ⟨c, hc⟩ (Nat.zero_add _).symm rfl]

/-- The gate inputs at `(p, n)`. -/
theorem gate_tile (p : Fin 512) (n : Fin 2688) :
    k0_pay6 cf wc wf wv bs (ix2 p n)
      = gateIn (cf (ix2 p 0)) (cf (ix2 p 1)) (cf (ix2 p 2)) (fun n => wc (ix2 0 n)) (fun n => wf (ix2 0 n))
          (fun n => wv (ix2 0 n)) (fun n => bs (ix2 0 n)) n := by
  unfold k0_pay6 gateIn
  simp only [shapeCast_self]
  show (broadcastTo S512x2688 (extractStridedSlice S512x1 ![0, 0] cf _) _ (ix2 p n) * broadcastTo S512x2688 wc _ (ix2 p n)
      + broadcastTo S512x2688 (extractStridedSlice S512x1 ![0, 1] cf _) _ (ix2 p n) * broadcastTo S512x2688 wf _ (ix2 p n)
      + broadcastTo S512x2688 (extractStridedSlice S512x1 ![0, 2] cf _) _ (ix2 p n) * broadcastTo S512x2688 wv _ (ix2 p n))
      + broadcastTo S512x2688 bs _ (ix2 p n) = _
  rw [side_col cf 0 (by decide), side_col cf 1 (by decide), side_col cf 2 (by decide)]
  simp only [broadcastTo_1b_ab_apply]
  rfl

/-- The update gate at `(p, q)`. -/
theorem update_tile (p : Fin 512) (q : Fin 896) :
    k0_pay7 h cf rw wc wf wv bs (ix2 p q) = sigm (k0_pay5 h rw (ix2 p (colU q)) + k0_pay6 cf wc wf wv bs (ix2 p (colU q))) := by
  unfold k0_pay7
  show FloatOps.logistic (extractStridedSlice S512x896 ![0, 0] (k0_pay5 h rw) _ (ix2 p q)
      + extractStridedSlice S512x896 ![0, 0] (k0_pay6 cf wc wf wv bs) _ (ix2 p q)) = _
  rw [slice_at (k0_pay5 h rw) _ p q p (colU q) (Nat.zero_add _).symm (Nat.zero_add _).symm,
    slice_at (k0_pay6 cf wc wf wv bs) _ p q p (colU q) (Nat.zero_add _).symm (Nat.zero_add _).symm]

/-- The candidate at `(p, q)`. -/
theorem cand_tile (p : Fin 512) (q : Fin 896) :
    k0_pay8 h cf rw wc wf wv bs (ix2 p q)
      = tanhI (sigm (k0_pay5 h rw (ix2 p (colR q)) + k0_pay6 cf wc wf wv bs (ix2 p (colR q))) * k0_pay5 h rw (ix2 p (colE q))
          + k0_pay6 cf wc wf wv bs (ix2 p (colE q))) := by
  unfold k0_pay8
  show FloatOps.tanh (FloatOps.logistic (extractStridedSlice S512x896 ![0, 896] (k0_pay5 h rw) _ (ix2 p q)
        + extractStridedSlice S512x896 ![0, 896] (k0_pay6 cf wc wf wv bs) _ (ix2 p q))
      * extractStridedSlice S512x896 ![0, 1792] (k0_pay5 h rw) _ (ix2 p q)
      + extractStridedSlice S512x896 ![0, 1792] (k0_pay6 cf wc wf wv bs) _ (ix2 p q)) = _
  rw [slice_at (k0_pay5 h rw) _ p q p (colR q) (Nat.zero_add _).symm rfl,
    slice_at (k0_pay6 cf wc wf wv bs) _ p q p (colR q) (Nat.zero_add _).symm rfl,
    slice_at (k0_pay5 h rw) _ p q p (colE q) (Nat.zero_add _).symm rfl,
    slice_at (k0_pay6 cf wc wf wv bs) _ p q p (colE q) (Nat.zero_add _).symm rfl]

/-- THE NEW HIDDEN TILE at `(p, q)` is the row function of row `p`. -/
theorem hidden_tile (p : Fin 512) (q : Fin 896) :
    k0_pay1 h (k0_pay7 h cf rw wc wf wv bs) (k0_pay8 h cf rw wc wf wv bs) (ix2 p q)
      = gruRow (fun k => h (ix2 p k)) (cf (ix2 p 0)) (cf (ix2 p 1)) (cf (ix2 p 2)) (fun k n => rw (ix2 k n))
          (fun n => wc (ix2 0 n)) (fun n => wf (ix2 0 n)) (fun n => wv (ix2 0 n)) (fun n => bs (ix2 0 n)) q := by
  unfold k0_pay1 gruRow blend
  show k0_pay7 h cf rw wc wf wv bs (ix2 p q) * h (ix2 p q)
      + (one32 - k0_pay7 h cf rw wc wf wv bs (ix2 p q)) * k0_pay8 h cf rw wc wf wv bs (ix2 p q) = _
  rw [update_tile, cand_tile]
  simp only [proj_tile, gate_tile]

end Tile

section Heads

variable (hn : FVec Ideal S512x896 .f32) (ow : Vec Ideal S896x896 .bf16) (ob : Vec Ideal S1x896 .f32)
  (pw : Vec Ideal S896x512 .bf16) (pb : Vec Ideal S1x512 .f32)

/-- THE FUSED CLASS TILE at `(p, n)` is the class row function of row `p` of the new hidden tile. -/
theorem heads_tile (h0 : Vec Ideal S512x896 .f32) (g7 g8 : FVec Ideal S512x896 .f32) (p : Fin 512) (n : Fin 512) :
    k0_pay2 h0 g7 g8 ow ob pw pb (ix2 p n)
      = clsRow (fun l => k0_pay1 h0 g7 g8 (ix2 p l)) (fun l k => ow (ix2 l k)) (fun k => ob (ix2 0 k))
          (fun k n => pw (ix2 k n)) (fun n => pb (ix2 0 n)) n := by
  unfold k0_pay2 clsRow hidRow
  simp only [shapeCast_self]
  show matmul dot_S512x896_S896x512_S512x512_1_0_0_1_n_n none _ pw (constant (F := Ideal) S512x512 .f32 0x00000000#32) (ix2 p n)
      + broadcastTo S512x512 pb _ (ix2 p n) = _
  rw [cls_at, broadcastTo_1b_ab_apply]
  refine congrArg (· + pb (ix2 0 n)) (Finset.sum_congr rfl fun k _ => ?_)
  refine congrArg (· * pw (ix2 k n)) ?_
  show max (matmul dot_S512x896_S896x896_S512x896_1_0_0_1_n_n none _ ow (constant (F := Ideal) S512x896 .f32 0x00000000#32) (ix2 p k)
      + broadcastTo S512x896 ob _ (ix2 p k)) zero32 = _
  rw [mid_at, broadcastTo_1b_ab_apply]
  rfl

/-- The coarse and the fine class tiles are the left and the right half of the fused one. -/
theorem coarse_tile (h0 : Vec Ideal S512x896 .f32) (g7 g8 : FVec Ideal S512x896 .f32) (p : Fin 512) (n : Fin 256) :
    k0_pay3 h0 g7 g8 ow ob pw pb (ix2 p n) = k0_pay2 h0 g7 g8 ow ob pw pb (ix2 p (⟨n.val, by omega⟩ : Fin 512)) := by
  unfold k0_pay3
  exact slice_at _ _ p n p _ (Nat.zero_add _).symm (Nat.zero_add _).symm
theorem fine_tile (h0 : Vec Ideal S512x896 .f32) (g7 g8 : FVec Ideal S512x896 .f32) (p : Fin 512) (n : Fin 256) :
    k0_pay4 h0 g7 g8 ow ob pw pb (ix2 p n) = k0_pay2 h0 g7 g8 ow ob pw pb (ix2 p (⟨256 + n.val, by omega⟩ : Fin 512)) := by
  unfold k0_pay4
  exact slice_at _ _ p n p _ (Nat.zero_add _).symm rfl

end Heads

end Cert.KernelIdeal.Rows

end
-- ==== Proof.Arrays.lean ====
/-
  From the thirty-two row tiles to whole arrays. Step `t` owns rows `512 t … 512 t + 511` of the hidden state, of the
  packed side inputs and of the three results, and sees every prepared weight whole; so the tile it writes back is the
  matching row tile of one function of the arrays the launch finds, and the row tiles cover each result.
-/
import proofs.«107390_j85950885527647_2_alg».proof.Proof.StepIdeal
import proofs.«107390_j85950885527647_2_alg».proof.Proof.TileRows
import Idealize.ShloMosaic.Lib.Pipeline.Value

set_option maxRecDepth 16384

noncomputable section

namespace Cert.KernelIdeal.Arrays

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Launched Cert.KernelIdeal.Rows Cert.GruRows

variable (m : (ℓ : Loc nD τ sig) → Buf (Elt Ideal) ℓ) (ρ : Dev nD → PrngReg)

theorem hz : (![0, 0] : Fin 2 → Nat) = fun _ => 0 := funext fun a => by fin_cases a <;> rfl

/-- Row `p` of step `t`'s tile, as a row of the array. -/
abbrev rowOf (t : Fin cfg0.N) (p : Fin 512) : Fin 16384 := ⟨512 * t.val + p.val, by have h1 : t.val < grid0.N := t.isLt; rw [N_0] at h1; have := p.isLt; omega⟩

/-- The printed block indices over the grid: the row-tiled windows sit at block `(t, 0)`, the weights at `(0, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0
    ∧ win0_13.index t (0 : Fin 2) = t.val ∧ win0_13.index t (1 : Fin 2) = 0 :=
  (by decide +kernel : ∀ t : Fin grid0.N, _)

/-- Every row block is some step's. -/
theorem step_of : ∀ q : Fin 32, ∃ t : Fin cfg0.N, t.val = q.val :=
  (by decide +kernel : ∀ q : Fin 32, ∃ t : Fin grid0.N, t.val = q.val)

/-! ## The blocks a step reads, as entries of the arrays -/
theorem blk_0 (c : Dev nD) (t : Fin cfg0.N) (p : Fin 512) (q : Fin 896) :
    iblk m c 0 t (ix2 p q) = V m c main_arg0 (ix2 (rowOf t p) q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_arg0 (((cfg0.win 0).blk t).view.emb (ix2 p q)) = V m c main_arg0 (ix2 (rowOf t p) q)
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 896 + 1 * q.val = q.val; omega
theorem blk_1 (c : Dev nD) (t : Fin cfg0.N) (p : Fin 512) (q : Fin 3) :
    iblk m c 1 t (ix2 p q) = V m c main_v75 (ix2 (rowOf t p) q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v75 (((cfg0.win 1).blk t).view.emb (ix2 p q)) = V m c main_v75 (ix2 (rowOf t p) q)
  refine congrArg (V m c main_v75) (funext fun a => Fin.ext ?_)
  match a with
  | ⟨0, _⟩ => show win0_1.index t (0 : Fin 2) * 512 + 1 * p.val = 512 * t.val + p.val; omega
  | ⟨1, _⟩ => show win0_1.index t (1 : Fin 2) * 3 + 1 * q.val = q.val; omega
theorem blk_2 (c : Dev nD) (t : Fin cfg0.N) (p : Fin 896) (q : Fin 2688) :
    iblk m c 2 t (ix2 p q) = V m c main_v1 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v1 (((cfg0.win 2).blk t).view.emb (ix2 p q)) = V m c main_v1 (ix2 p q)
  refine congrArg (V m c main_v1) (funext fun a => Fin.ext ?_)
  match a with
  | ⟨0, _⟩ => show win0_2.index t (0 : Fin 2) * 896 + 1 * p.val = p.val; omega
  | ⟨1, _⟩ => show win0_2.index t (1 : Fin 2) * 2688 + 1 * q.val = q.val; omega
theorem blk_3 (c : Dev nD) (t : Fin cfg0.N) (p : Fin 1) (q : Fin 2688) :
    iblk m c 3 t (ix2 p q) = V m c main_v25 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v25 (((cfg0.win 3).blk t).view.emb (ix2 p q)) = V m c main_v25 (ix2 p q)
  refine congrArg (V m c main_v25) (funext fun a => Fin.ext ?_)
  match a with
  | ⟨0, _⟩ => show win0_3.index t (0 : Fin 2) * 1 + 1 * p.val = p.val; omega
  | ⟨1, _⟩ => show win0_3.index t (1 : Fin 2) * 2688 + 1 * q.val = q.val; omega
theorem blk_4 (c : Dev nD) (t : Fin cfg0.N) (p : Fin 1) (q : Fin 2688) :
    iblk m c 4 t (ix2 p q) = V m c main_v36 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v36 (((cfg0.win 4).blk t).view.emb (ix2 p q)) = V m c main_v36 (ix2 p q)
  refine congrArg (V m c main_v36) (funext fun a => Fin.ext ?_)
  match a with
  | ⟨0, _⟩ => show win0_4.index t (0 : Fin 2) * 1 + 1 * p.val = p.val; omega
  | ⟨1, _⟩ => show win0_4.index t (1 : Fin 2) * 2688 + 1 * q.val = q.val; omega
theorem blk_5 (c : Dev nD) (t : Fin cfg0.N) (p : Fin 1) (q : Fin 2688) :
    iblk m c 5 t (ix2 p q) = V m c main_v44 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v44 (((cfg0.win 5).blk t).view.emb (ix2 p q)) = V m c main_v44 (ix2 p q)
  refine congrArg (V m c main_v44) (funext fun a => Fin.ext ?_)
  match a with
  | ⟨0, _⟩ => show win0_5.index t (0 : Fin 2) * 1 + 1 * p.val = p.val; omega
  | ⟨1, _⟩ => show win0_5.index t (1 : Fin 2) * 2688 + 1 * q.val = q.val; omega
theorem blk_6 (c : Dev nD) (t : Fin cfg0.N) (p : Fin 1) (q : Fin 2688) :
    iblk m c 6 t (ix2 p q) = V m c main_v46 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v46 (((cfg0.win 6).blk t).view.emb (ix2 p q)) = V m c main_v46 (ix2 p q)
  refine congrArg (V m c main_v46) (funext fun a => Fin.ext ?_)
  match a with
  | ⟨0, _⟩ => show win0_6.index t (0 : Fin 2) * 1 + 1 * p.val = p.val; omega
  | ⟨1, _⟩ => show win0_6.index t (1 : Fin 2) * 2688 + 1 * q.val = q.val; omega
theorem blk_7 (c : Dev nD) (t : Fin cfg0.N) (p : Fin 896) (q : Fin 896) :
    iblk m c 7 t (ix2 p q) = V m c main_v58 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v58 (((cfg0.win 7).blk t).view.emb (ix2 p q)) = V m c main_v58 (ix2 p q)
  refine congrArg (V m c main_v58) (funext fun a => Fin.ext ?_)
  match a with
  | ⟨0, _⟩ => show win0_7.index t (0 : Fin 2) * 896 + 1 * p.val = p.val; omega
  | ⟨1, _⟩ => show win0_7.index t (1 : Fin 2) * 896 + 1 * q.val = q.val; omega
theorem blk_8 (c : Dev nD) (t : Fin cfg0.N) (p : Fin 1) (q : Fin 896) :
    iblk m c 8 t (ix2 p q) = V m c main_v60 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v60 (((cfg0.win 8).blk t).view.emb (ix2 p q)) = V m c main_v60 (ix2 p q)
  refine congrArg (V m c main_v60) (funext fun a => Fin.ext ?_)
  match a with
  | ⟨0, _⟩ => show win0_8.index t (0 : Fin 2) * 1 + 1 * p.val = p.val; omega
  | ⟨1, _⟩ => show win0_8.index t (1 : Fin 2) * 896 + 1 * q.val = q.val; omega
theorem blk_9 (c : Dev nD) (t : Fin cfg0.N) (p : Fin 896) (q : Fin 512) :
    iblk m c 9 t (ix2 p q) = V m c main_v72 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v72 (((cfg0.win 9).blk t).view.emb (ix2 p q)) = V m c main_v72 (ix2 p q)
  refine congrArg (V m c main_v72) (funext fun a => Fin.ext ?_)
  match a with
  | ⟨0, _⟩ => show win0_9.index t (0 : Fin 2) * 896 + 1 * p.val = p.val; omega
  | ⟨1, _⟩ => show win0_9.index t (1 : Fin 2) * 512 + 1 * q.val = q.val; omega
theorem blk_10 (c : Dev nD) (t : Fin cfg0.N) (p : Fin 1) (q : Fin 512) :
    iblk m c 10 t (ix2 p q) = V m c main_v74 (ix2 p q) := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  show V m c main_v74 (((cfg0.win 10).blk t).view.emb (ix2 p q)) = V m c main_v74 (ix2 p q)
  refine congrArg (V m c main_v74) (funext fun a => Fin.ext ?_)
  match a with
  | ⟨0, _⟩ => show win0_10.index t (0 : Fin 2) * 1 + 1 * p.val = p.val; omega
  | ⟨1, _⟩ => show win0_10.index t (1 : Fin 2) * 512 + 1 * q.val = q.val; omega

/-! ## Where a step's stored tile lands -/
theorem emb_11 (t : Fin cfg0.N) (p : Fin 512) (q : Fin 896) :
    ((cfg0.win 11).blk t).view.emb (ix2 p q) = ix2 (rowOf t p) q := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  funext a; apply Fin.ext
  match a with
  | ⟨0, _⟩ => show win0_11.index t (0 : Fin 2) * 512 + 1 * p.val = 512 * t.val + p.val; omega
  | ⟨1, _⟩ => show win0_11.index t (1 : Fin 2) * 896 + 1 * q.val = q.val; omega
theorem emb_12 (t : Fin cfg0.N) (p : Fin 512) (q : Fin 256) :
    ((cfg0.win 12).blk t).view.emb (ix2 p q) = ix2 (rowOf t p) q := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  funext a; apply Fin.ext
  match a with
  | ⟨0, _⟩ => show win0_12.index t (0 : Fin 2) * 512 + 1 * p.val = 512 * t.val + p.val; omega
  | ⟨1, _⟩ => show win0_12.index t (1 : Fin 2) * 256 + 1 * q.val = q.val; omega
theorem emb_13 (t : Fin cfg0.N) (p : Fin 512) (q : Fin 256) :
    ((cfg0.win 13).blk t).view.emb (ix2 p q) = ix2 (rowOf t p) q := by
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  funext a; apply Fin.ext
  match a with
  | ⟨0, _⟩ => show win0_13.index t (0 : Fin 2) * 512 + 1 * p.val = 512 * t.val + p.val; omega
  | ⟨1, _⟩ => show win0_13.index t (1 : Fin 2) * 256 + 1 * q.val = q.val; omega

/-! ## The three results as functions of the arrays the launch finds -/

/-- The new hidden state, row by row. -/
def GH (A0 : S16384x896.Idx → EReal) (A1 : S16384x3.Idx → EReal) (A2 : S896x2688.Idx → EReal) (A3 A4 A5 A6 : S1x2688.Idx → EReal) :
    S16384x896.Idx → EReal := fun i =>
  gruRow (fun k => A0 (ix2 (i 0) k)) (A1 (ix2 (i 0) 0)) (A1 (ix2 (i 0) 1)) (A1 (ix2 (i 0) 2)) (fun k n => A2 (ix2 k n))
    (fun n => A3 (ix2 0 n)) (fun n => A4 (ix2 0 n)) (fun n => A5 (ix2 0 n)) (fun n => A6 (ix2 0 n)) (i 1)

/-- The fused class outputs, row by row, at column `n` of 512. -/
def GP (A0 : S16384x896.Idx → EReal) (A1 : S16384x3.Idx → EReal) (A2 : S896x2688.Idx → EReal) (A3 A4 A5 A6 : S1x2688.Idx → EReal)
    (A7 : S896x896.Idx → EReal) (A8 : S1x896.Idx → EReal) (A9 : S896x512.Idx → EReal) (A10 : S1x512.Idx → EReal)
    (r : Fin 16384) (n : Fin 512) : EReal :=
  clsRow (fun l => GH A0 A1 A2 A3 A4 A5 A6 (ix2 r l)) (fun l k => A7 (ix2 l k)) (fun k => A8 (ix2 0 k))
    (fun k n => A9 (ix2 k n)) (fun n => A10 (ix2 0 n)) n

/-- The new hidden tile of step `t` at `(p, q)` is the array function at row `512 t + p`. -/
theorem hidden_at (c : Dev nD) (t : Fin cfg0.N) (p : Fin 512) (q : Fin 896) :
    k0_pay1 (iblk m c 0 t) (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 6 t)) (ix2 p q)
      = GH (V m c main_arg0) (V m c main_v75) (V m c main_v1) (V m c main_v25) (V m c main_v36) (V m c main_v44) (V m c main_v46) (ix2 (rowOf t p) q) := by
  refine (hidden_tile (iblk m c 0 t) (iblk m c 1 t) (iblk m c 2 t) (iblk m c 3 t) (iblk m c 4 t) (iblk m c 5 t) (iblk m c 6 t) p q).trans ?_
  unfold GH
  simp only [blk_0 m c t, blk_1 m c t, blk_2 m c t, blk_3 m c t, blk_4 m c t, blk_5 m c t, blk_6 m c t]

/-- WHAT STEP `t` WRITES BACK into the hidden-state result. -/
theorem flushed_hidden (c : Dev nD) (t : Fin cfg0.N) :
    (dats m 0 c).flushed 11 t = ((cfg0.win 11).blk t).view.read (Elt Ideal) (GH (V m c main_arg0) (V m c main_v75) (V m c main_v1) (V m c main_v25) (V m c main_v36) (V m c main_v44) (V m c main_v46)) := by
  show (cfg0.win 11).cut (grid0.coords t) ((dats m 0 c).after 11 t) = _
  rw [after_11]
  unfold hiddenTile
  rw [View.canon_unit_zero hz]
  simp only [View.ld_unit_zero (S := S512x896) hz, View.ld_unit_zero (S := S512x3) hz, View.ld_unit_zero (S := S896x2688) hz, View.ld_unit_zero (S := S1x2688) hz, View.ld_unit_zero (S := S896x896) hz, View.ld_unit_zero (S := S1x896) hz, View.ld_unit_zero (S := S896x512) hz, View.ld_unit_zero (S := S1x512) hz]
  funext j
  obtain ⟨p, q, rfl⟩ : ∃ (p : Fin 512) (q : Fin 896), j = ix2 p q := ⟨j 0, j 1, eq_ix2 j⟩
  refine (hidden_at m c t p q).trans ?_
  show _ = GH (V m c main_arg0) (V m c main_v75) (V m c main_v1) (V m c main_v25) (V m c main_v36) (V m c main_v44) (V m c main_v46) (((cfg0.win 11).blk t).view.emb (ix2 p q))
  rw [emb_11]

/-- The fused class tile of step `t` at `(p, n)`. -/
theorem heads_at (c : Dev nD) (t : Fin cfg0.N) (p : Fin 512) (n : Fin 512) :
    k0_pay2 (iblk m c 0 t) (k0_pay7 (iblk m c 0 t) (iblk m c 1 t) (iblk m c 2 t) (iblk m c 3 t) (iblk m c 4 t) (iblk m c 5 t) (iblk m c 6 t))
        (k0_pay8 (iblk m c 0 t) (iblk m c 1 t) (iblk m c 2 t) (iblk m c 3 t) (iblk m c 4 t) (iblk m c 5 t) (iblk m c 6 t))
        (iblk m c 7 t) (iblk m c 8 t) (iblk m c 9 t) (iblk m c 10 t) (ix2 p n)
      = GP (V m c main_arg0) (V m c main_v75) (V m c main_v1) (V m c main_v25) (V m c main_v36) (V m c main_v44) (V m c main_v46) (V m c main_v58) (V m c main_v60) (V m c main_v72) (V m c main_v74) (rowOf t p) n := by
  refine (heads_tile (iblk m c 7 t) (iblk m c 8 t) (iblk m c 9 t) (iblk m c 10 t) (iblk m c 0 t) _ _ p n).trans ?_
  unfold GP
  simp only [hidden_at m c t p, blk_7 m c t, blk_8 m c t, blk_9 m c t, blk_10 m c t]

/-- The coarse and the fine class results: the two halves of the fused columns. -/
def GC (P : Fin 16384 → Fin 512 → EReal) : S16384x256.Idx → EReal := fun i => P (i 0) ⟨(i 1).val, by have h : (i 1).val < 256 := (i 1).isLt; omega⟩
def GF (P : Fin 16384 → Fin 512 → EReal) : S16384x256.Idx → EReal := fun i => P (i 0) ⟨256 + (i 1).val, by have h : (i 1).val < 256 := (i 1).isLt; omega⟩

theorem flushed_coarse (c : Dev nD) (t : Fin cfg0.N) :
    (dats m 0 c).flushed 12 t = ((cfg0.win 12).blk t).view.read (Elt Ideal) (GC (GP (V m c main_arg0) (V m c main_v75) (V m c main_v1) (V m c main_v25) (V m c main_v36) (V m c main_v44) (V m c main_v46) (V m c main_v58) (V m c main_v60) (V m c main_v72) (V m c main_v74))) := by
  show (cfg0.win 12).cut (grid0.coords t) ((dats m 0 c).after 12 t) = _
  rw [after_12]
  unfold coarseTile
  rw [View.canon_unit_zero hz]
  simp only [View.ld_unit_zero (S := S512x896) hz, View.ld_unit_zero (S := S512x3) hz, View.ld_unit_zero (S := S896x2688) hz, View.ld_unit_zero (S := S1x2688) hz, View.ld_unit_zero (S := S896x896) hz, View.ld_unit_zero (S := S1x896) hz, View.ld_unit_zero (S := S896x512) hz, View.ld_unit_zero (S := S1x512) hz]
  funext j
  obtain ⟨p, q, rfl⟩ : ∃ (p : Fin 512) (q : Fin 256), j = ix2 p q := ⟨j 0, j 1, eq_ix2 j⟩
  refine (coarse_tile (iblk m c 7 t) (iblk m c 8 t) (iblk m c 9 t) (iblk m c 10 t) (iblk m c 0 t) _ _ p q).trans ?_
  refine (heads_at m c t p _).trans ?_
  show _ = GC (GP (V m c main_arg0) (V m c main_v75) (V m c main_v1) (V m c main_v25) (V m c main_v36) (V m c main_v44) (V m c main_v46) (V m c main_v58) (V m c main_v60) (V m c main_v72) (V m c main_v74)) (((cfg0.win 12).blk t).view.emb (ix2 p q))
  rw [emb_12]; rfl

theorem flushed_fine (c : Dev nD) (t : Fin cfg0.N) :
    (dats m 0 c).flushed 13 t = ((cfg0.win 13).blk t).view.read (Elt Ideal) (GF (GP (V m c main_arg0) (V m c main_v75) (V m c main_v1) (V m c main_v25) (V m c main_v36) (V m c main_v44) (V m c main_v46) (V m c main_v58) (V m c main_v60) (V m c main_v72) (V m c main_v74))) := by
  show (cfg0.win 13).cut (grid0.coords t) ((dats m 0 c).after 13 t) = _
  rw [after_13]
  unfold fineTile
  rw [View.canon_unit_zero hz]
  simp only [View.ld_unit_zero (S := S512x896) hz, View.ld_unit_zero (S := S512x3) hz, View.ld_unit_zero (S := S896x2688) hz, View.ld_unit_zero (S := S1x2688) hz, View.ld_unit_zero (S := S896x896) hz, View.ld_unit_zero (S := S1x896) hz, View.ld_unit_zero (S := S896x512) hz, View.ld_unit_zero (S := S1x512) hz]
  funext j
  obtain ⟨p, q, rfl⟩ : ∃ (p : Fin 512) (q : Fin 256), j = ix2 p q := ⟨j 0, j 1, eq_ix2 j⟩
  refine (fine_tile (iblk m c 7 t) (iblk m c 8 t) (iblk m c 9 t) (iblk m c 10 t) (iblk m c 0 t) _ _ p q).trans ?_
  refine (heads_at m c t p _).trans ?_
  show _ = GF (GP (V m c main_arg0) (V m c main_v75) (V m c main_v1) (V m c main_v25) (V m c main_v36) (V m c main_v44) (V m c main_v46) (V m c main_v58) (V m c main_v60) (V m c main_v72) (V m c main_v74)) (((cfg0.win 13).blk t).view.emb (ix2 p q))
  rw [emb_13]; rfl

/-! ## The row tiles cover each result -/

theorem mem_blk_11 (t : Fin cfg0.N) (i : S16384x896.Idx) :
    i ∈ ((cfg0.win 11).blk t).view.set ↔ ∀ a : Fin 2, win0_11.index t a * S512x896.size a ≤ (i a).val ∧ (i a).val < win0_11.index t a * S512x896.size a + S512x896.size a := by
  show i ∈ ((View.whole main_v76_0).slice (win0_11.rect t)).set ↔ _
  rw [View.set_slice_whole, Rect.mem_set_unit]
  exact Iff.rfl

/-- Every row of the result lies in the row tile of exactly the step that owns it. -/
theorem cover_11 (i : S16384x896.Idx) : ∃ t : Fin cfg0.N, (cfg0.win 11).flush t = true ∧ i ∈ ((cfg0.win 11).blk t).view.set := by
  have hi0 : (i 0).val < 16384 := (i 0).isLt
  have hi1 : (i 1).val < 896 := (i 1).isLt
  obtain ⟨t, ht⟩ := step_of ⟨(i 0).val / 512, by omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have ht' : t.val = (i 0).val / 512 := ht
  refine ⟨t, flush0_11 t, ?_⟩
  rw [mem_blk_11]
  intro a
  match a with
  | ⟨0, _⟩ => show win0_11.index t (0 : Fin 2) * 512 ≤ (i 0).val ∧ (i 0).val < win0_11.index t (0 : Fin 2) * 512 + 512; omega
  | ⟨1, _⟩ => show win0_11.index t (1 : Fin 2) * 896 ≤ (i 1).val ∧ (i 1).val < win0_11.index t (1 : Fin 2) * 896 + 896; omega

theorem mem_blk_12 (t : Fin cfg0.N) (i : S16384x256.Idx) :
    i ∈ ((cfg0.win 12).blk t).view.set ↔ ∀ a : Fin 2, win0_12.index t a * S512x256.size a ≤ (i a).val ∧ (i a).val < win0_12.index t a * S512x256.size a + S512x256.size a := by
  show i ∈ ((View.whole main_v76_1).slice (win0_12.rect t)).set ↔ _
  rw [View.set_slice_whole, Rect.mem_set_unit]
  exact Iff.rfl

/-- Every row of the result lies in the row tile of exactly the step that owns it. -/
theorem cover_12 (i : S16384x256.Idx) : ∃ t : Fin cfg0.N, (cfg0.win 12).flush t = true ∧ i ∈ ((cfg0.win 12).blk t).view.set := by
  have hi0 : (i 0).val < 16384 := (i 0).isLt
  have hi1 : (i 1).val < 256 := (i 1).isLt
  obtain ⟨t, ht⟩ := step_of ⟨(i 0).val / 512, by omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have ht' : t.val = (i 0).val / 512 := ht
  refine ⟨t, flush0_12 t, ?_⟩
  rw [mem_blk_12]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 256 ≤ (i 1).val ∧ (i 1).val < win0_12.index t (1 : Fin 2) * 256 + 256; omega

theorem mem_blk_13 (t : Fin cfg0.N) (i : S16384x256.Idx) :
    i ∈ ((cfg0.win 13).blk t).view.set ↔ ∀ a : Fin 2, win0_13.index t a * S512x256.size a ≤ (i a).val ∧ (i a).val < win0_13.index t a * S512x256.size a + S512x256.size a := by
  show i ∈ ((View.whole main_v76_2).slice (win0_13.rect t)).set ↔ _
  rw [View.set_slice_whole, Rect.mem_set_unit]
  exact Iff.rfl

/-- Every row of the result lies in the row tile of exactly the step that owns it. -/
theorem cover_13 (i : S16384x256.Idx) : ∃ t : Fin cfg0.N, (cfg0.win 13).flush t = true ∧ i ∈ ((cfg0.win 13).blk t).view.set := by
  have hi0 : (i 0).val < 16384 := (i 0).isLt
  have hi1 : (i 1).val < 256 := (i 1).isLt
  obtain ⟨t, ht⟩ := step_of ⟨(i 0).val / 512, by omega⟩
  obtain ⟨e0a, e0b, e1a, e1b, e2a, e2b, e3a, e3b, e4a, e4b, e5a, e5b, e6a, e6b, e7a, e7b, e8a, e8b, e9a, e9b, e10a, e10b, e11a, e11b, e12a, e12b, e13a, e13b⟩ := idx_facts t
  have ht' : t.val = (i 0).val / 512 := ht
  refine ⟨t, flush0_13 t, ?_⟩
  rw [mem_blk_13]
  intro a
  match a with
  | ⟨0, _⟩ => show win0_13.index t (0 : Fin 2) * 512 ≤ (i 0).val ∧ (i 0).val < win0_13.index t (0 : Fin 2) * 512 + 512; omega
  | ⟨1, _⟩ => show win0_13.index t (1 : Fin 2) * 256 ≤ (i 1).val ∧ (i 1).val < win0_13.index t (1 : Fin 2) * 256 + 256; omega

/-! ## The results after the run -/

theorem final_hidden (c : Dev nD) : (dats m 0 c).arrAt 11 cfg0.N = GH (V m c main_arg0) (V m c main_v75) (V m c main_v1) (V m c main_v25) (V m c main_v36) (V m c main_v44) (V m c main_v46) :=
  (dats m 0 c).arrAt_eq_of_cover 11 _ (fun t _ => flushed_hidden m c t) cover_11
theorem final_coarse (c : Dev nD) : (dats m 0 c).arrAt 12 cfg0.N = GC (GP (V m c main_arg0) (V m c main_v75) (V m c main_v1) (V m c main_v25) (V m c main_v36) (V m c main_v44) (V m c main_v46) (V m c main_v58) (V m c main_v60) (V m c main_v72) (V m c main_v74)) :=
  (dats m 0 c).arrAt_eq_of_cover 12 _ (fun t _ => flushed_coarse m c t) cover_12
theorem final_fine (c : Dev nD) : (dats m 0 c).arrAt 13 cfg0.N = GF (GP (V m c main_arg0) (V m c main_v75) (V m c main_v1) (V m c main_v25) (V m c main_v36) (V m c main_v44) (V m c main_v46) (V m c main_v58) (V m c main_v60) (V m c main_v72) (V m c main_v74)) :=
  (dats m 0 c).arrAt_eq_of_cover 13 _ (fun t _ => flushed_fine m c t) cover_13

end Cert.KernelIdeal.Arrays

end
-- ==== Proof.KernelRun.lean ====
/-
  The idealized grid's run with its results named: each result array ends at its function of the arrays the launch
  finds, and the arguments end unchanged.
-/
import proofs.«107390_j85950885527647_2_alg».proof.Proof.Arrays

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Launched

variable (m : (ℓ : Loc nD τ sig) → Buf (Elt Ideal) ℓ) (ρ : Dev nD → PrngReg)

set_option maxHeartbeats 1000000 in
theorem run_values : θ_run defs (onTc (τ := τ) (main (F := Ideal))) ⟨m, fun _ => 0, ρ⟩ (fun r => ∀ c : Dev nD,
      r.2.mem ((c.tc : Thread nD τ).loc main_v76_0) = GH (V m c main_arg0) (V m c main_v75) (V m c main_v1) (V m c main_v25) (V m c main_v36) (V m c main_v44) (V m c main_v46)
      ∧ r.2.mem ((c.tc : Thread nD τ).loc main_v76_1) = GC (GP (V m c main_arg0) (V m c main_v75) (V m c main_v1) (V m c main_v25) (V m c main_v36) (V m c main_v44) (V m c main_v46) (V m c main_v58) (V m c main_v60) (V m c main_v72) (V m c main_v74))
      ∧ r.2.mem ((c.tc : Thread nD τ).loc main_v76_2) = GF (GP (V m c main_arg0) (V m c main_v75) (V m c main_v1) (V m c main_v25) (V m c main_v36) (V m c main_v44) (V m c main_v46) (V m c main_v58) (V m c main_v60) (V m c main_v72) (V m c main_v74))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 11).trans (final_hidden m c), ((h c).1 12).trans (final_coarse m c),
      ((h c).1 13).trans (final_fine m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) (run_main m ρ)

end Cert.KernelIdeal.Arrays

end
-- ==== Proof.PreparedTerms.lean ====
/-
  The weight preparation, operation by operation: each array the launch is handed, as the composed expression of the
  argument arrays that the host operations before the launch compute. Nothing here is arithmetic; the operations are
  transposes, slices, reshapes, joins and the placement of blocks, and the expressions are read entry by entry elsewhere.
-/
import proofs.«107390_j85950885527647_2_alg».proof.Proof.StepIdeal
import Idealize.ShloMosaic.Lib.StableHlo.Run
import Idealize.ShloMosaic.PureOps.Ideal

set_option maxRecDepth 16384

noncomputable section

namespace Cert.KernelIdeal.Prepared

open Idealize.ShloMosaic Idealize.ShloMosaic.TcCoe Idealize.SL.Sem Idealize.ShloMosaic.StableHlo
open Cert.KernelIdeal Cert.KernelIdeal.Gen Cert.KernelIdeal.Launched

variable (m : (ℓ : Loc nD τ sig) → Buf (Elt Ideal) ℓ)

set_option maxHeartbeats 4000000

theorem V_main_v75 (c : Dev nD) : V m c main_v75 = (concatenate S16384x3 1 [⟨S16384x1, (m ((c : Thread nD τ).loc main_arg1))⟩, ⟨S16384x1, (m ((c : Thread nD τ).loc main_arg2))⟩, ⟨S16384x1, (m ((c : Thread nD τ).loc main_arg3))⟩] concatenates_S16384x1_S16384x1_S16384x1_S16384x3_d1) := by
  show StableHlo.after hostOps0 (fun b => m (c, b)) (Proc.devRef .tc main_v75) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v1 (c : Dev nD) : V m c main_v1 = (truncf (F := Ideal) .bf16 (transpose S896x2688 [1, 0] (m ((c : Thread nD τ).loc main_arg4)) transposes_S2688x896_S896x2688_1_0) bitsLt_bf16_f32) := by
  show StableHlo.after hostOps0 (fun b => m (c, b)) (Proc.devRef .tc main_v1) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v25 (c : Dev nD) : V m c main_v25 = (shapeCast S1x2688 (concatenate S2688 0 [⟨S896, (concatenate S896 0 [⟨S448, (extractStridedSlice S448 ![0] (shapeCast S1344 (extractStridedSlice S1x1344 ![0, 0] (transpose S2x1344 [1, 0] (m ((c : Thread nD τ).loc main_arg5)) transposes_S1344x2_S2x1344_1_0) slices_S2x1344_S1x1344_0_0) shapeCasts_S1x1344_S1344) slices_S1344_S448_0)⟩, ⟨S448, (extractStridedSlice S448 ![0] (shapeCast S1344 (extractStridedSlice S1x1344 ![0, 0] (transpose S3x1344 [1, 0] (m ((c : Thread nD τ).loc main_arg6)) transposes_S1344x3_S3x1344_1_0) slices_S3x1344_S1x1344_0_0) shapeCasts_S1x1344_S1344) slices_S1344_S448_0)⟩] concatenates_S448_S448_S896_d0)⟩, ⟨S896, (concatenate S896 0 [⟨S448, (extractStridedSlice S448 ![448] (shapeCast S1344 (extractStridedSlice S1x1344 ![0, 0] (transpose S2x1344 [1, 0] (m ((c : Thread nD τ).loc main_arg5)) transposes_S1344x2_S2x1344_1_0) slices_S2x1344_S1x1344_0_0) shapeCasts_S1x1344_S1344) slices_S1344_S448_448)⟩, ⟨S448, (extractStridedSlice S448 ![448] (shapeCast S1344 (extractStridedSlice S1x1344 ![0, 0] (transpose S3x1344 [1, 0] (m ((c : Thread nD τ).loc main_arg6)) transposes_S1344x3_S3x1344_1_0) slices_S3x1344_S1x1344_0_0) shapeCasts_S1x1344_S1344) slices_S1344_S448_448)⟩] concatenates_S448_S448_S896_d0)⟩, ⟨S896, (concatenate S896 0 [⟨S448, (extractStridedSlice S448 ![896] (shapeCast S1344 (extractStridedSlice S1x1344 ![0, 0] (transpose S2x1344 [1, 0] (m ((c : Thread nD τ).loc main_arg5)) transposes_S1344x2_S2x1344_1_0) slices_S2x1344_S1x1344_0_0) shapeCasts_S1x1344_S1344) slices_S1344_S448_896)⟩, ⟨S448, (extractStridedSlice S448 ![896] (shapeCast S1344 (extractStridedSlice S1x1344 ![0, 0] (transpose S3x1344 [1, 0] (m ((c : Thread nD τ).loc main_arg6)) transposes_S1344x3_S3x1344_1_0) slices_S3x1344_S1x1344_0_0) shapeCasts_S1x1344_S1344) slices_S1344_S448_896)⟩] concatenates_S448_S448_S896_d0)⟩] concatenates_S896_S896_S896_S2688_d0) shapeCasts_S2688_S1x2688) := by
  show StableHlo.after hostOps0 (fun b => m (c, b)) (Proc.devRef .tc main_v25) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v36 (c : Dev nD) : V m c main_v36 = (shapeCast S1x2688 (concatenate S2688 0 [⟨S896, (concatenate S896 0 [⟨S448, (extractStridedSlice S448 ![0] (shapeCast S1344 (extractStridedSlice S1x1344 ![1, 0] (transpose S2x1344 [1, 0] (m ((c : Thread nD τ).loc main_arg5)) transposes_S1344x2_S2x1344_1_0) slices_S2x1344_S1x1344_1_0) shapeCasts_S1x1344_S1344) slices_S1344_S448_0)⟩, ⟨S448, (extractStridedSlice S448 ![0] (shapeCast S1344 (extractStridedSlice S1x1344 ![1, 0] (transpose S3x1344 [1, 0] (m ((c : Thread nD τ).loc main_arg6)) transposes_S1344x3_S3x1344_1_0) slices_S3x1344_S1x1344_1_0) shapeCasts_S1x1344_S1344) slices_S1344_S448_0)⟩] concatenates_S448_S448_S896_d0)⟩, ⟨S896, (concatenate S896 0 [⟨S448, (extractStridedSlice S448 ![448] (shapeCast S1344 (extractStridedSlice S1x1344 ![1, 0] (transpose S2x1344 [1, 0] (m ((c : Thread nD τ).loc main_arg5)) transposes_S1344x2_S2x1344_1_0) slices_S2x1344_S1x1344_1_0) shapeCasts_S1x1344_S1344) slices_S1344_S448_448)⟩, ⟨S448, (extractStridedSlice S448 ![448] (shapeCast S1344 (extractStridedSlice S1x1344 ![1, 0] (transpose S3x1344 [1, 0] (m ((c : Thread nD τ).loc main_arg6)) transposes_S1344x3_S3x1344_1_0) slices_S3x1344_S1x1344_1_0) shapeCasts_S1x1344_S1344) slices_S1344_S448_448)⟩] concatenates_S448_S448_S896_d0)⟩, ⟨S896, (concatenate S896 0 [⟨S448, (extractStridedSlice S448 ![896] (shapeCast S1344 (extractStridedSlice S1x1344 ![1, 0] (transpose S2x1344 [1, 0] (m ((c : Thread nD τ).loc main_arg5)) transposes_S1344x2_S2x1344_1_0) slices_S2x1344_S1x1344_1_0) shapeCasts_S1x1344_S1344) slices_S1344_S448_896)⟩, ⟨S448, (extractStridedSlice S448 ![896] (shapeCast S1344 (extractStridedSlice S1x1344 ![1, 0] (transpose S3x1344 [1, 0] (m ((c : Thread nD τ).loc main_arg6)) transposes_S1344x3_S3x1344_1_0) slices_S3x1344_S1x1344_1_0) shapeCasts_S1x1344_S1344) slices_S1344_S448_896)⟩] concatenates_S448_S448_S896_d0)⟩] concatenates_S896_S896_S896_S2688_d0) shapeCasts_S2688_S1x2688) := by
  show StableHlo.after hostOps0 (fun b => m (c, b)) (Proc.devRef .tc main_v36) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v44 (c : Dev nD) : V m c main_v44 = (shapeCast S1x2688 (concatenate S2688 0 [⟨S896, (concatenate S896 0 [⟨S448, (broadcastInDim S448 ![] bcast_S_S448 (constant (F := Ideal) S_ .f32 0x00000000#32))⟩, ⟨S448, (extractStridedSlice S448 ![0] (shapeCast S1344 (extractStridedSlice S1x1344 ![2, 0] (transpose S3x1344 [1, 0] (m ((c : Thread nD τ).loc main_arg6)) transposes_S1344x3_S3x1344_1_0) slices_S3x1344_S1x1344_2_0) shapeCasts_S1x1344_S1344) slices_S1344_S448_0)⟩] concatenates_S448_S448_S896_d0)⟩, ⟨S896, (concatenate S896 0 [⟨S448, (broadcastInDim S448 ![] bcast_S_S448 (constant (F := Ideal) S_ .f32 0x00000000#32))⟩, ⟨S448, (extractStridedSlice S448 ![448] (shapeCast S1344 (extractStridedSlice S1x1344 ![2, 0] (transpose S3x1344 [1, 0] (m ((c : Thread nD τ).loc main_arg6)) transposes_S1344x3_S3x1344_1_0) slices_S3x1344_S1x1344_2_0) shapeCasts_S1x1344_S1344) slices_S1344_S448_448)⟩] concatenates_S448_S448_S896_d0)⟩, ⟨S896, (concatenate S896 0 [⟨S448, (broadcastInDim S448 ![] bcast_S_S448 (constant (F := Ideal) S_ .f32 0x00000000#32))⟩, ⟨S448, (extractStridedSlice S448 ![896] (shapeCast S1344 (extractStridedSlice S1x1344 ![2, 0] (transpose S3x1344 [1, 0] (m ((c : Thread nD τ).loc main_arg6)) transposes_S1344x3_S3x1344_1_0) slices_S3x1344_S1x1344_2_0) shapeCasts_S1x1344_S1344) slices_S1344_S448_896)⟩] concatenates_S448_S448_S896_d0)⟩] concatenates_S896_S896_S896_S2688_d0) shapeCasts_S2688_S1x2688) := by
  show StableHlo.after hostOps0 (fun b => m (c, b)) (Proc.devRef .tc main_v44) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v46 (c : Dev nD) : V m c main_v46 = (shapeCast S1x2688 (concatenate S2688 0 [⟨S896, (m ((c : Thread nD τ).loc main_arg15))⟩, ⟨S896, (m ((c : Thread nD τ).loc main_arg16))⟩, ⟨S896, (m ((c : Thread nD τ).loc main_arg17))⟩] concatenates_S896_S896_S896_S2688_d0) shapeCasts_S2688_S1x2688) := by
  show StableHlo.after hostOps0 (fun b => m (c, b)) (Proc.devRef .tc main_v46) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v58 (c : Dev nD) : V m c main_v58 = (truncf (F := Ideal) .bf16 (Host.scatter scatter_S896x896_S2_S448x448_01_n_01_0 (fun _ b => b) (Host.scatter scatter_S896x896_S2_S448x448_01_n_01_0 (fun _ b => b) (broadcastInDim S896x896 ![] bcast_S_S896x896 (constant (F := Ideal) S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S448x448 [1, 0] (m ((c : Thread nD τ).loc main_arg7)) transposes_S448x448_S448x448_1_0)) (concatenate S2 0 [⟨S1, (broadcastInDim S1 ![] bcast_S_S1 (constantI S_ 32 448#32))⟩, ⟨S1, (broadcastInDim S1 ![] bcast_S_S1 (constantI S_ 32 448#32))⟩] concatenates_S1_S1_S2_d0) (transpose S448x448 [1, 0] (m ((c : Thread nD τ).loc main_arg9)) transposes_S448x448_S448x448_1_0)) bitsLt_bf16_f32) := by
  show StableHlo.after hostOps0 (fun b => m (c, b)) (Proc.devRef .tc main_v58) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v60 (c : Dev nD) : V m c main_v60 = (shapeCast S1x896 (concatenate S896 0 [⟨S448, (m ((c : Thread nD τ).loc main_arg8))⟩, ⟨S448, (m ((c : Thread nD τ).loc main_arg10))⟩] concatenates_S448_S448_S896_d0) shapeCasts_S896_S1x896) := by
  show StableHlo.after hostOps0 (fun b => m (c, b)) (Proc.devRef .tc main_v60) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v72 (c : Dev nD) : V m c main_v72 = (truncf (F := Ideal) .bf16 (Host.scatter scatter_S896x512_S2_S448x256_01_n_01_0 (fun _ b => b) (Host.scatter scatter_S896x512_S2_S448x256_01_n_01_0 (fun _ b => b) (broadcastInDim S896x512 ![] bcast_S_S896x512 (constant (F := Ideal) S_ .f32 0x00000000#32)) (concatenate S2 0 [⟨S1, (broadcastInDim S1 ![] bcast_S_S1 (constantI S_ 32 0#32))⟩, ⟨S1, (broadcastInDim S1 ![] bcast_S_S1 (constantI S_ 32 0#32))⟩] concatenates_S1_S1_S2_d0) (transpose S448x256 [1, 0] (m ((c : Thread nD τ).loc main_arg11)) transposes_S256x448_S448x256_1_0)) (concatenate S2 0 [⟨S1, (broadcastInDim S1 ![] bcast_S_S1 (constantI S_ 32 448#32))⟩, ⟨S1, (broadcastInDim S1 ![] bcast_S_S1 (constantI S_ 32 256#32))⟩] concatenates_S1_S1_S2_d0) (transpose S448x256 [1, 0] (m ((c : Thread nD τ).loc main_arg13)) transposes_S256x448_S448x256_1_0)) bitsLt_bf16_f32) := by
  show StableHlo.after hostOps0 (fun b => m (c, b)) (Proc.devRef .tc main_v72) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

theorem V_main_v74 (c : Dev nD) : V m c main_v74 = (shapeCast S1x512 (concatenate S512 0 [⟨S256, (m ((c : Thread nD τ).loc main_arg12))⟩, ⟨S256, (m ((c : Thread nD τ).loc main_arg14))⟩] concatenates_S256_S256_S512_d0) shapeCasts_S512_S1x512) := by
  show StableHlo.after hostOps0 (fun b => m (c, b)) (Proc.devRef .tc main_v74) = _
  simp (disch := decide) only [StableHlo.after_cons, StableHlo.after_nil, StableHlo.nullary_result', StableHlo.unary_result', StableHlo.binary_result', StableHlo.ternary_result', StableHlo.reshape_result', StableHlo.nary_result', StableHlo.nullary_result_ne', StableHlo.unary_result_ne', StableHlo.binary_result_ne', StableHlo.ternary_result_ne', StableHlo.reshape_result_ne', StableHlo.nary_result_ne', Matrix.cons_val]
  all_goals rfl

end Cert.KernelIdeal.Prepared

end
-- ==== Proof.BlockPlace.lean ====
/-
  Writing a block into a matrix at a corner. The host prepares each fused weight by starting from zeros and placing two
  transposed blocks on the diagonal; an entry of the result is the block's entry where the block covers it and the
  old entry elsewhere. The placement is a fold over the block's entries, each landing on its own cell, so the last
  write to a cell is the only one.
-/
import proofs.«107390_j85950885527647_2_alg».proof.Proof.Gen.KernelIdeal
import Idealize.ShloMosaic.Lib.ValueIdx
import Idealize.ShloMosaic.Lib.Pipeline.Value

noncomputable section

namespace Cert.KernelIdeal.BlockPlace

open Idealize.ShloMosaic Idealize.ShloMosaic.ValueIdx Cert.KernelIdeal Cert.KernelIdeal.Gen

/-! ## A fold of single-cell writes -/

section Fold
variable {I N α : Type} [DecidableEq I] (g : N → I) (v : N → α)

/-- A cell no write lands on keeps its entry. -/
theorem fold_set_miss (L : List N) (x : I → α) (i : I) (hno : ∀ n ∈ L, g n ≠ i) :
    (L.foldl (fun r n => fun i' => if i' = g n then v n else r i') x) i = x i := by
  induction L generalizing x with
  | nil => rfl
  | cons a L ih =>
    rw [List.foldl_cons, ih _ (fun n hn => hno n (List.mem_cons_of_mem _ hn))]
    exact if_neg (fun h => hno a (List.mem_cons_self) h.symm)

/-- A cell some write lands on ends at that write's value, when every write landing there carries the same value. -/
theorem fold_set_hit (L : List N) (x : I → α) (i : I) (w : α) (hex : ∃ n ∈ L, g n = i)
    (hall : ∀ n ∈ L, g n = i → v n = w) :
    (L.foldl (fun r n => fun i' => if i' = g n then v n else r i') x) i = w := by
  induction L generalizing x with
  | nil => obtain ⟨n, hn, _⟩ := hex; cases hn
  | cons a L ih =>
    rw [List.foldl_cons]
    by_cases hL : ∃ n ∈ L, g n = i
    · exact ih _ hL (fun n hn => hall n (List.mem_cons_of_mem _ hn))
    · have hno : ∀ n ∈ L, g n ≠ i := fun n hn h => hL ⟨n, hn, h⟩
      rw [fold_set_miss g v L _ i hno]
      obtain ⟨n, hn, hg⟩ := hex
      rcases List.mem_cons.1 hn with rfl | hn'
      · rw [if_pos hg.symm]; exact hall n List.mem_cons_self hg
      · exact absurd hg (hno n hn')
end Fold

/-! ## A block placed at a corner -/

/-- The placement read at `(L, K)`, given where each update entry lands. -/
theorem place_of_lands {A B a b : ℕ} {si : Shape} {w : ℕ} {α : Type}
    (d : ScatterDims ⟨2, ![A, B]⟩ si ⟨2, ![a, b]⟩) (idx : IVec si w) (s0 s1 : ℕ) (hA : s0 + a ≤ A) (hB : s1 + b ≤ B)
    (land : (⟨2, ![a, b]⟩ : Shape).Idx → (⟨2, ![A, B]⟩ : Shape).Idx)
    (hland : ∀ j, (land j 0).val = s0 + (j 0).val ∧ (land j 1).val = s1 + (j 1).val)
    (hl : ∀ j, d.resultIdx? j idx = some (land j))
    (x : (⟨2, ![A, B]⟩ : Shape).Idx → α) (upd : (⟨2, ![a, b]⟩ : Shape).Idx → α) (L : Fin A) (K : Fin B) :
    Host.scatter d (fun _ b => b) x idx upd (ix2 L K)
      = if h : s0 ≤ L.val ∧ L.val < s0 + a ∧ s1 ≤ K.val ∧ K.val < s1 + b then
          upd (ix2 (⟨L.val - s0, by omega⟩ : Fin a) (⟨K.val - s1, by omega⟩ : Fin b))
        else x (ix2 L K) := by
  unfold Host.scatter
  simp only [hl]
  split
  · rename_i h
    refine fold_set_hit (fun n => land ((⟨2, ![a, b]⟩ : Shape).rowMajor.symm n)) (fun n => upd ((⟨2, ![a, b]⟩ : Shape).rowMajor.symm n)) _ x _ _
      ⟨(⟨2, ![a, b]⟩ : Shape).rowMajor (ix2 (⟨L.val - s0, by omega⟩ : Fin a) (⟨K.val - s1, by omega⟩ : Fin b)), List.mem_finRange _, ?_⟩ ?_
    · rw [Equiv.symm_apply_apply]
      funext ax; apply Fin.ext
      match ax with
      | ⟨0, _⟩ =>
        have e := (hland (ix2 (⟨L.val - s0, by omega⟩ : Fin a) (⟨K.val - s1, by omega⟩ : Fin b))).1
        show (land _ 0).val = L.val
        rw [e]; show s0 + (L.val - s0) = L.val; omega
      | ⟨1, _⟩ =>
        have e := (hland (ix2 (⟨L.val - s0, by omega⟩ : Fin a) (⟨K.val - s1, by omega⟩ : Fin b))).2
        show (land _ 1).val = K.val
        rw [e]; show s1 + (K.val - s1) = K.val; omega
    · intro n _ hn
      refine congrArg upd (funext fun ax => Fin.ext ?_)
      have e0 : (land ((⟨2, ![a, b]⟩ : Shape).rowMajor.symm n) 0).val = L.val := congrArg (fun i => (i 0).val) hn
      have e1 : (land ((⟨2, ![a, b]⟩ : Shape).rowMajor.symm n) 1).val = K.val := congrArg (fun i => (i 1).val) hn
      rw [(hland _).1] at e0; rw [(hland _).2] at e1
      match ax with
      | ⟨0, _⟩ => show (((⟨2, ![a, b]⟩ : Shape).rowMajor.symm n) 0).val = L.val - s0; omega
      | ⟨1, _⟩ => show (((⟨2, ![a, b]⟩ : Shape).rowMajor.symm n) 1).val = K.val - s1; omega
  · rename_i h
    refine fold_set_miss (fun n => land ((⟨2, ![a, b]⟩ : Shape).rowMajor.symm n)) (fun n => upd ((⟨2, ![a, b]⟩ : Shape).rowMajor.symm n)) _ x _ ?_
    intro n _ hn
    have e0 : (land ((⟨2, ![a, b]⟩ : Shape).rowMajor.symm n) 0).val = L.val := congrArg (fun i => (i 0).val) hn
    have e1 : (land ((⟨2, ![a, b]⟩ : Shape).rowMajor.symm n) 1).val = K.val := congrArg (fun i => (i 1).val) hn
    rw [(hland _).1] at e0; rw [(hland _).2] at e1
    have b0 : ((((⟨2, ![a, b]⟩ : Shape).rowMajor.symm n) 0).val) < a := (((⟨2, ![a, b]⟩ : Shape).rowMajor.symm n) 0).isLt
    have b1 : ((((⟨2, ![a, b]⟩ : Shape).rowMajor.symm n) 1).val) < b := (((⟨2, ![a, b]⟩ : Shape).rowMajor.symm n) 1).isLt
    exact h ⟨by omega, by omega, by omega, by omega⟩

/-! ## The two placements the host makes -/

theorem sq_siIdx (j : S448x448.Idx) (c : Fin scatter_S896x896_S2_S448x448_01_n_01_0.scatterDimsToOperandDims.length) :
    scatter_S896x896_S2_S448x448_01_n_01_0.siIdx j c = ix1 ⟨c.val, c.isLt⟩ :=
  funext fun b => by
    match b with
    | ⟨0, _⟩ => rfl
theorem sq_start0 (j : S448x448.Idx) (idx : IVec S2 32) : scatter_S896x896_S2_S448x448_01_n_01_0.start j idx 0 = (idx (ix1 0)).toInt := by
  unfold ScatterDims.start
  rw [dif_pos (by decide), sq_siIdx]
  rfl
theorem sq_start1 (j : S448x448.Idx) (idx : IVec S2 32) : scatter_S896x896_S2_S448x448_01_n_01_0.start j idx 1 = (idx (ix1 1)).toInt := by
  unfold ScatterDims.start
  rw [dif_pos (by decide), sq_siIdx]
  rfl
theorem sq_window0 (j : S448x448.Idx) : scatter_S896x896_S2_S448x448_01_n_01_0.window j 0 = (j 0).val := by
  unfold ScatterDims.window
  rw [dif_pos (by decide)]
  rfl
theorem sq_window1 (j : S448x448.Idx) : scatter_S896x896_S2_S448x448_01_n_01_0.window j 1 = (j 1).val := by
  unfold ScatterDims.window
  rw [dif_pos (by decide)]
  rfl

/-- Update entry `(j₀, j₁)` lands at `(s₀ + j₀, s₁ + j₁)` when the block fits. -/
theorem sq_lands (idx : IVec S2 32) (s0 s1 : ℕ) (h0 : (idx (ix1 0)).toInt = (s0 : ℤ)) (h1 : (idx (ix1 1)).toInt = (s1 : ℤ))
    (hA : s0 + 448 ≤ 896) (hB : s1 + 448 ≤ 896) (j : S448x448.Idx) :
    scatter_S896x896_S2_S448x448_01_n_01_0.resultIdx? j idx
      = some (ix2 (⟨s0 + (j 0).val, by have h : (j 0).val < 448 := (j 0).isLt; omega⟩ : Fin 896)
          (⟨s1 + (j 1).val, by have h : (j 1).val < 448 := (j 1).isLt; omega⟩ : Fin 896)) := by
  have hj0 : (j 0).val < 448 := (j 0).isLt
  have hj1 : (j 1).val < 448 := (j 1).isLt
  unfold ScatterDims.resultIdx?
  rw [dif_pos (fun ax => by
    match ax with
    | ⟨0, _⟩ =>
      show 0 ≤ scatter_S896x896_S2_S448x448_01_n_01_0.start j idx 0 + ((scatter_S896x896_S2_S448x448_01_n_01_0.window j 0 : ℕ) : ℤ) ∧ scatter_S896x896_S2_S448x448_01_n_01_0.start j idx 0 + ((scatter_S896x896_S2_S448x448_01_n_01_0.window j 0 : ℕ) : ℤ) < ((896 : ℕ) : ℤ)
      rw [sq_start0, sq_window0, h0]; constructor <;> omega
    | ⟨1, _⟩ =>
      show 0 ≤ scatter_S896x896_S2_S448x448_01_n_01_0.start j idx 1 + ((scatter_S896x896_S2_S448x448_01_n_01_0.window j 1 : ℕ) : ℤ) ∧ scatter_S896x896_S2_S448x448_01_n_01_0.start j idx 1 + ((scatter_S896x896_S2_S448x448_01_n_01_0.window j 1 : ℕ) : ℤ) < ((896 : ℕ) : ℤ)
      rw [sq_start1, sq_window1, h1]; constructor <;> omega)]
  refine congrArg some (funext fun ax => Fin.ext ?_)
  match ax with
  | ⟨0, _⟩ =>
    show (scatter_S896x896_S2_S448x448_01_n_01_0.start j idx 0 + ((scatter_S896x896_S2_S448x448_01_n_01_0.window j 0 : ℕ) : ℤ)).toNat = s0 + (j 0).val
    rw [sq_start0, sq_window0, h0]; omega
  | ⟨1, _⟩ =>
    show (scatter_S896x896_S2_S448x448_01_n_01_0.start j idx 1 + ((scatter_S896x896_S2_S448x448_01_n_01_0.window j 1 : ℕ) : ℤ)).toNat = s1 + (j 1).val
    rw [sq_start1, sq_window1, h1]; omega

theorem rc_siIdx (j : S448x256.Idx) (c : Fin scatter_S896x512_S2_S448x256_01_n_01_0.scatterDimsToOperandDims.length) :
    scatter_S896x512_S2_S448x256_01_n_01_0.siIdx j c = ix1 ⟨c.val, c.isLt⟩ :=
  funext fun b => by
    match b with
    | ⟨0, _⟩ => rfl
theorem rc_start0 (j : S448x256.Idx) (idx : IVec S2 32) : scatter_S896x512_S2_S448x256_01_n_01_0.start j idx 0 = (idx (ix1 0)).toInt := by
  unfold ScatterDims.start
  rw [dif_pos (by decide), rc_siIdx]
  rfl
theorem rc_start1 (j : S448x256.Idx) (idx : IVec S2 32) : scatter_S896x512_S2_S448x256_01_n_01_0.start j idx 1 = (idx (ix1 1)).toInt := by
  unfold ScatterDims.start
  rw [dif_pos (by decide), rc_siIdx]
  rfl
theorem rc_window0 (j : S448x256.Idx) : scatter_S896x512_S2_S448x256_01_n_01_0.window j 0 = (j 0).val := by
  unfold ScatterDims.window
  rw [dif_pos (by decide)]
  rfl
theorem rc_window1 (j : S448x256.Idx) : scatter_S896x512_S2_S448x256_01_n_01_0.window j 1 = (j 1).val := by
  unfold ScatterDims.window
  rw [dif_pos (by decide)]
  rfl

/-- Update entry `(j₀, j₁)` lands at `(s₀ + j₀, s₁ + j₁)` when the block fits. -/
theorem rc_lands (idx : IVec S2 32) (s0 s1 : ℕ) (h0 : (idx (ix1 0)).toInt = (s0 : ℤ)) (h1 : (idx (ix1 1)).toInt = (s1 : ℤ))
    (hA : s0 + 448 ≤ 896) (hB : s1 + 256 ≤ 512) (j : S448x256.Idx) :
    scatter_S896x512_S2_S448x256_01_n_01_0.resultIdx? j idx
      = some (ix2 (⟨s0 + (j 0).val, by have h : (j 0).val < 448 := (j 0).isLt; omega⟩ : Fin 896)
          (⟨s1 + (j 1).val, by have h : (j 1).val < 256 := (j 1).isLt; omega⟩ : Fin 512)) := by
  have hj0 : (j 0).val < 448 := (j 0).isLt
  have hj1 : (j 1).val < 256 := (j 1).isLt
  unfold ScatterDims.resultIdx?
  rw [dif_pos (fun ax => by
    match ax with
    | ⟨0, _⟩ =>
      show 0 ≤ scatter_S896x512_S2_S448x256_01_n_01_0.start j idx 0 + ((scatter_S896x512_S2_S448x256_01_n_01_0.window j 0 : ℕ) : ℤ) ∧ scatter_S896x512_S2_S448x256_01_n_01_0.start j idx 0 + ((scatter_S896x512_S2_S448x256_01_n_01_0.window j 0 : ℕ) : ℤ) < ((896 : ℕ) : ℤ)
      rw [rc_start0, rc_window0, h0]; constructor <;> omega
    | ⟨1, _⟩ =>
      show 0 ≤ scatter_S896x512_S2_S448x256_01_n_01_0.start j idx 1 + ((scatter_S896x512_S2_S448x256_01_n_01_0.window j 1 : ℕ) : ℤ) ∧ scatter_S896x512_S2_S448x256_01_n_01_0.start j idx 1 + ((scatter_S896x512_S2_S448x256_01_n_01_0.window j 1 : ℕ) : ℤ) < ((512 : ℕ) : ℤ)
      rw [rc_start1, rc_window1, h1]; constructor <;> omega)]
  refine congrArg some (funext fun ax => Fin.ext ?_)
  match ax with
  | ⟨0, _⟩ =>
    show (scatter_S896x512_S2_S448x256_01_n_01_0.start j idx 0 + ((scatter_S896x512_S2_S448x256_01_n_01_0.window j 0 : ℕ) : ℤ)).toNat = s0 + (j 0).val
    rw [rc_start0, rc_window0, h0]; omega
  | ⟨1, _⟩ =>
    show (scatter_S896x512_S2_S448x256_01_n_01_0.start j idx 1 + ((scatter_S896x512_S2_S448x256_01_n_01_0.window j 1 : ℕ) : ℤ)).toNat = s1 + (j 1).val
    rw [rc_start1, rc_window1, h1]; omega

/-- The corner an index pair names: its two words. -/
theorem corner_words (c0 c1 : BitVec 32) :
    let idx : IVec S2 32 := concatenate S2 0 [⟨S1, broadcastInDim S1 ![] bcast_S_S1 (constantI S_ 32 c0)⟩, ⟨S1, broadcastInDim S1 ![] bcast_S_S1 (constantI S_ 32 c1)⟩] concatenates_S1_S1_S2_d0
    idx (ix1 0) = c0 ∧ idx (ix1 1) = c1 := by
  intro idx
  constructor
  · exact concatenate_pair_apply_left (t := S2) (s₁ := S1) (s₂ := S1) (0 : Fin 1) _ _ concatenates_S1_S1_S2_d0 (ix1 (0 : Fin 2)) rfl (ix1 (0 : Fin 1))
      (fun b => by match b with | ⟨0, _⟩ => rfl)
  · exact concatenate_pair_apply_right (t := S2) (s₁ := S1) (s₂ := S1) (0 : Fin 1) _ _ concatenates_S1_S1_S2_d0 (ix1 (1 : Fin 2)) rfl rfl (ix1 (0 : Fin 1))
      (fun b hb => by match b with | ⟨0, _⟩ => exact absurd rfl hb) rfl

end Cert.KernelIdeal.BlockPlace

end
-- ==== Proof.SpecRef.lean ====
/-
  The same step in the spelling of the host program, and the algebra that joins the two spellings.

  The host program adds each gate's bias last and builds a gate input from two products (the coarse half of the
  columns sees two side inputs, the fine half three); the launched grid adds the bias into the gate input first and
  scales a third, zero coefficient on the coarse half. On the extended reals addition is associative and a product
  with zero vanishes whatever the other factor, so the two agree. The class heads are two separate affine layers on
  the two halves of the new row in the host program and one block-diagonal layer in the grid: a sum over 896 terms
  whose other-half factors are zero is the sum over the 448 that remain.
-/
import proofs.«107390_j85950885527647_2_alg».proof.Proof.Spec
import Idealize.ShloMosaic.PureOps.Ideal.Laws

noncomputable section

namespace Cert.GruRows

open Idealize.ShloMosaic

theorem zero32_eq : zero32 = 0 := Ideal.ofBits_zero_f32

/-! ## Gate inputs -/

/-- A gate input as the host program spells it, for the gate whose coefficient rows start at `o`: the coarse half
    of the columns from the two-column coefficient matrix, the fine half from the three-column one. -/
def sideIn (c0 c1 c2 : EReal) (W5 : Fin 1344 → Fin 2 → EReal) (W6 : Fin 1344 → Fin 3 → EReal) (o : ℕ) (ho : o + 448 ≤ 1344)
    (q : Fin 896) : EReal :=
  if h : q.val < 448 then c0 * W5 ⟨o + q.val, by omega⟩ 0 + c1 * W5 ⟨o + q.val, by omega⟩ 1
  else c0 * W6 ⟨o + (q.val - 448), by omega⟩ 0 + c1 * W6 ⟨o + (q.val - 448), by omega⟩ 1 + c2 * W6 ⟨o + (q.val - 448), by omega⟩ 2

/-- A row of the new hidden state as the host program spells it. -/
def gruRef (hr : Fin 896 → EReal) (c0 c1 c2 : EReal) (R : Fin 2688 → Fin 896 → EReal)
    (W5 : Fin 1344 → Fin 2 → EReal) (W6 : Fin 1344 → Fin 3 → EReal) (b0 b1 b2 : Fin 896 → EReal) (q : Fin 896) : EReal :=
  blend (hr q)
    ((∑ k : Fin 896, hr k * R (colU q) k) + sideIn c0 c1 c2 W5 W6 0 (by omega) q + b0 q)
    ((∑ k : Fin 896, hr k * R (colR q) k) + sideIn c0 c1 c2 W5 W6 448 (by omega) q + b1 q)
    (∑ k : Fin 896, hr k * R (colE q) k) (sideIn c0 c1 c2 W5 W6 896 (by omega) q + b2 q)

/-- The coefficient a prepared row carries at a gate's column: the coarse matrix's entry on the coarse half, the fine
    matrix's on the fine half. -/
def coefAt (A : Fin 1344 → EReal) (B : Fin 1344 → EReal) (o : ℕ) (ho : o + 448 ≤ 1344) (q : Fin 896) : EReal :=
  if h : q.val < 448 then A ⟨o + q.val, by omega⟩ else B ⟨o + (q.val - 448), by omega⟩

/-- One gate input of the grid is the host's gate input plus the bias. -/
theorem gateIn_eq (c0 c1 c2 : EReal) (W5 : Fin 1344 → Fin 2 → EReal) (W6 : Fin 1344 → Fin 3 → EReal) (o : ℕ) (ho : o + 448 ≤ 1344)
    (WC WF WV BS : Fin 2688 → EReal) (n : Fin 2688) (q : Fin 896) (b : EReal)
    (hC : WC n = coefAt (fun j => W5 j 0) (fun j => W6 j 0) o ho q)
    (hF : WF n = coefAt (fun j => W5 j 1) (fun j => W6 j 1) o ho q)
    (hV : WV n = coefAt (fun _ => zero32) (fun j => W6 j 2) o ho q)
    (hB : BS n = b) :
    gateIn c0 c1 c2 WC WF WV BS n = sideIn c0 c1 c2 W5 W6 o ho q + b := by
  unfold gateIn sideIn
  rw [hC, hF, hV, hB]
  unfold coefAt
  by_cases h : q.val < 448
  · simp only [dif_pos h, zero32_eq, mul_zero, add_zero]
  · simp only [dif_neg h]

/-- THE HIDDEN ROW: the grid's spelling over prepared coefficient rows is the host's spelling. -/
theorem gruRow_eq_ref (hr : Fin 896 → EReal) (c0 c1 c2 : EReal) (R : Fin 2688 → Fin 896 → EReal)
    (W5 : Fin 1344 → Fin 2 → EReal) (W6 : Fin 1344 → Fin 3 → EReal) (b0 b1 b2 : Fin 896 → EReal)
    (WC WF WV BS : Fin 2688 → EReal) (q : Fin 896)
    (hCU : WC (colU q) = coefAt (fun j => W5 j 0) (fun j => W6 j 0) 0 (by omega) q)
    (hFU : WF (colU q) = coefAt (fun j => W5 j 1) (fun j => W6 j 1) 0 (by omega) q)
    (hVU : WV (colU q) = coefAt (fun _ => zero32) (fun j => W6 j 2) 0 (by omega) q)
    (hBU : BS (colU q) = b0 q)
    (hCR : WC (colR q) = coefAt (fun j => W5 j 0) (fun j => W6 j 0) 448 (by omega) q)
    (hFR : WF (colR q) = coefAt (fun j => W5 j 1) (fun j => W6 j 1) 448 (by omega) q)
    (hVR : WV (colR q) = coefAt (fun _ => zero32) (fun j => W6 j 2) 448 (by omega) q)
    (hBR : BS (colR q) = b1 q)
    (hCE : WC (colE q) = coefAt (fun j => W5 j 0) (fun j => W6 j 0) 896 (by omega) q)
    (hFE : WF (colE q) = coefAt (fun j => W5 j 1) (fun j => W6 j 1) 896 (by omega) q)
    (hVE : WV (colE q) = coefAt (fun _ => zero32) (fun j => W6 j 2) 896 (by omega) q)
    (hBE : BS (colE q) = b2 q) :
    gruRow hr c0 c1 c2 (fun k n => R n k) WC WF WV BS q = gruRef hr c0 c1 c2 R W5 W6 b0 b1 b2 q := by
  unfold gruRow gruRef proj
  rw [gateIn_eq c0 c1 c2 W5 W6 0 (by omega) WC WF WV BS (colU q) q (b0 q) hCU hFU hVU hBU,
    gateIn_eq c0 c1 c2 W5 W6 448 (by omega) WC WF WV BS (colR q) q (b1 q) hCR hFR hVR hBR,
    gateIn_eq c0 c1 c2 W5 W6 896 (by omega) WC WF WV BS (colE q) q (b2 q) hCE hFE hVE hBE]
  simp only [add_assoc]

/-! ## Block-diagonal layers -/

/-- Two blocks on the diagonal of an otherwise zero matrix. -/
def bdiag {b : ℕ} (W1 W2 : Fin 448 → Fin b → EReal) (l : Fin 896) (k : Fin (b + b)) : EReal :=
  if h : 448 ≤ l.val ∧ b ≤ k.val then W2 ⟨l.val - 448, by omega⟩ ⟨k.val - b, by omega⟩
  else if h' : l.val < 448 ∧ k.val < b then W1 ⟨l.val, h'.1⟩ ⟨k.val, h'.2⟩
  else zero32

/-- Against a left-block column only the first half of the row counts. -/
theorem sum_bdiag_left {b : ℕ} (W1 W2 : Fin 448 → Fin b → EReal) (hn : Fin 896 → EReal) (k : Fin (b + b)) (hk : k.val < b) :
    ∑ l : Fin 896, hn l * bdiag W1 W2 l k = ∑ l : Fin 448, hn ⟨l.val, by omega⟩ * W1 l ⟨k.val, hk⟩ := by
  rw [show (∑ l : Fin 896, hn l * bdiag W1 W2 l k) = ∑ l : Fin (448 + 448), hn l * bdiag W1 W2 l k from rfl, Fin.sum_univ_add]
  have h2 : ∑ l : Fin 448, hn (Fin.natAdd 448 l) * bdiag W1 W2 (Fin.natAdd 448 l) k = 0 :=
    Finset.sum_eq_zero fun l _ => by
      have : bdiag W1 W2 (Fin.natAdd 448 l) k = zero32 := by
        unfold bdiag
        rw [dif_neg (by intro h; omega), dif_neg (by intro h; have := h.1; simp only [Fin.natAdd] at this; omega)]
      rw [this, zero32_eq, mul_zero]
  rw [h2, add_zero]
  refine Finset.sum_congr rfl fun l _ => ?_
  have : bdiag W1 W2 (Fin.castAdd 448 l) k = W1 l ⟨k.val, hk⟩ := by
    unfold bdiag
    rw [dif_neg (by intro h; omega), dif_pos ⟨l.isLt, hk⟩]
    rfl
  rw [this]
  rfl

/-- Against a right-block column only the second half of the row counts. -/
theorem sum_bdiag_right {b : ℕ} (W1 W2 : Fin 448 → Fin b → EReal) (hn : Fin 896 → EReal) (k : Fin (b + b)) (hk : b ≤ k.val) :
    ∑ l : Fin 896, hn l * bdiag W1 W2 l k = ∑ l : Fin 448, hn ⟨448 + l.val, by omega⟩ * W2 l ⟨k.val - b, by omega⟩ := by
  rw [show (∑ l : Fin 896, hn l * bdiag W1 W2 l k) = ∑ l : Fin (448 + 448), hn l * bdiag W1 W2 l k from rfl, Fin.sum_univ_add]
  have h1 : ∑ l : Fin 448, hn (Fin.castAdd 448 l) * bdiag W1 W2 (Fin.castAdd 448 l) k = 0 :=
    Finset.sum_eq_zero fun l _ => by
      have : bdiag W1 W2 (Fin.castAdd 448 l) k = zero32 := by
        unfold bdiag
        rw [dif_neg (by intro h; have := h.1; have := l.isLt; simp only [Fin.castAdd, Fin.castLE] at *; omega),
          dif_neg (by intro h; omega)]
      rw [this, zero32_eq, mul_zero]
  rw [h1, zero_add]
  refine Finset.sum_congr rfl fun l _ => ?_
  have : bdiag W1 W2 (Fin.natAdd 448 l) k = W2 l ⟨k.val - b, by omega⟩ := by
    unfold bdiag
    rw [dif_pos ⟨by simp only [Fin.natAdd]; omega, hk⟩]
    congr 1
    exact Fin.ext (by simp only [Fin.natAdd]; omega)
  rw [this]
  rfl

/-! ## Class heads -/

/-- One class head as the host program spells it: a rectified affine layer on one half of the row, then an affine map. -/
def headRef (hh : Fin 448 → EReal) (W1 : Fin 448 → Fin 448 → EReal) (B1 : Fin 448 → EReal) (W2 : Fin 448 → Fin 256 → EReal)
    (B2 : Fin 256 → EReal) (n : Fin 256) : EReal :=
  ∑ k : Fin 448, max (∑ l : Fin 448, hh l * W1 l k + B1 k) zero32 * W2 k n + B2 n

/-- The coarse head: left columns of the fused layers see the left half of the row. -/
theorem clsRow_left (hn : Fin 896 → EReal) (O1 O2 : Fin 448 → Fin 448 → EReal) (OB : Fin 896 → EReal)
    (O3 O4 : Fin 448 → Fin 256 → EReal) (PB : Fin 512 → EReal) (n : Fin 256) :
    clsRow hn (bdiag O1 O2) OB (bdiag O3 O4) PB ⟨n.val, by omega⟩
      = headRef (fun l => hn ⟨l.val, by omega⟩) O1 (fun k => OB ⟨k.val, by omega⟩) O3 (fun n => PB ⟨n.val, by omega⟩) n := by
  unfold clsRow headRef
  refine congrArg (· + PB ⟨n.val, by omega⟩) ?_
  rw [show (∑ k : Fin 896, hidRow hn (bdiag O1 O2) OB k * bdiag O3 O4 k (⟨n.val, by omega⟩ : Fin (256 + 256)))
      = ∑ k : Fin 448, hidRow hn (bdiag O1 O2) OB ⟨k.val, by omega⟩ * O3 k ⟨n.val, n.isLt⟩ from
    sum_bdiag_left O3 O4 (hidRow hn (bdiag O1 O2) OB) ⟨n.val, by omega⟩ n.isLt]
  refine Finset.sum_congr rfl fun k _ => ?_
  refine congrArg (· * O3 k n) ?_
  unfold hidRow
  rw [show (∑ l : Fin 896, hn l * bdiag O1 O2 l (⟨k.val, by omega⟩ : Fin (448 + 448)))
      = ∑ l : Fin 448, hn ⟨l.val, by omega⟩ * O1 l ⟨k.val, k.isLt⟩ from sum_bdiag_left O1 O2 hn ⟨k.val, by omega⟩ k.isLt]

/-- The fine head: right columns of the fused layers see the right half of the row. -/
theorem clsRow_right (hn : Fin 896 → EReal) (O1 O2 : Fin 448 → Fin 448 → EReal) (OB : Fin 896 → EReal)
    (O3 O4 : Fin 448 → Fin 256 → EReal) (PB : Fin 512 → EReal) (n : Fin 256) :
    clsRow hn (bdiag O1 O2) OB (bdiag O3 O4) PB ⟨256 + n.val, by omega⟩
      = headRef (fun l => hn ⟨448 + l.val, by omega⟩) O2 (fun k => OB ⟨448 + k.val, by omega⟩) O4 (fun n => PB ⟨256 + n.val, by omega⟩) n := by
  unfold clsRow headRef
  refine congrArg (· + PB ⟨256 + n.val, by omega⟩) ?_
  rw [show (∑ k : Fin 896, hidRow hn (bdiag O1 O2) OB k * bdiag O3 O4 k (⟨256 + n.val, by omega⟩ : Fin (256 + 256)))
      = ∑ k : Fin 448, hidRow hn (bdiag O1 O2) OB ⟨448 + k.val, by omega⟩ * O4 k ⟨256 + n.val - 256, by omega⟩ from
    sum_bdiag_right O3 O4 (hidRow hn (bdiag O1 O2) OB) ⟨256 + n.val, by omega⟩ (by show 256 ≤ 256 + n.val; omega)]
  refine Finset.sum_congr rfl fun k _ => ?_
  have e1 : (⟨256 + n.val - 256, by omega⟩ : Fin 256) = n := Fin.ext (by show 256 + n.val - 256 = n.val; omega)
  rw [e1]
  refine congrArg (· * O4 k n) ?_
  unfold hidRow
  rw [show (∑ l : Fin 896, hn l * bdiag O1 O2 l (⟨448 + k.val, by omega⟩ : Fin (448 + 448)))
      = ∑ l : Fin 448, hn ⟨448 + l.val, by omega⟩ * O2 l ⟨448 + k.val - 448, by omega⟩ from
    sum_bdiag_right O1 O2 hn ⟨448 + k.val, by omega⟩ (by show 448 ≤ 448 + k.val; omega)]
  have e2 : (⟨448 + k.val - 448, by omega⟩ : Fin 448) = k := Fin.ext (by show 448 + k.val - 448 = k.val; omega)
  rw [e2]

end Cert.GruRows

end
-- ==== Proof.PreparedRead.lean ====
/-
  The prepared weights read entry by entry, in terms of the argument arrays. The recurrent weight is the transpose of
  the argument; each gate coefficient row is laid out gate by gate, coarse half then fine half, from one column of a
  coefficient matrix (the third side input has no coarse coefficient, so its coarse half is zero); each fused class
  weight is zero outside two transposed blocks on its diagonal; each fused bias is one bias after the other.
-/
import proofs.«107390_j85950885527647_2_alg».proof.Proof.PreparedTerms
import proofs.«107390_j85950885527647_2_alg».proof.Proof.TileRows
import proofs.«107390_j85950885527647_2_alg».proof.Proof.BlockPlace
import proofs.«107390_j85950885527647_2_alg».proof.Proof.SpecRef
import Idealize.ShloMosaic.Lib.ValueLayout

set_option maxRecDepth 16384

noncomputable section

namespace Cert.KernelIdeal.Prepared

open Idealize.ShloMosaic Idealize.ShloMosaic.TcCoe Idealize.SL.Sem Idealize.ShloMosaic.ValueIdx
open Cert.KernelIdeal Cert.KernelIdeal.Gen Cert.KernelIdeal.Launched Cert.KernelIdeal.Rows Cert.KernelIdeal.BlockPlace Cert.GruRows

/-! ## Joins, cuts and columns -/

section Ops
variable {α : Type}

theorem join3_U (u v w : S896.Idx → α) (q : Fin 896) :
    shapeCast S1x2688 (concatenate S2688 0 [⟨S896, u⟩, ⟨S896, v⟩, ⟨S896, w⟩] concatenates_S896_S896_S896_S2688_d0) shapeCasts_S2688_S1x2688 (ix2 0 (colU q)) = u (ix1 q) := by
  rw [shapeCast_a_1a_apply]
  refine concatenate_apply_piece _ _ _ (ix1 (colU q)) 0 ?_ S896 u rfl rfl 0 rfl (ix1 q) ?_ ?_
  · show (0 : ℕ) < 3; decide
  · intro b hb; match b with | ⟨0, _⟩ => exact absurd rfl hb
  · exact Nat.zero_add _
theorem join3_R (u v w : S896.Idx → α) (q : Fin 896) :
    shapeCast S1x2688 (concatenate S2688 0 [⟨S896, u⟩, ⟨S896, v⟩, ⟨S896, w⟩] concatenates_S896_S896_S896_S2688_d0) shapeCasts_S2688_S1x2688 (ix2 0 (colR q)) = v (ix1 q) := by
  rw [shapeCast_a_1a_apply]
  refine concatenate_apply_piece _ _ _ (ix1 (colR q)) 1 ?_ S896 v rfl rfl 896 rfl (ix1 q) ?_ ?_
  · show (1 : ℕ) < 3; decide
  · intro b hb; match b with | ⟨0, _⟩ => exact absurd rfl hb
  · rfl
theorem join3_E (u v w : S896.Idx → α) (q : Fin 896) :
    shapeCast S1x2688 (concatenate S2688 0 [⟨S896, u⟩, ⟨S896, v⟩, ⟨S896, w⟩] concatenates_S896_S896_S896_S2688_d0) shapeCasts_S2688_S1x2688 (ix2 0 (colE q)) = w (ix1 q) := by
  rw [shapeCast_a_1a_apply]
  refine concatenate_apply_piece _ _ _ (ix1 (colE q)) 2 ?_ S896 w rfl rfl 1792 rfl (ix1 q) ?_ ?_
  · show (2 : ℕ) < 3; decide
  · intro b hb; match b with | ⟨0, _⟩ => exact absurd rfl hb
  · rfl

theorem halves_lo (a b : S448.Idx → α) (q : Fin 896) (h : q.val < 448) :
    concatenate S896 0 [⟨S448, a⟩, ⟨S448, b⟩] concatenates_S448_S448_S896_d0 (ix1 q) = a (ix1 ⟨q.val, h⟩) := by
  refine concatenate_apply_piece _ _ _ (ix1 q) 0 ?_ S448 a rfl rfl 0 rfl (ix1 ⟨q.val, h⟩) ?_ ?_
  · show (0 : ℕ) < 2; decide
  · intro b hb; match b with | ⟨0, _⟩ => exact absurd rfl hb
  · exact Nat.zero_add _
theorem halves_hi (a b : S448.Idx → α) (q : Fin 896) (h : ¬ q.val < 448) :
    concatenate S896 0 [⟨S448, a⟩, ⟨S448, b⟩] concatenates_S448_S448_S896_d0 (ix1 q) = b (ix1 ⟨q.val - 448, by omega⟩) := by
  refine concatenate_apply_piece _ _ _ (ix1 q) 1 ?_ S448 b rfl rfl 448 rfl (ix1 ⟨q.val - 448, by omega⟩) ?_ ?_
  · show (1 : ℕ) < 2; decide
  · intro b hb; match b with | ⟨0, _⟩ => exact absurd rfl hb
  · show 448 + (q.val - 448) = q.val; omega
theorem halves256_lo (a b : S256.Idx → α) (q : Fin 512) (h : q.val < 256) :
    concatenate S512 0 [⟨S256, a⟩, ⟨S256, b⟩] concatenates_S256_S256_S512_d0 (ix1 q) = a (ix1 ⟨q.val, h⟩) := by
  refine concatenate_apply_piece _ _ _ (ix1 q) 0 ?_ S256 a rfl rfl 0 rfl (ix1 ⟨q.val, h⟩) ?_ ?_
  · show (0 : ℕ) < 2; decide
  · intro b hb; match b with | ⟨0, _⟩ => exact absurd rfl hb
  · exact Nat.zero_add _
theorem halves256_hi (a b : S256.Idx → α) (q : Fin 512) (h : ¬ q.val < 256) :
    concatenate S512 0 [⟨S256, a⟩, ⟨S256, b⟩] concatenates_S256_S256_S512_d0 (ix1 q) = b (ix1 ⟨q.val - 256, by omega⟩) := by
  refine concatenate_apply_piece _ _ _ (ix1 q) 1 ?_ S256 b rfl rfl 256 rfl (ix1 ⟨q.val - 256, by omega⟩) ?_ ?_
  · show (1 : ℕ) < 2; decide
  · intro b hb; match b with | ⟨0, _⟩ => exact absurd rfl hb
  · show 256 + (q.val - 256) = q.val; omega

theorem cut_at (v : S1344.Idx → α) (o : ℕ) (hs : S1344.Slices ![o] S448) (j : Fin 448) (J : Fin 1344) (hJ : J.val = o + j.val) :
    extractStridedSlice S448 ![o] v hs (ix1 j) = v (ix1 J) :=
  extractStridedSlice_apply _ v hs _ _ fun d => match d with | ⟨0, _⟩ => hJ

/-- Column `r` of a two-column coefficient matrix, as the host extracts it. -/
theorem col2_at (x5 : S1344x2.Idx → α) (r : ℕ) (hs : S2x1344.Slices ![r, 0] S1x1344) (n : Fin 1344) (R : Fin 2) (hR : R.val = r) :
    shapeCast S1344 (extractStridedSlice S1x1344 ![r, 0] (transpose S2x1344 [1, 0] x5 transposes_S1344x2_S2x1344_1_0) hs) shapeCasts_S1x1344_S1344 (ix1 n) = x5 (ix2 n R) := by
  rw [shapeCast_1a_a_apply, slice_at _ hs (0 : Fin 1) n R n (by rw [hR]; rfl) (Nat.zero_add _).symm, transpose_ix2_apply]
/-- Column `r` of a three-column coefficient matrix. -/
theorem col3_at (x6 : S1344x3.Idx → α) (r : ℕ) (hs : S3x1344.Slices ![r, 0] S1x1344) (n : Fin 1344) (R : Fin 3) (hR : R.val = r) :
    shapeCast S1344 (extractStridedSlice S1x1344 ![r, 0] (transpose S3x1344 [1, 0] x6 transposes_S1344x3_S3x1344_1_0) hs) shapeCasts_S1x1344_S1344 (ix1 n) = x6 (ix2 n R) := by
  rw [shapeCast_1a_a_apply, slice_at _ hs (0 : Fin 1) n R n (by rw [hR]; rfl) (Nat.zero_add _).symm, transpose_ix2_apply]

end Ops

/-! ## Block placements -/

theorem sq_place {α : Type} (x : S896x896.Idx → α) (idx : IVec S2 32) (upd : S448x448.Idx → α) (s0 s1 : ℕ)
    (h0 : (idx (ix1 0)).toInt = (s0 : ℤ)) (h1 : (idx (ix1 1)).toInt = (s1 : ℤ)) (hA : s0 + 448 ≤ 896) (hB : s1 + 448 ≤ 896)
    (L K : Fin 896) :
    Host.scatter scatter_S896x896_S2_S448x448_01_n_01_0 (fun _ b => b) x idx upd (ix2 L K)
      = if h : s0 ≤ L.val ∧ L.val < s0 + 448 ∧ s1 ≤ K.val ∧ K.val < s1 + 448 then
          upd (ix2 (⟨L.val - s0, by omega⟩ : Fin 448) (⟨K.val - s1, by omega⟩ : Fin 448))
        else x (ix2 L K) :=
  place_of_lands scatter_S896x896_S2_S448x448_01_n_01_0 idx s0 s1 hA hB _ (fun j => ⟨rfl, rfl⟩) (sq_lands idx s0 s1 h0 h1 hA hB) x upd L K

theorem rc_place {α : Type} (x : S896x512.Idx → α) (idx : IVec S2 32) (upd : S448x256.Idx → α) (s0 s1 : ℕ)
    (h0 : (idx (ix1 0)).toInt = (s0 : ℤ)) (h1 : (idx (ix1 1)).toInt = (s1 : ℤ)) (hA : s0 + 448 ≤ 896) (hB : s1 + 256 ≤ 512)
    (L : Fin 896) (K : Fin 512) :
    Host.scatter scatter_S896x512_S2_S448x256_01_n_01_0 (fun _ b => b) x idx upd (ix2 L K)
      = if h : s0 ≤ L.val ∧ L.val < s0 + 448 ∧ s1 ≤ K.val ∧ K.val < s1 + 256 then
          upd (ix2 (⟨L.val - s0, by omega⟩ : Fin 448) (⟨K.val - s1, by omega⟩ : Fin 256))
        else x (ix2 L K) :=
  place_of_lands scatter_S896x512_S2_S448x256_01_n_01_0 idx s0 s1 hA hB _ (fun j => ⟨rfl, rfl⟩) (rc_lands idx s0 s1 h0 h1 hA hB) x upd L K

variable (m : (ℓ : Loc nD τ sig) → Buf (Elt Ideal) ℓ)

/-! ## The packed side inputs and the recurrent weight -/

theorem side_0 (c : Dev nD) (r : Fin 16384) : V m c main_v75 (ix2 r (0 : Fin 3)) = (m ((c : Thread nD τ).loc main_arg1)) (ix2 r (0 : Fin 1)) := by
  rw [V_main_v75]
  refine concatenate_apply_piece _ _ _ (ix2 r (0 : Fin 3)) 0 ?_ S16384x1 (m ((c : Thread nD τ).loc main_arg1)) rfl rfl 0 rfl (ix2 r (0 : Fin 1)) ?_ ?_
  · show (0 : ℕ) < 3; decide
  · intro b hb; match b with | ⟨0, _⟩ => rfl | ⟨1, _⟩ => exact absurd rfl hb
  · rfl
theorem side_1 (c : Dev nD) (r : Fin 16384) : V m c main_v75 (ix2 r (1 : Fin 3)) = (m ((c : Thread nD τ).loc main_arg2)) (ix2 r (0 : Fin 1)) := by
  rw [V_main_v75]
  refine concatenate_apply_piece _ _ _ (ix2 r (1 : Fin 3)) 1 ?_ S16384x1 (m ((c : Thread nD τ).loc main_arg2)) rfl rfl 1 rfl (ix2 r (0 : Fin 1)) ?_ ?_
  · show (1 : ℕ) < 3; decide
  · intro b hb; match b with | ⟨0, _⟩ => rfl | ⟨1, _⟩ => exact absurd rfl hb
  · rfl
theorem side_2 (c : Dev nD) (r : Fin 16384) : V m c main_v75 (ix2 r (2 : Fin 3)) = (m ((c : Thread nD τ).loc main_arg3)) (ix2 r (0 : Fin 1)) := by
  rw [V_main_v75]
  refine concatenate_apply_piece _ _ _ (ix2 r (2 : Fin 3)) 2 ?_ S16384x1 (m ((c : Thread nD τ).loc main_arg3)) rfl rfl 2 rfl (ix2 r (0 : Fin 1)) ?_ ?_
  · show (2 : ℕ) < 3; decide
  · intro b hb; match b with | ⟨0, _⟩ => rfl | ⟨1, _⟩ => exact absurd rfl hb
  · rfl

theorem recurrent_at (c : Dev nD) (k : Fin 896) (n : Fin 2688) : V m c main_v1 (ix2 k n) = (m ((c : Thread nD τ).loc main_arg4)) (ix2 n k) := by
  rw [V_main_v1]
  exact transpose_ix2_apply _ _ k n

/-! ## The gate coefficient rows and the bias row -/

theorem coefC_U (c : Dev nD) (q : Fin 896) :
    V m c main_v25 (ix2 0 (colU q)) = coefAt (fun j => (m ((c : Thread nD τ).loc main_arg5)) (ix2 j 0)) (fun j => (m ((c : Thread nD τ).loc main_arg6)) (ix2 j 0)) 0 (by omega) q := by
  rw [V_main_v25, join3_U]
  unfold coefAt
  by_cases h : q.val < 448
  · rw [dif_pos h, halves_lo _ _ q h, cut_at _ 0 _ ⟨q.val, h⟩ ⟨0 + q.val, by omega⟩ rfl, col2_at _ 0 _ _ 0 rfl]
  · rw [dif_neg h, halves_hi _ _ q h, cut_at _ 0 _ ⟨q.val - 448, by omega⟩ ⟨0 + (q.val - 448), by omega⟩ rfl, col3_at _ 0 _ _ 0 rfl]
theorem coefF_U (c : Dev nD) (q : Fin 896) :
    V m c main_v36 (ix2 0 (colU q)) = coefAt (fun j => (m ((c : Thread nD τ).loc main_arg5)) (ix2 j 1)) (fun j => (m ((c : Thread nD τ).loc main_arg6)) (ix2 j 1)) 0 (by omega) q := by
  rw [V_main_v36, join3_U]
  unfold coefAt
  by_cases h : q.val < 448
  · rw [dif_pos h, halves_lo _ _ q h, cut_at _ 0 _ ⟨q.val, h⟩ ⟨0 + q.val, by omega⟩ rfl, col2_at _ 1 _ _ 1 rfl]
  · rw [dif_neg h, halves_hi _ _ q h, cut_at _ 0 _ ⟨q.val - 448, by omega⟩ ⟨0 + (q.val - 448), by omega⟩ rfl, col3_at _ 1 _ _ 1 rfl]
theorem coefV_U (c : Dev nD) (q : Fin 896) :
    V m c main_v44 (ix2 0 (colU q)) = coefAt (fun _ => zero32) (fun j => (m ((c : Thread nD τ).loc main_arg6)) (ix2 j 2)) 0 (by omega) q := by
  rw [V_main_v44, join3_U]
  unfold coefAt
  by_cases h : q.val < 448
  · rw [dif_pos h, halves_lo _ _ q h]
    rfl
  · rw [dif_neg h, halves_hi _ _ q h, cut_at _ 0 _ ⟨q.val - 448, by omega⟩ ⟨0 + (q.val - 448), by omega⟩ rfl, col3_at _ 2 _ _ 2 rfl]
theorem bias_U (c : Dev nD) (q : Fin 896) : V m c main_v46 (ix2 0 (colU q)) = (m ((c : Thread nD τ).loc main_arg15)) (ix1 q) := by
  rw [V_main_v46, join3_U]
theorem coefC_R (c : Dev nD) (q : Fin 896) :
    V m c main_v25 (ix2 0 (colR q)) = coefAt (fun j => (m ((c : Thread nD τ).loc main_arg5)) (ix2 j 0)) (fun j => (m ((c : Thread nD τ).loc main_arg6)) (ix2 j 0)) 448 (by omega) q := by
  rw [V_main_v25, join3_R]
  unfold coefAt
  by_cases h : q.val < 448
  · rw [dif_pos h, halves_lo _ _ q h, cut_at _ 448 _ ⟨q.val, h⟩ ⟨448 + q.val, by omega⟩ rfl, col2_at _ 0 _ _ 0 rfl]
  · rw [dif_neg h, halves_hi _ _ q h, cut_at _ 448 _ ⟨q.val - 448, by omega⟩ ⟨448 + (q.val - 448), by omega⟩ rfl, col3_at _ 0 _ _ 0 rfl]
theorem coefF_R (c : Dev nD) (q : Fin 896) :
    V m c main_v36 (ix2 0 (colR q)) = coefAt (fun j => (m ((c : Thread nD τ).loc main_arg5)) (ix2 j 1)) (fun j => (m ((c : Thread nD τ).loc main_arg6)) (ix2 j 1)) 448 (by omega) q := by
  rw [V_main_v36, join3_R]
  unfold coefAt
  by_cases h : q.val < 448
  · rw [dif_pos h, halves_lo _ _ q h, cut_at _ 448 _ ⟨q.val, h⟩ ⟨448 + q.val, by omega⟩ rfl, col2_at _ 1 _ _ 1 rfl]
  · rw [dif_neg h, halves_hi _ _ q h, cut_at _ 448 _ ⟨q.val - 448, by omega⟩ ⟨448 + (q.val - 448), by omega⟩ rfl, col3_at _ 1 _ _ 1 rfl]
theorem coefV_R (c : Dev nD) (q : Fin 896) :
    V m c main_v44 (ix2 0 (colR q)) = coefAt (fun _ => zero32) (fun j => (m ((c : Thread nD τ).loc main_arg6)) (ix2 j 2)) 448 (by omega) q := by
  rw [V_main_v44, join3_R]
  unfold coefAt
  by_cases h : q.val < 448
  · rw [dif_pos h, halves_lo _ _ q h]
    rfl
  · rw [dif_neg h, halves_hi _ _ q h, cut_at _ 448 _ ⟨q.val - 448, by omega⟩ ⟨448 + (q.val - 448), by omega⟩ rfl, col3_at _ 2 _ _ 2 rfl]
theorem bias_R (c : Dev nD) (q : Fin 896) : V m c main_v46 (ix2 0 (colR q)) = (m ((c : Thread nD τ).loc main_arg16)) (ix1 q) := by
  rw [V_main_v46, join3_R]
theorem coefC_E (c : Dev nD) (q : Fin 896) :
    V m c main_v25 (ix2 0 (colE q)) = coefAt (fun j => (m ((c : Thread nD τ).loc main_arg5)) (ix2 j 0)) (fun j => (m ((c : Thread nD τ).loc main_arg6)) (ix2 j 0)) 896 (by omega) q := by
  rw [V_main_v25, join3_E]
  unfold coefAt
  by_cases h : q.val < 448
  · rw [dif_pos h, halves_lo _ _ q h, cut_at _ 896 _ ⟨q.val, h⟩ ⟨896 + q.val, by omega⟩ rfl, col2_at _ 0 _ _ 0 rfl]
  · rw [dif_neg h, halves_hi _ _ q h, cut_at _ 896 _ ⟨q.val - 448, by omega⟩ ⟨896 + (q.val - 448), by omega⟩ rfl, col3_at _ 0 _ _ 0 rfl]
theorem coefF_E (c : Dev nD) (q : Fin 896) :
    V m c main_v36 (ix2 0 (colE q)) = coefAt (fun j => (m ((c : Thread nD τ).loc main_arg5)) (ix2 j 1)) (fun j => (m ((c : Thread nD τ).loc main_arg6)) (ix2 j 1)) 896 (by omega) q := by
  rw [V_main_v36, join3_E]
  unfold coefAt
  by_cases h : q.val < 448
  · rw [dif_pos h, halves_lo _ _ q h, cut_at _ 896 _ ⟨q.val, h⟩ ⟨896 + q.val, by omega⟩ rfl, col2_at _ 1 _ _ 1 rfl]
  · rw [dif_neg h, halves_hi _ _ q h, cut_at _ 896 _ ⟨q.val - 448, by omega⟩ ⟨896 + (q.val - 448), by omega⟩ rfl, col3_at _ 1 _ _ 1 rfl]
theorem coefV_E (c : Dev nD) (q : Fin 896) :
    V m c main_v44 (ix2 0 (colE q)) = coefAt (fun _ => zero32) (fun j => (m ((c : Thread nD τ).loc main_arg6)) (ix2 j 2)) 896 (by omega) q := by
  rw [V_main_v44, join3_E]
  unfold coefAt
  by_cases h : q.val < 448
  · rw [dif_pos h, halves_lo _ _ q h]
    rfl
  · rw [dif_neg h, halves_hi _ _ q h, cut_at _ 896 _ ⟨q.val - 448, by omega⟩ ⟨896 + (q.val - 448), by omega⟩ rfl, col3_at _ 2 _ _ 2 rfl]
theorem bias_E (c : Dev nD) (q : Fin 896) : V m c main_v46 (ix2 0 (colE q)) = (m ((c : Thread nD τ).loc main_arg17)) (ix1 q) := by
  rw [V_main_v46, join3_E]

/-! ## The fused class weights and biases -/

theorem word_0 : ((0#32 : BitVec 32)).toInt = ((0 : ℕ) : ℤ) := by decide
theorem word_448 : ((448#32 : BitVec 32)).toInt = ((448 : ℕ) : ℤ) := by decide
theorem word_256 : ((256#32 : BitVec 32)).toInt = ((256 : ℕ) : ℤ) := by decide

/-- The first fused class weight: the two square weights, transposed, on the diagonal. -/
theorem fused1_at (c : Dev nD) (l k : Fin 896) :
    V m c main_v58 (ix2 l k) = bdiag (b := 448) (fun l k => (m ((c : Thread nD τ).loc main_arg7)) (ix2 k l)) (fun l k => (m ((c : Thread nD τ).loc main_arg9)) (ix2 k l)) l k := by
  rw [V_main_v58, truncf_apply]
  rw [sq_place _ _ _ 448 448 (by rw [(corner_words 448#32 448#32).1]; exact word_448) (by rw [(corner_words 448#32 448#32).2]; exact word_448) (by omega) (by omega),
    sq_place _ _ _ 0 0 (by rw [(corner_words 0#32 0#32).1]; exact word_0) (by rw [(corner_words 0#32 0#32).2]; exact word_0) (by omega) (by omega)]
  unfold bdiag
  have hl := l.isLt
  have hk := k.isLt
  by_cases h1 : 448 ≤ l.val ∧ 448 ≤ k.val
  · rw [dif_pos ⟨h1.1, by omega, h1.2, by omega⟩, dif_pos h1, transpose_ix2_apply]
  · rw [dif_neg (fun h => h1 ⟨h.1, h.2.2.1⟩), dif_neg h1]
    by_cases h2 : l.val < 448 ∧ k.val < 448
    · rw [dif_pos ⟨by omega, by omega, by omega, by omega⟩, dif_pos h2, transpose_ix2_apply]
      rfl
    · rw [dif_neg (fun h => h2 ⟨by omega, by omega⟩), dif_neg h2]
      rfl

/-- The second fused class weight: the two rectangular weights, transposed, on the diagonal. -/
theorem fused2_at (c : Dev nD) (l : Fin 896) (k : Fin 512) :
    V m c main_v72 (ix2 l k) = bdiag (b := 256) (fun l k => (m ((c : Thread nD τ).loc main_arg11)) (ix2 k l)) (fun l k => (m ((c : Thread nD τ).loc main_arg13)) (ix2 k l)) l k := by
  rw [V_main_v72, truncf_apply]
  rw [rc_place _ _ _ 448 256 (by rw [(corner_words 448#32 256#32).1]; exact word_448) (by rw [(corner_words 448#32 256#32).2]; exact word_256) (by omega) (by omega),
    rc_place _ _ _ 0 0 (by rw [(corner_words 0#32 0#32).1]; exact word_0) (by rw [(corner_words 0#32 0#32).2]; exact word_0) (by omega) (by omega)]
  unfold bdiag
  have hl := l.isLt
  have hk := k.isLt
  by_cases h1 : 448 ≤ l.val ∧ 256 ≤ k.val
  · rw [dif_pos ⟨h1.1, by omega, h1.2, by omega⟩, dif_pos h1, transpose_ix2_apply]
  · rw [dif_neg (fun h => h1 ⟨h.1, h.2.2.1⟩), dif_neg h1]
    by_cases h2 : l.val < 448 ∧ k.val < 256
    · rw [dif_pos ⟨by omega, by omega, by omega, by omega⟩, dif_pos h2, transpose_ix2_apply]
      rfl
    · rw [dif_neg (fun h => h2 ⟨by omega, by omega⟩), dif_neg h2]
      rfl

theorem bias1_lo (c : Dev nD) (k : Fin 896) (h : k.val < 448) : V m c main_v60 (ix2 0 k) = (m ((c : Thread nD τ).loc main_arg8)) (ix1 ⟨k.val, h⟩) := by
  rw [V_main_v60, shapeCast_a_1a_apply, halves_lo _ _ k h]
theorem bias1_hi (c : Dev nD) (k : Fin 896) (h : ¬ k.val < 448) : V m c main_v60 (ix2 0 k) = (m ((c : Thread nD τ).loc main_arg10)) (ix1 ⟨k.val - 448, by omega⟩) := by
  rw [V_main_v60, shapeCast_a_1a_apply, halves_hi _ _ k h]
theorem bias2_lo (c : Dev nD) (n : Fin 512) (h : n.val < 256) : V m c main_v74 (ix2 0 n) = (m ((c : Thread nD τ).loc main_arg12)) (ix1 ⟨n.val, h⟩) := by
  rw [V_main_v74, shapeCast_a_1a_apply, halves256_lo _ _ n h]
theorem bias2_hi (c : Dev nD) (n : Fin 512) (h : ¬ n.val < 256) : V m c main_v74 (ix2 0 n) = (m ((c : Thread nD τ).loc main_arg14)) (ix1 ⟨n.val - 256, by omega⟩) := by
  rw [V_main_v74, shapeCast_a_1a_apply, halves256_hi _ _ n h]

end Cert.KernelIdeal.Prepared

end
-- ==== Proof.RefSide.lean ====
/-
  The host program read entry by entry. Its generated stage-by-stage reading is chained from each result back to the
  argument arrays; what is added here are the joins it does not read (an entry of a join comes from the piece its
  coordinate falls in), the re-indexings at a row and a column, and the observation that the host's expansion of the
  logistic function into negate, exponential, add and divide is the logistic function.
-/
import proofs.«107390_j85950885527647_2_alg».proof.Proof.Gen.ReferenceIdeal.Read
import proofs.«107390_j85950885527647_2_alg».proof.Proof.SpecRef
import Idealize.ShloMosaic.Lib.ValueIdx
import Idealize.ShloMosaic.Lib.Pipeline.Value
import Idealize.ShloMosaic.PureOps.Ideal.Laws

set_option maxRecDepth 8192

noncomputable section

namespace Cert.ReferenceIdeal.RefValue

open Idealize.ShloMosaic Idealize.ShloMosaic.ValueIdx Cert.ReferenceIdeal Cert.ReferenceIdeal.Read Cert.GruRows

/-! ## Re-indexings at a row and a column -/
theorem idx_main_v0_ix (r : Fin 896) (q : Fin 2688) : idx_main_v0 (ix2 r q) = ix2 q r :=
  funext fun a => match a with | ⟨0, _⟩ => rfl | ⟨1, _⟩ => rfl
theorem lidx_main_v1_ix (r : Fin 16384) (q : Fin 2688) (k : Fin 896) : lidx_main_v1 (ix2 r q) k = ix2 r k :=
  funext fun a => match a with | ⟨0, _⟩ => rfl | ⟨1, _⟩ => rfl
theorem ridx_main_v1_ix (r : Fin 16384) (q : Fin 2688) (k : Fin 896) : ridx_main_v1 (ix2 r q) k = ix2 k q :=
  funext fun a => match a with | ⟨0, _⟩ => rfl | ⟨1, _⟩ => rfl
theorem idx_main_v3_ix (r : Fin 2) (q : Fin 1344) : idx_main_v3 (ix2 r q) = ix2 q r :=
  funext fun a => match a with | ⟨0, _⟩ => rfl | ⟨1, _⟩ => rfl
theorem lidx_main_v4_ix (r : Fin 16384) (q : Fin 1344) (k : Fin 2) : lidx_main_v4 (ix2 r q) k = ix2 r k :=
  funext fun a => match a with | ⟨0, _⟩ => rfl | ⟨1, _⟩ => rfl
theorem ridx_main_v4_ix (r : Fin 16384) (q : Fin 1344) (k : Fin 2) : ridx_main_v4 (ix2 r q) k = ix2 k q :=
  funext fun a => match a with | ⟨0, _⟩ => rfl | ⟨1, _⟩ => rfl
theorem idx_main_v6_ix (r : Fin 3) (q : Fin 1344) : idx_main_v6 (ix2 r q) = ix2 q r :=
  funext fun a => match a with | ⟨0, _⟩ => rfl | ⟨1, _⟩ => rfl
theorem lidx_main_v7_ix (r : Fin 16384) (q : Fin 1344) (k : Fin 3) : lidx_main_v7 (ix2 r q) k = ix2 r k :=
  funext fun a => match a with | ⟨0, _⟩ => rfl | ⟨1, _⟩ => rfl
theorem ridx_main_v7_ix (r : Fin 16384) (q : Fin 1344) (k : Fin 3) : ridx_main_v7 (ix2 r q) k = ix2 k q :=
  funext fun a => match a with | ⟨0, _⟩ => rfl | ⟨1, _⟩ => rfl
theorem idx_main_v8_ix (r : Fin 16384) (q : Fin 448) : idx_main_v8 (ix2 r q) = ix2 r (⟨q.val, by omega⟩ : Fin 1344) :=
  funext fun a => match a with | ⟨0, _⟩ => rfl | ⟨1, _⟩ => rfl
theorem idx_main_v9_ix (r : Fin 16384) (q : Fin 448) : idx_main_v9 (ix2 r q) = ix2 r (⟨q.val, by omega⟩ : Fin 1344) :=
  funext fun a => match a with | ⟨0, _⟩ => rfl | ⟨1, _⟩ => rfl
theorem idx_main_v11_ix (r : Fin 16384) (q : Fin 448) : idx_main_v11 (ix2 r q) = ix2 r (⟨448 + q.val, by omega⟩ : Fin 1344) :=
  funext fun a => match a with | ⟨0, _⟩ => rfl | ⟨1, _⟩ => rfl
theorem idx_main_v12_ix (r : Fin 16384) (q : Fin 448) : idx_main_v12 (ix2 r q) = ix2 r (⟨448 + q.val, by omega⟩ : Fin 1344) :=
  funext fun a => match a with | ⟨0, _⟩ => rfl | ⟨1, _⟩ => rfl
theorem idx_main_v14_ix (r : Fin 16384) (q : Fin 448) : idx_main_v14 (ix2 r q) = ix2 r (⟨896 + q.val, by omega⟩ : Fin 1344) :=
  funext fun a => match a with | ⟨0, _⟩ => rfl | ⟨1, _⟩ => rfl
theorem idx_main_v15_ix (r : Fin 16384) (q : Fin 448) : idx_main_v15 (ix2 r q) = ix2 r (⟨896 + q.val, by omega⟩ : Fin 1344) :=
  funext fun a => match a with | ⟨0, _⟩ => rfl | ⟨1, _⟩ => rfl
theorem idx_main_v17_ix (r : Fin 16384) (q : Fin 896) : idx_main_v17 (ix2 r q) = ix2 r (⟨q.val, by omega⟩ : Fin 2688) :=
  funext fun a => match a with | ⟨0, _⟩ => rfl | ⟨1, _⟩ => rfl
theorem idx_main_v19_ix (r : Fin 1) (q : Fin 896) : idx_main_v19 (ix2 r q) = ix1 q :=
  funext fun a => match a with | ⟨0, _⟩ => rfl
theorem idx_main_v20_ix (r : Fin 16384) (q : Fin 896) : idx_main_v20 (ix2 r q) = ix2 (0 : Fin 1) q :=
  funext fun a => match a with | ⟨0, _⟩ => rfl | ⟨1, _⟩ => rfl
theorem idx_main_v28_ix (r : Fin 16384) (q : Fin 896) : idx_main_v28 (ix2 r q) = ix2 r (⟨896 + q.val, by omega⟩ : Fin 2688) :=
  funext fun a => match a with | ⟨0, _⟩ => rfl | ⟨1, _⟩ => rfl
theorem idx_main_v30_ix (r : Fin 1) (q : Fin 896) : idx_main_v30 (ix2 r q) = ix1 q :=
  funext fun a => match a with | ⟨0, _⟩ => rfl
theorem idx_main_v31_ix (r : Fin 16384) (q : Fin 896) : idx_main_v31 (ix2 r q) = ix2 (0 : Fin 1) q :=
  funext fun a => match a with | ⟨0, _⟩ => rfl | ⟨1, _⟩ => rfl
theorem idx_main_v39_ix (r : Fin 16384) (q : Fin 896) : idx_main_v39 (ix2 r q) = ix2 r (⟨1792 + q.val, by omega⟩ : Fin 2688) :=
  funext fun a => match a with | ⟨0, _⟩ => rfl | ⟨1, _⟩ => rfl
theorem idx_main_v42_ix (r : Fin 1) (q : Fin 896) : idx_main_v42 (ix2 r q) = ix1 q :=
  funext fun a => match a with | ⟨0, _⟩ => rfl
theorem idx_main_v43_ix (r : Fin 16384) (q : Fin 896) : idx_main_v43 (ix2 r q) = ix2 (0 : Fin 1) q :=
  funext fun a => match a with | ⟨0, _⟩ => rfl | ⟨1, _⟩ => rfl
theorem idx_main_v51_ix (r : Fin 16384) (q : Fin 448) : idx_main_v51 (ix2 r q) = ix2 r (⟨q.val, by omega⟩ : Fin 896) :=
  funext fun a => match a with | ⟨0, _⟩ => rfl | ⟨1, _⟩ => rfl
theorem idx_main_v52_ix (r : Fin 16384) (q : Fin 448) : idx_main_v52 (ix2 r q) = ix2 r (⟨448 + q.val, by omega⟩ : Fin 896) :=
  funext fun a => match a with | ⟨0, _⟩ => rfl | ⟨1, _⟩ => rfl
theorem idx_main_v53_ix (r : Fin 448) (q : Fin 448) : idx_main_v53 (ix2 r q) = ix2 q r :=
  funext fun a => match a with | ⟨0, _⟩ => rfl | ⟨1, _⟩ => rfl
theorem lidx_main_v54_ix (r : Fin 16384) (q : Fin 448) (k : Fin 448) : lidx_main_v54 (ix2 r q) k = ix2 r k :=
  funext fun a => match a with | ⟨0, _⟩ => rfl | ⟨1, _⟩ => rfl
theorem ridx_main_v54_ix (r : Fin 16384) (q : Fin 448) (k : Fin 448) : ridx_main_v54 (ix2 r q) k = ix2 k q :=
  funext fun a => match a with | ⟨0, _⟩ => rfl | ⟨1, _⟩ => rfl
theorem idx_main_v55_ix (r : Fin 1) (q : Fin 448) : idx_main_v55 (ix2 r q) = ix1 q :=
  funext fun a => match a with | ⟨0, _⟩ => rfl
theorem idx_main_v56_ix (r : Fin 16384) (q : Fin 448) : idx_main_v56 (ix2 r q) = ix2 (0 : Fin 1) q :=
  funext fun a => match a with | ⟨0, _⟩ => rfl | ⟨1, _⟩ => rfl
theorem idx_main_v59_ix (r : Fin 448) (q : Fin 256) : idx_main_v59 (ix2 r q) = ix2 q r :=
  funext fun a => match a with | ⟨0, _⟩ => rfl | ⟨1, _⟩ => rfl
theorem lidx_main_v60_ix (r : Fin 16384) (q : Fin 256) (k : Fin 448) : lidx_main_v60 (ix2 r q) k = ix2 r k :=
  funext fun a => match a with | ⟨0, _⟩ => rfl | ⟨1, _⟩ => rfl
theorem ridx_main_v60_ix (r : Fin 16384) (q : Fin 256) (k : Fin 448) : ridx_main_v60 (ix2 r q) k = ix2 k q :=
  funext fun a => match a with | ⟨0, _⟩ => rfl | ⟨1, _⟩ => rfl
theorem idx_main_v61_ix (r : Fin 1) (q : Fin 256) : idx_main_v61 (ix2 r q) = ix1 q :=
  funext fun a => match a with | ⟨0, _⟩ => rfl
theorem idx_main_v62_ix (r : Fin 16384) (q : Fin 256) : idx_main_v62 (ix2 r q) = ix2 (0 : Fin 1) q :=
  funext fun a => match a with | ⟨0, _⟩ => rfl | ⟨1, _⟩ => rfl
theorem idx_main_v64_ix (r : Fin 448) (q : Fin 448) : idx_main_v64 (ix2 r q) = ix2 q r :=
  funext fun a => match a with | ⟨0, _⟩ => rfl | ⟨1, _⟩ => rfl
theorem lidx_main_v65_ix (r : Fin 16384) (q : Fin 448) (k : Fin 448) : lidx_main_v65 (ix2 r q) k = ix2 r k :=
  funext fun a => match a with | ⟨0, _⟩ => rfl | ⟨1, _⟩ => rfl
theorem ridx_main_v65_ix (r : Fin 16384) (q : Fin 448) (k : Fin 448) : ridx_main_v65 (ix2 r q) k = ix2 k q :=
  funext fun a => match a with | ⟨0, _⟩ => rfl | ⟨1, _⟩ => rfl
theorem idx_main_v66_ix (r : Fin 1) (q : Fin 448) : idx_main_v66 (ix2 r q) = ix1 q :=
  funext fun a => match a with | ⟨0, _⟩ => rfl
theorem idx_main_v67_ix (r : Fin 16384) (q : Fin 448) : idx_main_v67 (ix2 r q) = ix2 (0 : Fin 1) q :=
  funext fun a => match a with | ⟨0, _⟩ => rfl | ⟨1, _⟩ => rfl
theorem idx_main_v70_ix (r : Fin 448) (q : Fin 256) : idx_main_v70 (ix2 r q) = ix2 q r :=
  funext fun a => match a with | ⟨0, _⟩ => rfl | ⟨1, _⟩ => rfl
theorem lidx_main_v71_ix (r : Fin 16384) (q : Fin 256) (k : Fin 448) : lidx_main_v71 (ix2 r q) k = ix2 r k :=
  funext fun a => match a with | ⟨0, _⟩ => rfl | ⟨1, _⟩ => rfl
theorem ridx_main_v71_ix (r : Fin 16384) (q : Fin 256) (k : Fin 448) : ridx_main_v71 (ix2 r q) k = ix2 k q :=
  funext fun a => match a with | ⟨0, _⟩ => rfl | ⟨1, _⟩ => rfl
theorem idx_main_v72_ix (r : Fin 1) (q : Fin 256) : idx_main_v72 (ix2 r q) = ix1 q :=
  funext fun a => match a with | ⟨0, _⟩ => rfl
theorem idx_main_v73_ix (r : Fin 16384) (q : Fin 256) : idx_main_v73 (ix2 r q) = ix2 (0 : Fin 1) q :=
  funext fun a => match a with | ⟨0, _⟩ => rfl | ⟨1, _⟩ => rfl

/-! ## The logistic function as the host spells it -/

theorem one32_eq : one32 = 1 := by
  simp [one32, Ideal.ofBits, Ideal.ieee, -EReal.coe_mul]; norm_num

theorem host_sigm (z : EReal) :
    Ideal.div one32 (one32 + Ideal.exp (-z)) = sigm z := by
  rw [one32_eq]; rfl

variable (x0 : (⟨S16384x896, .f32⟩ : BufTy).Contents (Elt Ideal)) (x1 x2 x3 : (⟨S16384x1, .f32⟩ : BufTy).Contents (Elt Ideal)) (x4 : (⟨S2688x896, .f32⟩ : BufTy).Contents (Elt Ideal)) (x5 : (⟨S1344x2, .f32⟩ : BufTy).Contents (Elt Ideal)) (x6 : (⟨S1344x3, .f32⟩ : BufTy).Contents (Elt Ideal)) (x7 x9 : (⟨S448x448, .f32⟩ : BufTy).Contents (Elt Ideal)) (x8 x10 : (⟨S448, .f32⟩ : BufTy).Contents (Elt Ideal)) (x11 x13 : (⟨S256x448, .f32⟩ : BufTy).Contents (Elt Ideal)) (x12 x14 : (⟨S256, .f32⟩ : BufTy).Contents (Elt Ideal)) (x15 x16 x17 : (⟨S896, .f32⟩ : BufTy).Contents (Elt Ideal))

/-! ## The joins -/

theorem v2_at0 (r : Fin 16384) : val_main_v2 (F := Ideal) x1 x2 (ix2 r (0 : Fin 2)) = x1 (ix2 r (0 : Fin 1)) := by
  unfold val_main_v2
  refine concatenate_apply_piece _ _ _ (ix2 r (0 : Fin 2)) 0 ?_ S16384x1 x1 rfl rfl 0 rfl (ix2 r (0 : Fin 1)) ?_ ?_
  · show (0 : ℕ) < 2; decide
  · intro b hb; match b with | ⟨0, _⟩ => rfl | ⟨1, _⟩ => exact absurd rfl hb
  · rfl
theorem v2_at1 (r : Fin 16384) : val_main_v2 (F := Ideal) x1 x2 (ix2 r (1 : Fin 2)) = x2 (ix2 r (0 : Fin 1)) := by
  unfold val_main_v2
  refine concatenate_apply_piece _ _ _ (ix2 r (1 : Fin 2)) 1 ?_ S16384x1 x2 rfl rfl 1 rfl (ix2 r (0 : Fin 1)) ?_ ?_
  · show (1 : ℕ) < 2; decide
  · intro b hb; match b with | ⟨0, _⟩ => rfl | ⟨1, _⟩ => exact absurd rfl hb
  · rfl
theorem v5_at0 (r : Fin 16384) : val_main_v5 (F := Ideal) x1 x2 x3 (ix2 r (0 : Fin 3)) = x1 (ix2 r (0 : Fin 1)) := by
  unfold val_main_v5
  refine concatenate_apply_piece _ _ _ (ix2 r (0 : Fin 3)) 0 ?_ S16384x1 x1 rfl rfl 0 rfl (ix2 r (0 : Fin 1)) ?_ ?_
  · show (0 : ℕ) < 3; decide
  · intro b hb; match b with | ⟨0, _⟩ => rfl | ⟨1, _⟩ => exact absurd rfl hb
  · rfl
theorem v5_at1 (r : Fin 16384) : val_main_v5 (F := Ideal) x1 x2 x3 (ix2 r (1 : Fin 3)) = x2 (ix2 r (0 : Fin 1)) := by
  unfold val_main_v5
  refine concatenate_apply_piece _ _ _ (ix2 r (1 : Fin 3)) 1 ?_ S16384x1 x2 rfl rfl 1 rfl (ix2 r (0 : Fin 1)) ?_ ?_
  · show (1 : ℕ) < 3; decide
  · intro b hb; match b with | ⟨0, _⟩ => rfl | ⟨1, _⟩ => exact absurd rfl hb
  · rfl
theorem v5_at2 (r : Fin 16384) : val_main_v5 (F := Ideal) x1 x2 x3 (ix2 r (2 : Fin 3)) = x3 (ix2 r (0 : Fin 1)) := by
  unfold val_main_v5
  refine concatenate_apply_piece _ _ _ (ix2 r (2 : Fin 3)) 2 ?_ S16384x1 x3 rfl rfl 2 rfl (ix2 r (0 : Fin 1)) ?_ ?_
  · show (2 : ℕ) < 3; decide
  · intro b hb; match b with | ⟨0, _⟩ => rfl | ⟨1, _⟩ => exact absurd rfl hb
  · rfl

theorem v10_lo (r : Fin 16384) (q : Fin 896) (h : q.val < 448) :
    val_main_v10 (F := Ideal) x1 x2 x3 x5 x6 (ix2 r q) = val_main_v8 (F := Ideal) x1 x2 x5 (ix2 r ⟨q.val, h⟩) := by
  unfold val_main_v10
  refine concatenate_apply_piece _ _ _ (ix2 r q) 0 ?_ S16384x448 (val_main_v8 (F := Ideal) x1 x2 x5) rfl rfl 0 rfl (ix2 r ⟨q.val, h⟩) ?_ ?_
  · show (0 : ℕ) < 2; decide
  · intro b hb; match b with | ⟨0, _⟩ => rfl | ⟨1, _⟩ => exact absurd rfl hb
  · exact Nat.zero_add _
theorem v10_hi (r : Fin 16384) (q : Fin 896) (h : ¬ q.val < 448) :
    val_main_v10 (F := Ideal) x1 x2 x3 x5 x6 (ix2 r q) = val_main_v9 (F := Ideal) x1 x2 x3 x6 (ix2 r ⟨q.val - 448, by omega⟩) := by
  unfold val_main_v10
  refine concatenate_apply_piece _ _ _ (ix2 r q) 1 ?_ S16384x448 (val_main_v9 (F := Ideal) x1 x2 x3 x6) rfl rfl 448 rfl (ix2 r ⟨q.val - 448, by omega⟩) ?_ ?_
  · show (1 : ℕ) < 2; decide
  · intro b hb; match b with | ⟨0, _⟩ => rfl | ⟨1, _⟩ => exact absurd rfl hb
  · show 448 + (q.val - 448) = q.val; omega

theorem v13_lo (r : Fin 16384) (q : Fin 896) (h : q.val < 448) :
    val_main_v13 (F := Ideal) x1 x2 x3 x5 x6 (ix2 r q) = val_main_v11 (F := Ideal) x1 x2 x5 (ix2 r ⟨q.val, h⟩) := by
  unfold val_main_v13
  refine concatenate_apply_piece _ _ _ (ix2 r q) 0 ?_ S16384x448 (val_main_v11 (F := Ideal) x1 x2 x5) rfl rfl 0 rfl (ix2 r ⟨q.val, h⟩) ?_ ?_
  · show (0 : ℕ) < 2; decide
  · intro b hb; match b with | ⟨0, _⟩ => rfl | ⟨1, _⟩ => exact absurd rfl hb
  · exact Nat.zero_add _
theorem v13_hi (r : Fin 16384) (q : Fin 896) (h : ¬ q.val < 448) :
    val_main_v13 (F := Ideal) x1 x2 x3 x5 x6 (ix2 r q) = val_main_v12 (F := Ideal) x1 x2 x3 x6 (ix2 r ⟨q.val - 448, by omega⟩) := by
  unfold val_main_v13
  refine concatenate_apply_piece _ _ _ (ix2 r q) 1 ?_ S16384x448 (val_main_v12 (F := Ideal) x1 x2 x3 x6) rfl rfl 448 rfl (ix2 r ⟨q.val - 448, by omega⟩) ?_ ?_
  · show (1 : ℕ) < 2; decide
  · intro b hb; match b with | ⟨0, _⟩ => rfl | ⟨1, _⟩ => exact absurd rfl hb
  · show 448 + (q.val - 448) = q.val; omega

theorem v16_lo (r : Fin 16384) (q : Fin 896) (h : q.val < 448) :
    val_main_v16 (F := Ideal) x1 x2 x3 x5 x6 (ix2 r q) = val_main_v14 (F := Ideal) x1 x2 x5 (ix2 r ⟨q.val, h⟩) := by
  unfold val_main_v16
  refine concatenate_apply_piece _ _ _ (ix2 r q) 0 ?_ S16384x448 (val_main_v14 (F := Ideal) x1 x2 x5) rfl rfl 0 rfl (ix2 r ⟨q.val, h⟩) ?_ ?_
  · show (0 : ℕ) < 2; decide
  · intro b hb; match b with | ⟨0, _⟩ => rfl | ⟨1, _⟩ => exact absurd rfl hb
  · exact Nat.zero_add _
theorem v16_hi (r : Fin 16384) (q : Fin 896) (h : ¬ q.val < 448) :
    val_main_v16 (F := Ideal) x1 x2 x3 x5 x6 (ix2 r q) = val_main_v15 (F := Ideal) x1 x2 x3 x6 (ix2 r ⟨q.val - 448, by omega⟩) := by
  unfold val_main_v16
  refine concatenate_apply_piece _ _ _ (ix2 r q) 1 ?_ S16384x448 (val_main_v15 (F := Ideal) x1 x2 x3 x6) rfl rfl 448 rfl (ix2 r ⟨q.val - 448, by omega⟩) ?_ ?_
  · show (1 : ℕ) < 2; decide
  · intro b hb; match b with | ⟨0, _⟩ => rfl | ⟨1, _⟩ => exact absurd rfl hb
  · show 448 + (q.val - 448) = q.val; omega

/-! ## The new hidden state -/

set_option maxHeartbeats 4000000 in
/-- THE HOST'S NEW HIDDEN STATE at row `r`, column `q`. -/
theorem ref_hidden (r : Fin 16384) (q : Fin 896) :
    val_main_v50 (F := Ideal) x0 x1 x2 x3 x4 x5 x6 x15 x16 x17 (ix2 r q)
      = gruRef (fun k => x0 (ix2 r k)) (x1 (ix2 r 0)) (x2 (ix2 r 0)) (x3 (ix2 r 0)) (fun n k => x4 (ix2 n k))
          (fun j c => x5 (ix2 j c)) (fun j c => x6 (ix2 j c)) (fun q => x15 (ix1 q)) (fun q => x16 (ix1 q)) (fun q => x17 (ix1 q)) q := by
  unfold gruRef blend sideIn
  by_cases h : q.val < 448
  · simp only [dif_pos h, val_main_v0_apply, val_main_v1_apply, val_main_v3_apply, val_main_v4_apply, val_main_v6_apply, val_main_v7_apply, val_main_v8_apply, val_main_v9_apply, val_main_v11_apply, val_main_v12_apply, val_main_v14_apply, val_main_v15_apply, val_main_v17_apply, val_main_v18_apply, val_main_v19_apply, val_main_v20_apply, val_main_v21_apply, val_main_v22_apply, val_main_v23_apply, val_main_cst_apply, val_main_v24_apply, val_main_v25_apply, val_main_cst_0_apply, val_main_v26_apply, val_main_v27_apply, val_main_v28_apply, val_main_v29_apply, val_main_v30_apply, val_main_v31_apply, val_main_v32_apply, val_main_v33_apply, val_main_v34_apply, val_main_cst_1_apply, val_main_v35_apply, val_main_v36_apply, val_main_cst_2_apply, val_main_v37_apply, val_main_v38_apply, val_main_v39_apply, val_main_v40_apply, val_main_v41_apply, val_main_v42_apply, val_main_v43_apply, val_main_v44_apply, val_main_v45_apply, val_main_v46_apply, val_main_cst_3_apply, val_main_v47_apply, val_main_v48_apply, val_main_v49_apply, val_main_v50_apply,
      v10_lo x1 x2 x3 x5 x6 r q h, v13_lo x1 x2 x3 x5 x6 r q h, v16_lo x1 x2 x3 x5 x6 r q h,
      idx_main_v0_ix, lidx_main_v1_ix, ridx_main_v1_ix, idx_main_v3_ix, lidx_main_v4_ix, ridx_main_v4_ix, idx_main_v6_ix, lidx_main_v7_ix, ridx_main_v7_ix, idx_main_v8_ix, idx_main_v9_ix, idx_main_v11_ix, idx_main_v12_ix, idx_main_v14_ix, idx_main_v15_ix, idx_main_v17_ix, idx_main_v19_ix, idx_main_v20_ix, idx_main_v28_ix, idx_main_v30_ix, idx_main_v31_ix, idx_main_v39_ix, idx_main_v42_ix, idx_main_v43_ix, idx_main_v51_ix, idx_main_v52_ix, idx_main_v53_ix, lidx_main_v54_ix, ridx_main_v54_ix, idx_main_v55_ix, idx_main_v56_ix, idx_main_v59_ix, lidx_main_v60_ix, ridx_main_v60_ix, idx_main_v61_ix, idx_main_v62_ix, idx_main_v64_ix, lidx_main_v65_ix, ridx_main_v65_ix, idx_main_v66_ix, idx_main_v67_ix, idx_main_v70_ix, lidx_main_v71_ix, ridx_main_v71_ix, idx_main_v72_ix, idx_main_v73_ix,
      Fin.sum_univ_two, Fin.sum_univ_three, v2_at0, v2_at1, v5_at0, v5_at1, v5_at2,
      Ideal.addf_def, Ideal.subf_def, Ideal.mulf_def, Ideal.ofBits_def, Ideal.hostDivf_def, Ideal.hostNegf_def, Ideal.negf_def, Ideal.hostUnary_exp_def,
      Ideal.hostUnary_tanh_def, Ideal.tanh_def, host_sigm, Nat.zero_add, add_assoc]
  · simp only [dif_neg h, val_main_v0_apply, val_main_v1_apply, val_main_v3_apply, val_main_v4_apply, val_main_v6_apply, val_main_v7_apply, val_main_v8_apply, val_main_v9_apply, val_main_v11_apply, val_main_v12_apply, val_main_v14_apply, val_main_v15_apply, val_main_v17_apply, val_main_v18_apply, val_main_v19_apply, val_main_v20_apply, val_main_v21_apply, val_main_v22_apply, val_main_v23_apply, val_main_cst_apply, val_main_v24_apply, val_main_v25_apply, val_main_cst_0_apply, val_main_v26_apply, val_main_v27_apply, val_main_v28_apply, val_main_v29_apply, val_main_v30_apply, val_main_v31_apply, val_main_v32_apply, val_main_v33_apply, val_main_v34_apply, val_main_cst_1_apply, val_main_v35_apply, val_main_v36_apply, val_main_cst_2_apply, val_main_v37_apply, val_main_v38_apply, val_main_v39_apply, val_main_v40_apply, val_main_v41_apply, val_main_v42_apply, val_main_v43_apply, val_main_v44_apply, val_main_v45_apply, val_main_v46_apply, val_main_cst_3_apply, val_main_v47_apply, val_main_v48_apply, val_main_v49_apply, val_main_v50_apply,
      v10_hi x1 x2 x3 x5 x6 r q h, v13_hi x1 x2 x3 x5 x6 r q h, v16_hi x1 x2 x3 x5 x6 r q h,
      idx_main_v0_ix, lidx_main_v1_ix, ridx_main_v1_ix, idx_main_v3_ix, lidx_main_v4_ix, ridx_main_v4_ix, idx_main_v6_ix, lidx_main_v7_ix, ridx_main_v7_ix, idx_main_v8_ix, idx_main_v9_ix, idx_main_v11_ix, idx_main_v12_ix, idx_main_v14_ix, idx_main_v15_ix, idx_main_v17_ix, idx_main_v19_ix, idx_main_v20_ix, idx_main_v28_ix, idx_main_v30_ix, idx_main_v31_ix, idx_main_v39_ix, idx_main_v42_ix, idx_main_v43_ix, idx_main_v51_ix, idx_main_v52_ix, idx_main_v53_ix, lidx_main_v54_ix, ridx_main_v54_ix, idx_main_v55_ix, idx_main_v56_ix, idx_main_v59_ix, lidx_main_v60_ix, ridx_main_v60_ix, idx_main_v61_ix, idx_main_v62_ix, idx_main_v64_ix, lidx_main_v65_ix, ridx_main_v65_ix, idx_main_v66_ix, idx_main_v67_ix, idx_main_v70_ix, lidx_main_v71_ix, ridx_main_v71_ix, idx_main_v72_ix, idx_main_v73_ix,
      Fin.sum_univ_two, Fin.sum_univ_three, v2_at0, v2_at1, v5_at0, v5_at1, v5_at2,
      Ideal.addf_def, Ideal.subf_def, Ideal.mulf_def, Ideal.ofBits_def, Ideal.hostDivf_def, Ideal.hostNegf_def, Ideal.negf_def, Ideal.hostUnary_exp_def,
      Ideal.hostUnary_tanh_def, Ideal.tanh_def, host_sigm, Nat.zero_add, add_assoc]

/-! ## The class heads -/

set_option maxHeartbeats 4000000 in
/-- THE HOST'S COARSE CLASSES at row `r`, column `n`: the first head on the left half of the new row. -/
theorem ref_coarse (r : Fin 16384) (n : Fin 256) :
    val_main_v63 (F := Ideal) x0 x1 x2 x3 x4 x5 x6 x7 x8 x11 x12 x15 x16 x17 (ix2 r n)
      = headRef (fun l => val_main_v50 (F := Ideal) x0 x1 x2 x3 x4 x5 x6 x15 x16 x17 (ix2 r ⟨l.val, by omega⟩))
          (fun l k => x7 (ix2 k l)) (fun k => x8 (ix1 k)) (fun k n => x11 (ix2 n k)) (fun n => x12 (ix1 n)) n := by
  unfold headRef
  simp only [val_main_v63_apply, val_main_v60_apply, val_main_v58_apply, val_main_v57_apply, val_main_v54_apply, val_main_v51_apply, val_main_v53_apply, val_main_v55_apply, val_main_v56_apply, val_main_call0_v0_apply, val_main_call0_cst_apply, val_main_v59_apply, val_main_v61_apply, val_main_v62_apply,
    idx_main_v0_ix, lidx_main_v1_ix, ridx_main_v1_ix, idx_main_v3_ix, lidx_main_v4_ix, ridx_main_v4_ix, idx_main_v6_ix, lidx_main_v7_ix, ridx_main_v7_ix, idx_main_v8_ix, idx_main_v9_ix, idx_main_v11_ix, idx_main_v12_ix, idx_main_v14_ix, idx_main_v15_ix, idx_main_v17_ix, idx_main_v19_ix, idx_main_v20_ix, idx_main_v28_ix, idx_main_v30_ix, idx_main_v31_ix, idx_main_v39_ix, idx_main_v42_ix, idx_main_v43_ix, idx_main_v51_ix, idx_main_v52_ix, idx_main_v53_ix, lidx_main_v54_ix, ridx_main_v54_ix, idx_main_v55_ix, idx_main_v56_ix, idx_main_v59_ix, lidx_main_v60_ix, ridx_main_v60_ix, idx_main_v61_ix, idx_main_v62_ix, idx_main_v64_ix, lidx_main_v65_ix, ridx_main_v65_ix, idx_main_v66_ix, idx_main_v67_ix, idx_main_v70_ix, lidx_main_v71_ix, ridx_main_v71_ix, idx_main_v72_ix, idx_main_v73_ix,
    Ideal.addf_def, Ideal.mulf_def, Ideal.maximumf_def, Ideal.ofBits_def]

set_option maxHeartbeats 4000000 in
/-- THE HOST'S FINE CLASSES at row `r`, column `n`: the second head on the right half of the new row. -/
theorem ref_fine (r : Fin 16384) (n : Fin 256) :
    val_main_v74 (F := Ideal) x0 x1 x2 x3 x4 x5 x6 x9 x10 x13 x14 x15 x16 x17 (ix2 r n)
      = headRef (fun l => val_main_v50 (F := Ideal) x0 x1 x2 x3 x4 x5 x6 x15 x16 x17 (ix2 r ⟨448 + l.val, by omega⟩))
          (fun l k => x9 (ix2 k l)) (fun k => x10 (ix1 k)) (fun k n => x13 (ix2 n k)) (fun n => x14 (ix1 n)) n := by
  unfold headRef
  simp only [val_main_v74_apply, val_main_v71_apply, val_main_v69_apply, val_main_v68_apply, val_main_v65_apply, val_main_v52_apply, val_main_v64_apply, val_main_v66_apply, val_main_v67_apply, val_main_call1_v0_apply, val_main_call1_cst_apply, val_main_v70_apply, val_main_v72_apply, val_main_v73_apply,
    idx_main_v0_ix, lidx_main_v1_ix, ridx_main_v1_ix, idx_main_v3_ix, lidx_main_v4_ix, ridx_main_v4_ix, idx_main_v6_ix, lidx_main_v7_ix, ridx_main_v7_ix, idx_main_v8_ix, idx_main_v9_ix, idx_main_v11_ix, idx_main_v12_ix, idx_main_v14_ix, idx_main_v15_ix, idx_main_v17_ix, idx_main_v19_ix, idx_main_v20_ix, idx_main_v28_ix, idx_main_v30_ix, idx_main_v31_ix, idx_main_v39_ix, idx_main_v42_ix, idx_main_v43_ix, idx_main_v51_ix, idx_main_v52_ix, idx_main_v53_ix, lidx_main_v54_ix, ridx_main_v54_ix, idx_main_v55_ix, idx_main_v56_ix, idx_main_v59_ix, lidx_main_v60_ix, ridx_main_v60_ix, idx_main_v61_ix, idx_main_v62_ix, idx_main_v64_ix, lidx_main_v65_ix, ridx_main_v65_ix, idx_main_v66_ix, idx_main_v67_ix, idx_main_v70_ix, lidx_main_v71_ix, ridx_main_v71_ix, idx_main_v72_ix, idx_main_v73_ix,
    Ideal.addf_def, Ideal.mulf_def, Ideal.maximumf_def, Ideal.ofBits_def]

end Cert.ReferenceIdeal.RefValue

end
-- ==== Proof.Bridge.lean ====
/-
  The two programs compute one function. With the prepared weights read in terms of the arguments, a row of the grid's
  new hidden state is the host's row (the gate inputs re-associated, the zero coefficient dropped), and a row of each
  class result is the host's head on its half of the new row (the other half meets only zeros of the fused weights).
-/
import proofs.«107390_j85950885527647_2_alg».proof.Proof.Arrays
import proofs.«107390_j85950885527647_2_alg».proof.Proof.PreparedRead
import proofs.«107390_j85950885527647_2_alg».proof.Proof.RefSide

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Launched Cert.KernelIdeal.Arrays Cert.KernelIdeal.Prepared Cert.GruRows

variable (m : (ℓ : Loc nD τ sig) → Buf (Elt Ideal) ℓ)

/-- THE NEW HIDDEN STATE of the grid is the host program's, as functions of the argument arrays. -/
theorem hidden_eq (c : Dev nD) :
    GH (V m c main_arg0) (V m c main_v75) (V m c main_v1) (V m c main_v25) (V m c main_v36) (V m c main_v44) (V m c main_v46) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) := by
  funext i
  obtain ⟨r, q, rfl⟩ : ∃ (r : Fin 16384) (q : Fin 896), i = ix2 r q := ⟨i 0, i 1, eq_ix2 i⟩
  rw [Cert.ReferenceIdeal.RefValue.ref_hidden]
  show gruRow (fun k => V m c main_arg0 (ix2 r k)) (V m c main_v75 (ix2 r 0)) (V m c main_v75 (ix2 r 1)) (V m c main_v75 (ix2 r 2))
      (fun k n => V m c main_v1 (ix2 k n)) (fun n => V m c main_v25 (ix2 0 n)) (fun n => V m c main_v36 (ix2 0 n))
      (fun n => V m c main_v44 (ix2 0 n)) (fun n => V m c main_v46 (ix2 0 n)) q = _
  rw [V_main_arg0, side_0, side_1, side_2]
  have e : (fun (k : Fin 896) (n : Fin 2688) => V m c main_v1 (ix2 k n)) = fun k n => (m ((c : Thread nD τ).loc main_arg4)) (ix2 n k) :=
    funext fun k => funext fun n => recurrent_at m c k n
  rw [e]
  exact gruRow_eq_ref (fun k => (m ((c : Thread nD τ).loc main_arg0)) (ix2 r k)) ((m ((c : Thread nD τ).loc main_arg1)) (ix2 r 0)) ((m ((c : Thread nD τ).loc main_arg2)) (ix2 r 0)) ((m ((c : Thread nD τ).loc main_arg3)) (ix2 r 0))
      (fun n k => (m ((c : Thread nD τ).loc main_arg4)) (ix2 n k)) (fun j e => (m ((c : Thread nD τ).loc main_arg5)) (ix2 j e)) (fun j e => (m ((c : Thread nD τ).loc main_arg6)) (ix2 j e))
      (fun q => (m ((c : Thread nD τ).loc main_arg15)) (ix1 q)) (fun q => (m ((c : Thread nD τ).loc main_arg16)) (ix1 q)) (fun q => (m ((c : Thread nD τ).loc main_arg17)) (ix1 q))
      (fun n => V m c main_v25 (ix2 0 n)) (fun n => V m c main_v36 (ix2 0 n)) (fun n => V m c main_v44 (ix2 0 n)) (fun n => V m c main_v46 (ix2 0 n)) q
      (coefC_U m c q) (coefF_U m c q) (coefV_U m c q) (bias_U m c q)
      (coefC_R m c q) (coefF_R m c q) (coefV_R m c q) (bias_R m c q)
      (coefC_E m c q) (coefF_E m c q) (coefV_E m c q) (bias_E m c q)

theorem fused1_eq (c : Dev nD) :
    (fun (l k : Fin 896) => V m c main_v58 (ix2 l k)) = bdiag (b := 448) (fun l k => (m ((c : Thread nD τ).loc main_arg7)) (ix2 k l)) (fun l k => (m ((c : Thread nD τ).loc main_arg9)) (ix2 k l)) :=
  funext fun l => funext fun k => fused1_at m c l k
theorem fused2_eq (c : Dev nD) :
    (fun (l : Fin 896) (k : Fin 512) => V m c main_v72 (ix2 l k)) = bdiag (b := 256) (fun l k => (m ((c : Thread nD τ).loc main_arg11)) (ix2 k l)) (fun l k => (m ((c : Thread nD τ).loc main_arg13)) (ix2 k l)) :=
  funext fun l => funext fun k => fused2_at m c l k

/-- The fused class row of the grid, with the fused weights written as block-diagonal matrices. -/
theorem heads_eq (c : Dev nD) (r : Fin 16384) (n : Fin 512) :
    GP (V m c main_arg0) (V m c main_v75) (V m c main_v1) (V m c main_v25) (V m c main_v36) (V m c main_v44) (V m c main_v46) (V m c main_v58) (V m c main_v60) (V m c main_v72) (V m c main_v74) r n
      = clsRow (fun l => Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg15)) (m ((c : Thread nD τ).loc main_arg16)) (m ((c : Thread nD τ).loc main_arg17)) (ix2 r l))
          (bdiag (b := 448) (fun l k => (m ((c : Thread nD τ).loc main_arg7)) (ix2 k l)) (fun l k => (m ((c : Thread nD τ).loc main_arg9)) (ix2 k l))) (fun k => V m c main_v60 (ix2 0 k))
          (bdiag (b := 256) (fun l k => (m ((c : Thread nD τ).loc main_arg11)) (ix2 k l)) (fun l k => (m ((c : Thread nD τ).loc main_arg13)) (ix2 k l))) (fun n => V m c main_v74 (ix2 0 n)) n := by
  unfold GP
  rw [hidden_eq m c, fused1_eq m c, fused2_eq m c]

/-- THE COARSE CLASSES of the grid are the host program's. -/
theorem coarse_eq (c : Dev nD) :
    GC (GP (V m c main_arg0) (V m c main_v75) (V m c main_v1) (V m c main_v25) (V m c main_v36) (V m c main_v44) (V m c main_v46) (V m c main_v58) (V m c main_v60) (V m c main_v72) (V m c main_v74)) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg15)) (m ((c : Thread nD τ).loc main_arg16)) (m ((c : Thread nD τ).loc main_arg17)) := by
  funext i
  obtain ⟨r, n, rfl⟩ : ∃ (r : Fin 16384) (n : Fin 256), i = ix2 r n := ⟨i 0, i 1, eq_ix2 i⟩
  rw [Cert.ReferenceIdeal.RefValue.ref_coarse]
  show GP (V m c main_arg0) (V m c main_v75) (V m c main_v1) (V m c main_v25) (V m c main_v36) (V m c main_v44) (V m c main_v46) (V m c main_v58) (V m c main_v60) (V m c main_v72) (V m c main_v74) r ⟨n.val, _⟩ = _
  rw [heads_eq m c r]
  refine (clsRow_left _ _ _ _ _ _ _ n).trans ?_
  unfold headRef
  have hb1 : ∀ k : Fin 448, V m c main_v60 (ix2 0 (⟨k.val, by omega⟩ : Fin 896)) = (m ((c : Thread nD τ).loc main_arg8)) (ix1 k) :=
    fun k => bias1_lo m c ⟨k.val, by omega⟩ k.isLt
  have hb2 : V m c main_v74 (ix2 0 (⟨n.val, by omega⟩ : Fin 512)) = (m ((c : Thread nD τ).loc main_arg12)) (ix1 n) := bias2_lo m c ⟨n.val, by omega⟩ n.isLt
  simp only [hb1, hb2]

/-- THE FINE CLASSES of the grid are the host program's. -/
theorem fine_eq (c : Dev nD) :
    GF (GP (V m c main_arg0) (V m c main_v75) (V m c main_v1) (V m c main_v25) (V m c main_v36) (V m c main_v44) (V m c main_v46) (V m c main_v58) (V m c main_v60) (V m c main_v72) (V m c main_v74)) = Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg9)) (m ((c : Thread nD τ).loc main_arg10)) (m ((c : Thread nD τ).loc main_arg13)) (m ((c : Thread nD τ).loc main_arg14)) (m ((c : Thread nD τ).loc main_arg15)) (m ((c : Thread nD τ).loc main_arg16)) (m ((c : Thread nD τ).loc main_arg17)) := by
  funext i
  obtain ⟨r, n, rfl⟩ : ∃ (r : Fin 16384) (n : Fin 256), i = ix2 r n := ⟨i 0, i 1, eq_ix2 i⟩
  rw [Cert.ReferenceIdeal.RefValue.ref_fine]
  show GP (V m c main_arg0) (V m c main_v75) (V m c main_v1) (V m c main_v25) (V m c main_v36) (V m c main_v44) (V m c main_v46) (V m c main_v58) (V m c main_v60) (V m c main_v72) (V m c main_v74) r ⟨256 + n.val, _⟩ = _
  rw [heads_eq m c r]
  refine (clsRow_right _ _ _ _ _ _ _ n).trans ?_
  unfold headRef
  have hb1 : ∀ k : Fin 448, V m c main_v60 (ix2 0 (⟨448 + k.val, by omega⟩ : Fin 896)) = (m ((c : Thread nD τ).loc main_arg10)) (ix1 k) := fun k => by
    rw [bias1_hi m c ⟨448 + k.val, by omega⟩ (by show ¬ 448 + k.val < 448; omega)]
    exact congrArg (fun j => (m ((c : Thread nD τ).loc main_arg10)) (ix1 j)) (Fin.ext (by show 448 + k.val - 448 = k.val; omega))
  have hb2 : V m c main_v74 (ix2 0 (⟨256 + n.val, by omega⟩ : Fin 512)) = (m ((c : Thread nD τ).loc main_arg14)) (ix1 n) := by
    rw [bias2_hi m c ⟨256 + n.val, by omega⟩ (by show ¬ 256 + n.val < 256; omega)]
    exact congrArg (fun j => (m ((c : Thread nD τ).loc main_arg14)) (ix1 j)) (Fin.ext (by show 256 + n.val - 256 = n.val; omega))
  simp only [hb1, hb2]

end Cert.KernelIdeal.Bridge

end
-- ==== Proof.lean ====
/-
  A gated recurrent step with two class heads, as a pipelined grid of thirty-two row tiles against the plain array
  program.

  Frames. Each grid step reads its row tile of the hidden state and of the packed side inputs and the whole of each
  prepared weight, and overwrites its row tile of the three results; the weight preparation before the launch writes
  fresh buffers only. So both printings of the grid terminate without fault and leave the arguments alone, and the
  array program, which has no launch at all, does so by its own run.

  Values, on the extended reals. The grid adds each bias into its gate input before adding the projection and scales
  a zero coefficient on the coarse half of the columns; the array program adds the bias last and has no such term.
  Addition is associative and `x · 0 = 0` for every extended real, so the gate pre-activations agree, and with them
  the gates, the candidate and the blended row. The class heads are one block-diagonal layer in the grid and two
  half-width layers in the array program: in a sum over the full row every term of the other half carries a zero
  weight. Nothing here needs the inputs to be finite.

  Preservation is trivial: the idealization rewrote no operation.
-/
import proofs.«107390_j85950885527647_2_alg».proof.Defs
import proofs.«107390_j85950885527647_2_alg».proof.Proof.Gen.Kernel
import proofs.«107390_j85950885527647_2_alg».proof.Proof.Gen.KernelIdeal
import proofs.«107390_j85950885527647_2_alg».proof.Proof.Gen.ReferenceIdeal
import proofs.«107390_j85950885527647_2_alg».proof.Proof.Gen.Pre_finite_inputs
import proofs.«107390_j85950885527647_2_alg».proof.Proof.StepBits
import proofs.«107390_j85950885527647_2_alg».proof.Proof.KernelRun
import proofs.«107390_j85950885527647_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Launched.frame m ρ

theorem frame_ki : Cert.frame_KernelIdeal := fun m ρ _ => Cert.KernelIdeal.Launched.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

set_option maxHeartbeats 2000000 in
theorem algebraic : Cert.algebraic_KernelIdeal_ReferenceIdeal := by
  intro m ρ m' ρ' _ hagree
  refine ⟨_, _, _, Cert.KernelIdeal.Arrays.run_values m ρ, ?_⟩
  refine (θ_run Cert.ReferenceIdeal.defs _ _).mono (fun r h c => ⟨?_, ?_, ?_, (h c).2.2.2⟩)
    (Cert.ReferenceIdeal.Value.run (F := Ideal) m' ρ')
  · rw [(h c).1, Cert.ReferenceIdeal.Read.val_main_v50_eq, Cert.KernelIdeal.Bridge.hidden_eq m c,
      (hagree c).1, (hagree c).2.1, (hagree c).2.2.1, (hagree c).2.2.2.1, (hagree c).2.2.2.2.1, (hagree c).2.2.2.2.2.1, (hagree c).2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  · rw [(h c).2.1, Cert.ReferenceIdeal.Read.val_main_v63_eq, Cert.KernelIdeal.Bridge.coarse_eq m c,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2.1, (hagree c).2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]
  · rw [(h c).2.2.1, Cert.ReferenceIdeal.Read.val_main_v74_eq, Cert.KernelIdeal.Bridge.fine_eq m c,
      (hagree c).1, (hagree c).2.1, (hagree c).2.2.1, (hagree c).2.2.2.1, (hagree c).2.2.2.2.1, (hagree c).2.2.2.2.2.1, (hagree c).2.2.2.2.2.2.1, (hagree c).2.2.2.2.2.2.2.2.2.1, (hagree c).2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
